-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256 .f32) (main_arg7 : FVec F S256x64 .f32) (main_arg8 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S2000 : Shape := ⟨1, ![2000]⟩
abbrev S2000x1 : Shape := ⟨2, ![2000, 1]⟩
abbrev S800000x256 : Shape := ⟨2, ![800000, 256]⟩
abbrev S50000x64 : Shape := ⟨2, ![50000, 64]⟩
abbrev S2000x64 : Shape := ⟨2, ![2000, 64]⟩
abbrev S1x64 : Shape := ⟨2, ![1, 64]⟩
abbrev S1 : Shape := ⟨1, ![1]⟩
abbrev S49999 : Shape := ⟨1, ![49999]⟩
abbrev S500 : Shape := ⟨1, ![500]⟩
abbrev S50000x1 : Shape := ⟨2, ![50000, 1]⟩
abbrev S500x1 : Shape := ⟨2, ![500, 1]⟩
abbrev S500x64 : Shape := ⟨2, ![500, 64]⟩

abbrev nBuf : Space → Nat
  | .hbm => 133
  | .vmem => 18
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x256, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x256, .f32⟩
  | 36 => ⟨S_, .f32⟩
  | 37 => ⟨S50000x256, .f32⟩
  | 38 => ⟨S800000x1, .i32⟩
  | 39 => ⟨S50000x256, .f32⟩
  | 40 => ⟨S50000x256, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x256, .f32⟩
  | 50 => ⟨S_, .f32⟩
  | 51 => ⟨S50000x256, .f32⟩
  | 52 => ⟨S800000x1, .i32⟩
  | 53 => ⟨S50000x256, .f32⟩
  | 54 => ⟨S50000x64, .f32⟩
  | 55 => ⟨S_, .i1⟩
  | 56 => ⟨S1, .i1⟩
  | 57 => ⟨S49999, .i32⟩
  | 58 => ⟨S49999, .i32⟩
  | 59 => ⟨S49999, .i1⟩
  | 60 => ⟨S50000, .i1⟩
  | 61 => ⟨S50000, .i32⟩
  | 62 => ⟨S_, .i32⟩
  | 63 => ⟨S_, .i32⟩
  | 64 => ⟨S50000, .i32⟩
  | 65 => ⟨S_, .i32⟩
  | 66 => ⟨S500, .i32⟩
  | 67 => ⟨S_, .i32⟩
  | 68 => ⟨S_, .i32⟩
  | 69 => ⟨S50000, .i32⟩
  | 70 => ⟨S50000, .i32⟩
  | 71 => ⟨S_, .i32⟩
  | 72 => ⟨S50000, .i32⟩
  | 73 => ⟨S50000, .i1⟩
  | 74 => ⟨S_, .i32⟩
  | 75 => ⟨S50000, .i32⟩
  | 76 => ⟨S50000, .i32⟩
  | 77 => ⟨S50000, .i32⟩
  | 78 => ⟨S50000x1, .i32⟩
  | 79 => ⟨S_, .i32⟩
  | 80 => ⟨S50000, .i32⟩
  | 81 => ⟨S500, .i32⟩
  | 82 => ⟨S_, .i32⟩
  | 83 => ⟨S_, .i32⟩
  | 84 => ⟨S500, .i32⟩
  | 85 => ⟨S_, .i32⟩
  | 86 => ⟨S500, .i32⟩
  | 87 => ⟨S500, .i32⟩
  | 88 => ⟨S500, .i32⟩
  | 89 => ⟨S_, .i32⟩
  | 90 => ⟨S500, .i32⟩
  | 91 => ⟨S500, .i1⟩
  | 92 => ⟨S500, .i32⟩
  | 93 => ⟨S500, .i32⟩
  | 94 => ⟨S_, .i32⟩
  | 95 => ⟨S500, .i32⟩
  | 96 => ⟨S500, .i1⟩
  | 97 => ⟨S500, .i1⟩
  | 98 => ⟨S_, .i32⟩
  | 99 => ⟨S500, .i32⟩
  | 100 => ⟨S500, .i32⟩
  | 101 => ⟨S500, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S500, .i32⟩
  | 109 => ⟨S500, .i32⟩
  | 110 => ⟨S_, .i32⟩
  | 111 => ⟨S500, .i32⟩
  | 112 => ⟨S500, .i1⟩
  | 113 => ⟨S_, .i32⟩
  | 114 => ⟨S500, .i32⟩
  | 115 => ⟨S500, .i1⟩
  | 116 => ⟨S_, .i32⟩
  | 117 => ⟨S_, .i1⟩
  | 118 => ⟨S500, .i1⟩
  | 119 => ⟨S500, .i1⟩
  | 120 => ⟨S500, .i1⟩
  | 121 => ⟨S500, .i32⟩
  | 122 => ⟨S500, .i32⟩
  | 123 => ⟨S500, .i32⟩
  | 124 => ⟨S_, .i32⟩
  | 125 => ⟨S500, .i32⟩
  | 126 => ⟨S500, .i1⟩
  | 127 => ⟨S_, .i32⟩
  | _ => ⟨S50000x128, .f32⟩

abbrev hbmTy0_1 (i : Nat) : BufTy := match i % 128 with
  | 0 => ⟨S500, .i32⟩
  | 1 => ⟨S500, .i32⟩
  | 2 => ⟨S500, .i32⟩
  | 3 => ⟨S500x1, .i32⟩
  | 4 => ⟨S500x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x64, .f32⟩
  | .local _ .vmem, ⟨15, _⟩ => ⟨S64, .f32⟩
  | .local _ .vmem, ⟨16, _⟩ => ⟨S2000x64, .f32⟩
  | .local _ .vmem, ⟨17, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call0_v0 : Ref sig .tc := ⟨.hbm, 61, rfl⟩
abbrev main_call0_call0_c : Ref sig .tc := ⟨.hbm, 62, rfl⟩
abbrev main_call0_call0_v0 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_c_9 : Ref sig .tc := ⟨.hbm, 67, rfl⟩
abbrev main_call1_v0 : Ref sig .tc := ⟨.hbm, 68, rfl⟩
abbrev main_call1_v1 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_12 : Ref sig .tc := ⟨.hbm, 79, rfl⟩
abbrev main_v51 : Ref sig .tc := ⟨.hbm, 80, rfl⟩
abbrev main_v52 : Ref sig .tc := ⟨.hbm, 81, rfl⟩
abbrev main_call2_call0_c : Ref sig .tc := ⟨.hbm, 82, rfl⟩
abbrev main_call2_call0_v0 : Ref sig .tc := ⟨.hbm, 83, rfl⟩
abbrev main_v53 : Ref sig .tc := ⟨.hbm, 84, rfl⟩
abbrev main_c_13 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_v6 : Ref sig .tc := ⟨.hbm, 92, rfl⟩
abbrev main_call3_v7 : Ref sig .tc := ⟨.hbm, 93, rfl⟩
abbrev main_call3_c : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_c_0 : Ref sig .tc := ⟨.hbm, 98, rfl⟩
abbrev main_call3_v11 : Ref sig .tc := ⟨.hbm, 99, rfl⟩
abbrev main_call3_v12 : Ref sig .tc := ⟨.hbm, 100, rfl⟩
abbrev main_v54 : Ref sig .tc := ⟨.hbm, 101, rfl⟩
abbrev main_c_14 : Ref sig .tc := ⟨.hbm, 102, rfl⟩
abbrev main_call4_v0 : Ref sig .tc := ⟨.hbm, 103, rfl⟩
abbrev main_call4_c : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_c_1 : Ref sig .tc := ⟨.hbm, 110, rfl⟩
abbrev main_call4_v5 : Ref sig .tc := ⟨.hbm, 111, rfl⟩
abbrev main_call4_v6 : Ref sig .tc := ⟨.hbm, 112, rfl⟩
abbrev main_call4_c_2 : Ref sig .tc := ⟨.hbm, 113, rfl⟩
abbrev main_call4_v7 : Ref sig .tc := ⟨.hbm, 114, rfl⟩
abbrev main_call4_v8 : Ref sig .tc := ⟨.hbm, 115, rfl⟩
abbrev main_call4_c_3 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_v12 : Ref sig .tc := ⟨.hbm, 120, rfl⟩
abbrev main_call4_v13 : Ref sig .tc := ⟨.hbm, 121, rfl⟩
abbrev main_call4_v14 : Ref sig .tc := ⟨.hbm, 122, rfl⟩
abbrev main_v55 : Ref sig .tc := ⟨.hbm, 123, rfl⟩
abbrev main_c_15 : Ref sig .tc := ⟨.hbm, 124, rfl⟩
abbrev main_v56 : Ref sig .tc := ⟨.hbm, 125, rfl⟩
abbrev main_v57 : Ref sig .tc := ⟨.hbm, 126, rfl⟩
abbrev main_c_16 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  reduces_S2000x64_S2000 : S2000x64.Reduces [1] S2000
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S1 : S_.BroadcastsInDim S1 (![] : Fin 0 → Fin S1.rank)
  slices_S50000_S49999_1 : S50000.Slices ![1] S49999
  slices_S50000_S49999_0 : S50000.Slices ![0] S49999
  concatenates_S1_S49999_S50000_d0 : Shape.Concatenates [S1, S49999] S50000 0
  natLt_1_32 : 1 < 32
  bcast_S_S_ : S_.BroadcastsInDim S_ (![] : Fin 0 → Fin S_.rank)
  reduceWindows_S50000_S50000_w50000s1p49999_0 : S50000.ReduceWindows (![50000] : Fin 1 → Nat) ![1] ![49999] ![0] S50000
  h_S_ : 0 < S_.numel
  bcast_S_S500 : S_.BroadcastsInDim S500 (![] : Fin 0 → Fin S500.rank)
  bcast_S_S50000 : S_.BroadcastsInDim S50000 (![] : Fin 0 → Fin S50000.rank)
  bcast_S50000_S50000x1_0 : S50000.BroadcastsInDim S50000x1 (![0] : Fin 1 → Fin S50000x1.rank)
  reduceWindows_S500_S500_w500s1p499_0 : S500.ReduceWindows (![500] : Fin 1 → Nat) ![1] ![499] ![0] S500
  bcast_S500_S500x1_0 : S500.BroadcastsInDim S500x1 (![0] : Fin 1 → Fin S500x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  scatter_S500_S50000x1_S50000_n_0_0_1_wf : ScatterDims.WF S500 S50000x1 S50000 [] [0] [0] 1
  gather_S50000x64_S500x1_S500x64_1_0_n_n_0_1_164_wf : GatherDims.WF S50000x64 S500x1 S500x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x64_S500x1_S500x64_1_0_n_n_0_1_164 : GatherDims S50000x64 S500x1 S500x64 where
  offsetDims := [1]
  collapsedSliceDims := [0]
  operandBatchingDims := []
  startIndicesBatchingDims := []
  startIndexMap := [0]
  indexVectorDim := 1
  sliceSizes := ![1, 64]
  wf := gather_S50000x64_S500x1_S500x64_1_0_n_n_0_1_164_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S50000x1 : Shape := ⟨2, ![50000, 1]⟩
abbrev S800000x256 : Shape := ⟨2, ![800000, 256]⟩
abbrev S50000x64 : Shape := ⟨2, ![50000, 64]⟩
abbrev S1x64 : Shape := ⟨2, ![1, 64]⟩
abbrev S1 : Shape := ⟨1, ![1]⟩
abbrev S49999 : Shape := ⟨1, ![49999]⟩
abbrev S500 : Shape := ⟨1, ![500]⟩
abbrev S500x1 : Shape := ⟨2, ![500, 1]⟩
abbrev S500x64 : Shape := ⟨2, ![500, 64]⟩

abbrev nBuf : Space → Nat
  | .hbm => 196
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x256, .f32⟩
  | 27 => ⟨S1x256, .f32⟩
  | 28 => ⟨S50000x256, .f32⟩
  | 29 => ⟨S50000x256, .f32⟩
  | 30 => ⟨S50000x256, .f32⟩
  | 31 => ⟨S_, .f32⟩
  | 32 => ⟨S50000, .f32⟩
  | 33 => ⟨S50000x1, .f32⟩
  | 34 => ⟨S50000x1, .f32⟩
  | 35 => ⟨S_, .f32⟩
  | 36 => ⟨S50000x1, .f32⟩
  | 37 => ⟨S50000x1, .f32⟩
  | 38 => ⟨S50000x256, .f32⟩
  | 39 => ⟨S50000x256, .f32⟩
  | 40 => ⟨S_, .f32⟩
  | 41 => ⟨S_, .f32⟩
  | 42 => ⟨S50000x256, .f32⟩
  | 43 => ⟨S50000x256, .i1⟩
  | 44 => ⟨S_, .f32⟩
  | 45 => ⟨S50000x256, .f32⟩
  | 46 => ⟨S50000x256, .f32⟩
  | 47 => ⟨S50000x256, .f32⟩
  | 48 => ⟨S1x800000, .i32⟩
  | 49 => ⟨S800000, .i32⟩
  | 50 => ⟨S1x800000, .i32⟩
  | 51 => ⟨S800000, .i32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x256, .f32⟩
  | 61 => ⟨S_, .f32⟩
  | 62 => ⟨S50000x256, .f32⟩
  | 63 => ⟨S800000x1, .i32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S50000x256, .f32⟩
  | 70 => ⟨S_, .f32⟩
  | 71 => ⟨S50000, .f32⟩
  | 72 => ⟨S50000x1, .f32⟩
  | 73 => ⟨S50000x1, .f32⟩
  | 74 => ⟨S_, .f32⟩
  | 75 => ⟨S50000x1, .f32⟩
  | 76 => ⟨S50000x1, .f32⟩
  | 77 => ⟨S50000x256, .f32⟩
  | 78 => ⟨S50000x256, .f32⟩
  | 79 => ⟨S_, .f32⟩
  | 80 => ⟨S_, .f32⟩
  | 81 => ⟨S50000x256, .f32⟩
  | 82 => ⟨S50000x256, .i1⟩
  | 83 => ⟨S_, .f32⟩
  | 84 => ⟨S50000x256, .f32⟩
  | 85 => ⟨S50000x256, .f32⟩
  | 86 => ⟨S50000x256, .f32⟩
  | 87 => ⟨S1x800000, .i32⟩
  | 88 => ⟨S800000, .i32⟩
  | 89 => ⟨S1x800000, .i32⟩
  | 90 => ⟨S800000, .i32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x256, .f32⟩
  | 100 => ⟨S_, .f32⟩
  | 101 => ⟨S50000x256, .f32⟩
  | 102 => ⟨S800000x1, .i32⟩
  | 103 => ⟨S50000x256, .f32⟩
  | 104 => ⟨S50000x64, .f32⟩
  | 105 => ⟨S1x64, .f32⟩
  | 106 => ⟨S50000x64, .f32⟩
  | 107 => ⟨S50000x64, .f32⟩
  | 108 => ⟨S50000x64, .f32⟩
  | 109 => ⟨S_, .f32⟩
  | 110 => ⟨S50000, .f32⟩
  | 111 => ⟨S50000x1, .f32⟩
  | 112 => ⟨S50000x1, .f32⟩
  | 113 => ⟨S_, .f32⟩
  | 114 => ⟨S50000x1, .f32⟩
  | 115 => ⟨S50000x1, .f32⟩
  | 116 => ⟨S50000x64, .f32⟩
  | 117 => ⟨S50000x64, .f32⟩
  | 118 => ⟨S_, .i1⟩
  | 119 => ⟨S1, .i1⟩
  | 120 => ⟨S49999, .i32⟩
  | 121 => ⟨S49999, .i32⟩
  | 122 => ⟨S49999, .i1⟩
  | 123 => ⟨S50000, .i1⟩
  | 124 => ⟨S50000, .i32⟩
  | 125 => ⟨S_, .i32⟩
  | 126 => ⟨S_, .i32⟩
  | 127 => ⟨S50000, .i32⟩
  | _ => ⟨S50000x128, .f32⟩

abbrev hbmTy0_1 (i : Nat) : BufTy := match i % 128 with
  | 0 => ⟨S_, .i32⟩
  | 1 => ⟨S500, .i32⟩
  | 2 => ⟨S_, .i32⟩
  | 3 => ⟨S_, .i32⟩
  | 4 => ⟨S50000, .i32⟩
  | 5 => ⟨S50000, .i32⟩
  | 6 => ⟨S_, .i32⟩
  | 7 => ⟨S50000, .i32⟩
  | 8 => ⟨S50000, .i1⟩
  | 9 => ⟨S_, .i32⟩
  | 10 => ⟨S50000, .i32⟩
  | 11 => ⟨S50000, .i32⟩
  | 12 => ⟨S50000, .i32⟩
  | 13 => ⟨S50000x1, .i32⟩
  | 14 => ⟨S_, .i32⟩
  | 15 => ⟨S50000, .i32⟩
  | 16 => ⟨S500, .i32⟩
  | 17 => ⟨S_, .i32⟩
  | 18 => ⟨S_, .i32⟩
  | 19 => ⟨S500, .i32⟩
  | 20 => ⟨S_, .i32⟩
  | 21 => ⟨S500, .i32⟩
  | 22 => ⟨S500, .i32⟩
  | 23 => ⟨S500, .i32⟩
  | 24 => ⟨S_, .i32⟩
  | 25 => ⟨S500, .i32⟩
  | 26 => ⟨S500, .i1⟩
  | 27 => ⟨S500, .i32⟩
  | 28 => ⟨S500, .i32⟩
  | 29 => ⟨S_, .i32⟩
  | 30 => ⟨S500, .i32⟩
  | 31 => ⟨S500, .i1⟩
  | 32 => ⟨S500, .i1⟩
  | 33 => ⟨S_, .i32⟩
  | 34 => ⟨S500, .i32⟩
  | 35 => ⟨S500, .i32⟩
  | 36 => ⟨S500, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S500, .i32⟩
  | 44 => ⟨S500, .i32⟩
  | 45 => ⟨S_, .i32⟩
  | 46 => ⟨S500, .i32⟩
  | 47 => ⟨S500, .i1⟩
  | 48 => ⟨S_, .i32⟩
  | 49 => ⟨S500, .i32⟩
  | 50 => ⟨S500, .i1⟩
  | 51 => ⟨S_, .i32⟩
  | 52 => ⟨S_, .i1⟩
  | 53 => ⟨S500, .i1⟩
  | 54 => ⟨S500, .i1⟩
  | 55 => ⟨S500, .i1⟩
  | 56 => ⟨S500, .i32⟩
  | 57 => ⟨S500, .i32⟩
  | 58 => ⟨S500, .i32⟩
  | 59 => ⟨S_, .i32⟩
  | 60 => ⟨S500, .i32⟩
  | 61 => ⟨S500, .i1⟩
  | 62 => ⟨S_, .i32⟩
  | 63 => ⟨S500, .i32⟩
  | 64 => ⟨S500, .i32⟩
  | 65 => ⟨S500, .i32⟩
  | 66 => ⟨S500x1, .i32⟩
  | 67 => ⟨S500x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_cst : Ref sig .tc := ⟨.hbm, 31, rfl⟩
abbrev main_call0_v1 : Ref sig .tc := ⟨.hbm, 32, rfl⟩
abbrev main_call0_v2 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_3 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call2_v0 : Ref sig .tc := ⟨.hbm, 69, rfl⟩
abbrev main_call2_cst : Ref sig .tc := ⟨.hbm, 70, rfl⟩
abbrev main_call2_v1 : Ref sig .tc := ⟨.hbm, 71, rfl⟩
abbrev main_call2_v2 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_7 : Ref sig .tc := ⟨.hbm, 79, rfl⟩
abbrev main_call3_cst : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_8 : Ref sig .tc := ⟨.hbm, 91, rfl⟩
abbrev main_v52 : Ref sig .tc := ⟨.hbm, 92, rfl⟩
abbrev main_v53 : Ref sig .tc := ⟨.hbm, 93, rfl⟩
abbrev main_c_9 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_10 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_call4_v0 : Ref sig .tc := ⟨.hbm, 108, rfl⟩
abbrev main_call4_cst : Ref sig .tc := ⟨.hbm, 109, rfl⟩
abbrev main_call4_v1 : Ref sig .tc := ⟨.hbm, 110, rfl⟩
abbrev main_call4_v2 : Ref sig .tc := ⟨.hbm, 111, rfl⟩
abbrev main_v66 : Ref sig .tc := ⟨.hbm, 112, rfl⟩
abbrev main_cst_11 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_c_12 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_call5_v0 : Ref sig .tc := ⟨.hbm, 124, rfl⟩
abbrev main_call5_call0_c : Ref sig .tc := ⟨.hbm, 125, rfl⟩
abbrev main_call5_call0_v0 : Ref sig .tc := ⟨.hbm, 126, rfl⟩
abbrev main_v76 : Ref sig .tc := ⟨.hbm, 127, rfl⟩
abbrev main_c_13 : Ref sig .tc := ⟨.hbm, 128, rfl⟩
abbrev main_v77 : Ref sig .tc := ⟨.hbm, 129, rfl⟩
abbrev main_c_14 : Ref sig .tc := ⟨.hbm, 130, rfl⟩
abbrev main_call6_v0 : Ref sig .tc := ⟨.hbm, 131, rfl⟩
abbrev main_call6_v1 : Ref sig .tc := ⟨.hbm, 132, rfl⟩
abbrev main_v78 : Ref sig .tc := ⟨.hbm, 133, rfl⟩
abbrev main_c_15 : Ref sig .tc := ⟨.hbm, 134, rfl⟩
abbrev main_v79 : Ref sig .tc := ⟨.hbm, 135, rfl⟩
abbrev main_v80 : Ref sig .tc := ⟨.hbm, 136, rfl⟩
abbrev main_c_16 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_c_17 : Ref sig .tc := ⟨.hbm, 142, rfl⟩
abbrev main_v85 : Ref sig .tc := ⟨.hbm, 143, rfl⟩
abbrev main_v86 : Ref sig .tc := ⟨.hbm, 144, rfl⟩
abbrev main_call7_call0_c : Ref sig .tc := ⟨.hbm, 145, rfl⟩
abbrev main_call7_call0_v0 : Ref sig .tc := ⟨.hbm, 146, rfl⟩
abbrev main_v87 : Ref sig .tc := ⟨.hbm, 147, rfl⟩
abbrev main_c_18 : Ref sig .tc := ⟨.hbm, 148, rfl⟩
abbrev main_call8_v0 : Ref sig .tc := ⟨.hbm, 149, rfl⟩
abbrev main_call8_v1 : Ref sig .tc := ⟨.hbm, 150, rfl⟩
abbrev main_call8_v2 : Ref sig .tc := ⟨.hbm, 151, rfl⟩
abbrev main_call8_v3 : Ref sig .tc := ⟨.hbm, 152, rfl⟩
abbrev main_call8_v4 : Ref sig .tc := ⟨.hbm, 153, rfl⟩
abbrev main_call8_v5 : Ref sig .tc := ⟨.hbm, 154, rfl⟩
abbrev main_call8_v6 : Ref sig .tc := ⟨.hbm, 155, rfl⟩
abbrev main_call8_v7 : Ref sig .tc := ⟨.hbm, 156, rfl⟩
abbrev main_call8_c : Ref sig .tc := ⟨.hbm, 157, rfl⟩
abbrev main_call8_v8 : Ref sig .tc := ⟨.hbm, 158, rfl⟩
abbrev main_call8_v9 : Ref sig .tc := ⟨.hbm, 159, rfl⟩
abbrev main_call8_v10 : Ref sig .tc := ⟨.hbm, 160, rfl⟩
abbrev main_call8_c_0 : Ref sig .tc := ⟨.hbm, 161, rfl⟩
abbrev main_call8_v11 : Ref sig .tc := ⟨.hbm, 162, rfl⟩
abbrev main_call8_v12 : Ref sig .tc := ⟨.hbm, 163, rfl⟩
abbrev main_v88 : Ref sig .tc := ⟨.hbm, 164, rfl⟩
abbrev main_c_19 : Ref sig .tc := ⟨.hbm, 165, rfl⟩
abbrev main_call9_v0 : Ref sig .tc := ⟨.hbm, 166, rfl⟩
abbrev main_call9_c : Ref sig .tc := ⟨.hbm, 167, rfl⟩
abbrev main_call9_v1 : Ref sig .tc := ⟨.hbm, 168, rfl⟩
abbrev main_call9_c_0 : Ref sig .tc := ⟨.hbm, 169, rfl⟩
abbrev main_call9_v2 : Ref sig .tc := ⟨.hbm, 170, rfl⟩
abbrev main_call9_v3 : Ref sig .tc := ⟨.hbm, 171, rfl⟩
abbrev main_call9_v4 : Ref sig .tc := ⟨.hbm, 172, rfl⟩
abbrev main_call9_c_1 : Ref sig .tc := ⟨.hbm, 173, rfl⟩
abbrev main_call9_v5 : Ref sig .tc := ⟨.hbm, 174, rfl⟩
abbrev main_call9_v6 : Ref sig .tc := ⟨.hbm, 175, rfl⟩
abbrev main_call9_c_2 : Ref sig .tc := ⟨.hbm, 176, rfl⟩
abbrev main_call9_v7 : Ref sig .tc := ⟨.hbm, 177, rfl⟩
abbrev main_call9_v8 : Ref sig .tc := ⟨.hbm, 178, rfl⟩
abbrev main_call9_c_3 : Ref sig .tc := ⟨.hbm, 179, rfl⟩
abbrev main_call9_v9 : Ref sig .tc := ⟨.hbm, 180, rfl⟩
abbrev main_call9_v10 : Ref sig .tc := ⟨.hbm, 181, rfl⟩
abbrev main_call9_v11 : Ref sig .tc := ⟨.hbm, 182, rfl⟩
abbrev main_call9_v12 : Ref sig .tc := ⟨.hbm, 183, rfl⟩
abbrev main_call9_v13 : Ref sig .tc := ⟨.hbm, 184, rfl⟩
abbrev main_call9_v14 : Ref sig .tc := ⟨.hbm, 185, rfl⟩
abbrev main_v89 : Ref sig .tc := ⟨.hbm, 186, rfl⟩
abbrev main_c_20 : Ref sig .tc := ⟨.hbm, 187, rfl⟩
abbrev main_v90 : Ref sig .tc := ⟨.hbm, 188, rfl⟩
abbrev main_v91 : Ref sig .tc := ⟨.hbm, 189, rfl⟩
abbrev main_c_21 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  bcast_S_S1 : S_.BroadcastsInDim S1 (![] : Fin 0 → Fin S1.rank)
  slices_S50000_S49999_1 : S50000.Slices ![1] S49999
  slices_S50000_S49999_0 : S50000.Slices ![0] S49999
  concatenates_S1_S49999_S50000_d0 : Shape.Concatenates [S1, S49999] S50000 0
  natLt_1_32 : 1 < 32
  bcast_S_S_ : S_.BroadcastsInDim S_ (![] : Fin 0 → Fin S_.rank)
  reduceWindows_S50000_S50000_w50000s1p49999_0 : S50000.ReduceWindows (![50000] : Fin 1 → Nat) ![1] ![49999] ![0] S50000
  bcast_S_S500 : S_.BroadcastsInDim S500 (![] : Fin 0 → Fin S500.rank)
  bcast_S_S50000 : S_.BroadcastsInDim S50000 (![] : Fin 0 → Fin S50000.rank)
  reduceWindows_S500_S500_w500s1p499_0 : S500.ReduceWindows (![500] : Fin 1 → Nat) ![1] ![499] ![0] S500
  bcast_S500_S500x1_0 : S500.BroadcastsInDim S500x1 (![0] : Fin 1 → Fin S500x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []
  scatter_S500_S50000x1_S50000_n_0_0_1_wf : ScatterDims.WF S500 S50000x1 S50000 [] [0] [0] 1
  gather_S50000x64_S500x1_S500x64_1_0_n_n_0_1_164_wf : GatherDims.WF S50000x64 S500x1 S500x64 [1] [0] [] [0] [] 1 ![1, 64]

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x64_S500x1_S500x64_1_0_n_n_0_1_164 : GatherDims S50000x64 S500x1 S500x64 where
  offsetDims := [1]
  collapsedSliceDims := [0]
  operandBatchingDims := []
  startIndicesBatchingDims := []
  startIndexMap := [0]
  indexVectorDim := 1
  sliceSizes := ![1, 64]
  wf := gather_S50000x64_S500x1_S500x64_1_0_n_n_0_1_164_wf

class Facts : Prop extends Facts₀ where

variable [Facts]
-- ==== Proof.KernelRun.lean ====
/-
  The idealized kernel program's run with its RESULT named: every weakly fair execution of @main terminates, nothing
  faulting, with the result buffer holding what the last stretch of host operations leaves there (the fold of the
  host stretches and of the three regions' write-backs from the launch memory, `Gen.W17`) and the argument arrays as
  launched. The frame run over the program's segments is the generated one; here its last thread state — every
  unscoped buffer at the last boundary's contents — is read at the result buffer as well as at the arguments.
-/
import proofs.«100297_j20117626814683_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, the result buffer read at the last boundary's contents. -/
theorem run_result : θ_run defs (onTc (τ := τ) (main (F := F))) ⟨m, fun _ => 0, ρ⟩ (fun r => ∀ c : Dev nD,
      r.2.mem ((c.tc : Thread nD τ).loc main_v62) = W17 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v62 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c)⟩)

end Cert.KernelIdeal.RunValue

end
-- ==== Proof.RefOps.lean ====
/-
  The reference program's run. Its @main is a straight line of tensor operations: three layers, each
  a gather of node rows by edge source and a scatter-add by edge target (the neighbourhood sum), an affine
  map, the division of every row by its Euclidean norm (bounded below), and after layers one and two the
  leaky rectifier; then the first node of every graph is found (a running count of the places where the
  graph number changes, scattered and counted again) and its row gathered. The functions the program calls
  are written out at their call sites over the buffers of each call, so the whole program is one list of
  operations, cut where a layer's neighbourhood sum ends and where its normalised output ends. What every
  buffer holds after the list is the fold of the operations' results over the launch contents; an
  argument is written by no operation and keeps its contents.
-/
import proofs.«100297_j20117626814683_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- A buffer of a called function, read at the type of the tensor value it holds. -/
local notation "tr(" r ", " S ", " e ")" => (StableHlo.TRef.of r : StableHlo.TRef sig ⟨S, e⟩)

/-! ## The operations -/

/-- Layer one's neighbourhood sum: the edge table's two rows (sources, targets), a negative node number
    wrapped by adding the node count, the input rows gathered by source, and their sum into a zero array at
    the targets. -/
abbrev opsA1 : List (HloOp τ sig (Elt F)) :=
  [ StableHlo.unary main_arg1 main_v0 (extractStridedSlice S1x800000 ![0, 0] · slices_S2x800000_S1x800000_0_0),
    StableHlo.reshape main_v0 main_v1 rfl shapeCasts_S1x800000_S800000,
    StableHlo.unary main_arg1 main_v2 (extractStridedSlice S1x800000 ![1, 0] · slices_S2x800000_S1x800000_1_0),
    StableHlo.reshape main_v2 main_v3 rfl shapeCasts_S1x800000_S800000,
    StableHlo.nullary main_c (constantI S_ 32 0#32),
    StableHlo.unary main_c main_v4 (broadcastInDim S800000 ![] bcast_S_S800000),
    StableHlo.binary main_v1 main_v4 main_v5 (cmpi .slt),
    StableHlo.nullary main_c_0 (constantI S_ 32 50000#32),
    StableHlo.unary main_c_0 main_v6 (broadcastInDim S800000 ![] bcast_S_S800000),
    StableHlo.binary main_v1 main_v6 main_v7 addi,
    StableHlo.ternary main_v5 main_v7 main_v1 main_v8 select,
    StableHlo.unary main_v8 main_v9 (broadcastInDim S800000x1 ![0] bcast_S800000_S800000x1_0),
    StableHlo.binary main_arg0 main_v9 main_v10 (fun x i => Host.gather gather_S50000x128_S800000x1_S800000x128_1_0_n_n_0_1_1128 x i),
    StableHlo.nullary main_cst (constant S_ .f32 0x00000000#32),
    StableHlo.unary main_cst main_v11 (broadcastInDim S50000x128 ![] bcast_S_S50000x128),
    StableHlo.unary main_v3 main_v12 (broadcastInDim S800000x1 ![0] bcast_S800000_S800000x1_0),
    StableHlo.ternary main_v11 main_v12 main_v10 main_v13 (fun x i u => Host.scatterAdd scatter_S50000x128_S800000x1_S800000x128_1_0_0_1 x i u) ]

/-- Layer one's dense part: the product with the weights plus the bias along every row; the row's sum of
    squares, its square root, the larger of that and the small constant, the division of the row by it; and the
    leaky rectifier, a choice between the value and its small multiple by the comparison with zero. -/
abbrev opsL1 : List (HloOp τ sig (Elt F)) :=
  [ StableHlo.binary main_v13 main_arg3 main_v14 (fun l r => Host.dotGeneral dot_S50000x128_S128x256_S50000x256_1_0_0_1_n_n none l r),
    StableHlo.unary main_arg4 main_v15 (broadcastInDim S1x256 ![1] bcast_S256_S1x256_1),
    StableHlo.unary main_v15 main_v16 (broadcastInDim S50000x256 ![0, 1] bcast_S1x256_S50000x256_0_1),
    StableHlo.binary main_v14 main_v16 main_v17 addf,
    StableHlo.TRef.binary tr(main_v17, S50000x256, .f32) tr(main_v17, S50000x256, .f32) tr(main_call0_v0, S50000x256, .f32) mulf,
    StableHlo.TRef.nullary tr(main_call0_cst, S_, .f32) (constant S_ .f32 0x00000000#32),
    StableHlo.TRef.binary tr(main_call0_v0, S50000x256, .f32) tr(main_call0_cst, S_, .f32) tr(main_call0_v1, S50000, .f32) (fun x v => Host.reduceAdd x v reducesTo_S50000x256_S50000_d1 h_S_),
    StableHlo.TRef.unary tr(main_call0_v1, S50000, .f32) tr(main_call0_v2, S50000x1, .f32) (broadcastInDim S50000x1 ![0] bcast_S50000_S50000x1_0),
    StableHlo.TRef.unary tr(main_call0_v2, S50000x1, .f32) tr(main_v18, S50000x1, .f32) Host.sqrt,
    StableHlo.nullary main_cst_1 (constant S_ .f32 0x2B8CBCCC#32),
    StableHlo.unary main_cst_1 main_v19 (broadcastInDim S50000x1 ![] bcast_S_S50000x1),
    StableHlo.binary main_v18 main_v19 main_v20 maximumf,
    StableHlo.unary main_v20 main_v21 (broadcastInDim S50000x256 ![0, 1] bcast_S50000x1_S50000x256_0_1),
    StableHlo.binary main_v17 main_v21 main_v22 Host.divf,
    StableHlo.nullary main_cst_2 (constant S_ .f32 0x3C23D70A#32),
    StableHlo.TRef.nullary tr(main_call1_cst, S_, .f32) (constant S_ .f32 0x00000000#32),
    StableHlo.TRef.unary tr(main_call1_cst, S_, .f32) tr(main_call1_v0, S50000x256, .f32) (broadcastInDim S50000x256 ![] bcast_S_S50000x256),
    StableHlo.TRef.binary tr(main_v22, S50000x256, .f32) tr(main_call1_v0, S50000x256, .f32) tr(main_call1_v1, S50000x256, .i1) (cmpf .oge),
    StableHlo.TRef.unary tr(main_cst_2, S_, .f32) tr(main_call1_v2, S_, .f32) id,
    StableHlo.TRef.unary tr(main_call1_v2, S_, .f32) tr(main_call1_v3, S50000x256, .f32) (broadcastInDim S50000x256 ![] bcast_S_S50000x256),
    StableHlo.TRef.binary tr(main_call1_v3, S50000x256, .f32) tr(main_v22, S50000x256, .f32) tr(main_call1_v4, S50000x256, .f32) mulf,
    StableHlo.TRef.ternary tr(main_call1_v1, S50000x256, .i1) tr(main_v22, S50000x256, .f32) tr(main_call1_v4, S50000x256, .f32) tr(main_v23, S50000x256, .f32) select ]

/-- Layer two's neighbourhood sum, of layer one's output rows. -/
abbrev opsA2 : List (HloOp τ sig (Elt F)) :=
  [ StableHlo.unary main_arg1 main_v24 (extractStridedSlice S1x800000 ![0, 0] · slices_S2x800000_S1x800000_0_0),
    StableHlo.reshape main_v24 main_v25 rfl shapeCasts_S1x800000_S800000,
    StableHlo.unary main_arg1 main_v26 (extractStridedSlice S1x800000 ![1, 0] · slices_S2x800000_S1x800000_1_0),
    StableHlo.reshape main_v26 main_v27 rfl shapeCasts_S1x800000_S800000,
    StableHlo.nullary main_c_3 (constantI S_ 32 0#32),
    StableHlo.unary main_c_3 main_v28 (broadcastInDim S800000 ![] bcast_S_S800000),
    StableHlo.binary main_v25 main_v28 main_v29 (cmpi .slt),
    StableHlo.nullary main_c_4 (constantI S_ 32 50000#32),
    StableHlo.unary main_c_4 main_v30 (broadcastInDim S800000 ![] bcast_S_S800000),
    StableHlo.binary main_v25 main_v30 main_v31 addi,
    StableHlo.ternary main_v29 main_v31 main_v25 main_v32 select,
    StableHlo.unary main_v32 main_v33 (broadcastInDim S800000x1 ![0] bcast_S800000_S800000x1_0),
    StableHlo.binary main_v23 main_v33 main_v34 (fun x i => Host.gather gather_S50000x256_S800000x1_S800000x256_1_0_n_n_0_1_1256 x i),
    StableHlo.nullary main_cst_5 (constant S_ .f32 0x00000000#32),
    StableHlo.unary main_cst_5 main_v35 (broadcastInDim S50000x256 ![] bcast_S_S50000x256),
    StableHlo.unary main_v27 main_v36 (broadcastInDim S800000x1 ![0] bcast_S800000_S800000x1_0),
    StableHlo.ternary main_v35 main_v36 main_v34 main_v37 (fun x i u => Host.scatterAdd scatter_S50000x256_S800000x1_S800000x256_1_0_0_1 x i u) ]

/-- Layer two's dense part, as layer one's. -/
abbrev opsL2 : List (HloOp τ sig (Elt F)) :=
  [ StableHlo.binary main_v37 main_arg5 main_v38 (fun l r => Host.dotGeneral dot_S50000x256_S256x256_S50000x256_1_0_0_1_n_n none l r),
    StableHlo.unary main_arg6 main_v39 (broadcastInDim S1x256 ![1] bcast_S256_S1x256_1),
    StableHlo.unary main_v39 main_v40 (broadcastInDim S50000x256 ![0, 1] bcast_S1x256_S50000x256_0_1),
    StableHlo.binary main_v38 main_v40 main_v41 addf,
    StableHlo.TRef.binary tr(main_v41, S50000x256, .f32) tr(main_v41, S50000x256, .f32) tr(main_call2_v0, S50000x256, .f32) mulf,
    StableHlo.TRef.nullary tr(main_call2_cst, S_, .f32) (constant S_ .f32 0x00000000#32),
    StableHlo.TRef.binary tr(main_call2_v0, S50000x256, .f32) tr(main_call2_cst, S_, .f32) tr(main_call2_v1, S50000, .f32) (fun x v => Host.reduceAdd x v reducesTo_S50000x256_S50000_d1 h_S_),
    StableHlo.TRef.unary tr(main_call2_v1, S50000, .f32) tr(main_call2_v2, S50000x1, .f32) (broadcastInDim S50000x1 ![0] bcast_S50000_S50000x1_0),
    StableHlo.TRef.unary tr(main_call2_v2, S50000x1, .f32) tr(main_v42, S50000x1, .f32) Host.sqrt,
    StableHlo.nullary main_cst_6 (constant S_ .f32 0x2B8CBCCC#32),
    StableHlo.unary main_cst_6 main_v43 (broadcastInDim S50000x1 ![] bcast_S_S50000x1),
    StableHlo.binary main_v42 main_v43 main_v44 maximumf,
    StableHlo.unary main_v44 main_v45 (broadcastInDim S50000x256 ![0, 1] bcast_S50000x1_S50000x256_0_1),
    StableHlo.binary main_v41 main_v45 main_v46 Host.divf,
    StableHlo.nullary main_cst_7 (constant S_ .f32 0x3C23D70A#32),
    StableHlo.TRef.nullary tr(main_call3_cst, S_, .f32) (constant S_ .f32 0x00000000#32),
    StableHlo.TRef.unary tr(main_call3_cst, S_, .f32) tr(main_call3_v0, S50000x256, .f32) (broadcastInDim S50000x256 ![] bcast_S_S50000x256),
    StableHlo.TRef.binary tr(main_v46, S50000x256, .f32) tr(main_call3_v0, S50000x256, .f32) tr(main_call3_v1, S50000x256, .i1) (cmpf .oge),
    StableHlo.TRef.unary tr(main_cst_7, S_, .f32) tr(main_call3_v2, S_, .f32) id,
    StableHlo.TRef.unary tr(main_call3_v2, S_, .f32) tr(main_call3_v3, S50000x256, .f32) (broadcastInDim S50000x256 ![] bcast_S_S50000x256),
    StableHlo.TRef.binary tr(main_call3_v3, S50000x256, .f32) tr(main_v46, S50000x256, .f32) tr(main_call3_v4, S50000x256, .f32) mulf,
    StableHlo.TRef.ternary tr(main_call3_v1, S50000x256, .i1) tr(main_v46, S50000x256, .f32) tr(main_call3_v4, S50000x256, .f32) tr(main_v47, S50000x256, .f32) select ]

/-- Layer three's neighbourhood sum, its first two operations (the source row of the edge table). -/
abbrev opsA3a : List (HloOp τ sig (Elt F)) :=
  [ StableHlo.unary main_arg1 main_v48 (extractStridedSlice S1x800000 ![0, 0] · slices_S2x800000_S1x800000_0_0),
    StableHlo.reshape main_v48 main_v49 rfl shapeCasts_S1x800000_S800000 ]

/-- Layer three's neighbourhood sum, the rest: the target row, the wrapped sources, the gather of layer two's
    output rows and their sum at the targets. -/
abbrev opsA3b : List (HloOp τ sig (Elt F)) :=
  [ StableHlo.unary main_arg1 main_v50 (extractStridedSlice S1x800000 ![1, 0] · slices_S2x800000_S1x800000_1_0),
    StableHlo.reshape main_v50 main_v51 rfl shapeCasts_S1x800000_S800000,
    StableHlo.nullary main_c_8 (constantI S_ 32 0#32),
    StableHlo.unary main_c_8 main_v52 (broadcastInDim S800000 ![] bcast_S_S800000),
    StableHlo.binary main_v49 main_v52 main_v53 (cmpi .slt),
    StableHlo.nullary main_c_9 (constantI S_ 32 50000#32),
    StableHlo.unary main_c_9 main_v54 (broadcastInDim S800000 ![] bcast_S_S800000),
    StableHlo.binary main_v49 main_v54 main_v55 addi,
    StableHlo.ternary main_v53 main_v55 main_v49 main_v56 select,
    StableHlo.unary main_v56 main_v57 (broadcastInDim S800000x1 ![0] bcast_S800000_S800000x1_0),
    StableHlo.binary main_v47 main_v57 main_v58 (fun x i => Host.gather gather_S50000x256_S800000x1_S800000x256_1_0_n_n_0_1_1256 x i),
    StableHlo.nullary main_cst_10 (constant S_ .f32 0x00000000#32),
    StableHlo.unary main_cst_10 main_v59 (broadcastInDim S50000x256 ![] bcast_S_S50000x256),
    StableHlo.unary main_v51 main_v60 (broadcastInDim S800000x1 ![0] bcast_S800000_S800000x1_0),
    StableHlo.ternary main_v59 main_v60 main_v58 main_v61 (fun x i u => Host.scatterAdd scatter_S50000x256_S800000x1_S800000x256_1_0_0_1 x i u) ]

/-- Layer three's dense part: the affine map and the division of every row by its bounded norm (no
    rectifier after the last layer). -/
abbrev opsL3 : List (HloOp τ sig (Elt F)) :=
  [ StableHlo.binary main_v61 main_arg7 main_v62 (fun l r => Host.dotGeneral dot_S50000x256_S256x64_S50000x64_1_0_0_1_n_n none l r),
    StableHlo.unary main_arg8 main_v63 (broadcastInDim S1x64 ![1] bcast_S64_S1x64_1),
    StableHlo.unary main_v63 main_v64 (broadcastInDim S50000x64 ![0, 1] bcast_S1x64_S50000x64_0_1),
    StableHlo.binary main_v62 main_v64 main_v65 addf,
    StableHlo.TRef.binary tr(main_v65, S50000x64, .f32) tr(main_v65, S50000x64, .f32) tr(main_call4_v0, S50000x64, .f32) mulf,
    StableHlo.TRef.nullary tr(main_call4_cst, S_, .f32) (constant S_ .f32 0x00000000#32),
    StableHlo.TRef.binary tr(main_call4_v0, S50000x64, .f32) tr(main_call4_cst, S_, .f32) tr(main_call4_v1, S50000, .f32) (fun x v => Host.reduceAdd x v reducesTo_S50000x64_S50000_d1 h_S_),
    StableHlo.TRef.unary tr(main_call4_v1, S50000, .f32) tr(main_call4_v2, S50000x1, .f32) (broadcastInDim S50000x1 ![0] bcast_S50000_S50000x1_0),
    StableHlo.TRef.unary tr(main_call4_v2, S50000x1, .f32) tr(main_v66, S50000x1, .f32) Host.sqrt,
    StableHlo.nullary main_cst_11 (constant S_ .f32 0x2B8CBCCC#32),
    StableHlo.unary main_cst_11 main_v67 (broadcastInDim S50000x1 ![] bcast_S_S50000x1),
    StableHlo.binary main_v66 main_v67 main_v68 maximumf,
    StableHlo.unary main_v68 main_v69 (broadcastInDim S50000x64 ![0, 1] bcast_S50000x1_S50000x64_0_1),
    StableHlo.binary main_v65 main_v69 main_v70 Host.divf ]

/-- Where a graph begins: the first node, and every node whose graph number differs from the one before. -/
abbrev opsT0 : List (HloOp τ sig (Elt F)) :=
  [ StableHlo.nullary main_c_12 (constantI S_ 1 1#1),
    StableHlo.unary main_c_12 main_v71 (broadcastInDim S1 ![] bcast_S_S1),
    StableHlo.unary main_arg2 main_v72 (extractStridedSlice S49999 ![1] · slices_S50000_S49999_1),
    StableHlo.unary main_arg2 main_v73 (extractStridedSlice S49999 ![0] · slices_S50000_S49999_0),
    StableHlo.binary main_v72 main_v73 main_v74 (cmpi .ne),
    StableHlo.binary main_v71 main_v74 main_v75 ((fun a b => concatenate S50000 0 [⟨S1, a⟩, ⟨S49999, b⟩] concatenates_S1_S49999_S50000_d0) : (⟨S1, .i1⟩ : BufTy).Contents (Elt F) → (⟨S49999, .i1⟩ : BufTy).Contents (Elt F) → (⟨S50000, .i1⟩ : BufTy).Contents (Elt F)) ]

/-- The running count of those places: the marks widened to integers and summed over every prefix. -/
abbrev opsT1 : List (HloOp τ sig (Elt F)) :=
  [ StableHlo.TRef.unary tr(main_v75, S50000, .i1) tr(main_call5_v0, S50000, .i32) (extui 32 · natLt_1_32),
    StableHlo.TRef.nullary tr(main_call5_call0_c, S_, .i32) (constantI S_ 32 0#32),
    StableHlo.TRef.unary tr(main_call5_call0_c, S_, .i32) tr(main_call5_call0_v0, S_, .i32) (broadcastInDim S_ ![] bcast_S_S_),
    StableHlo.TRef.binary tr(main_call5_v0, S50000, .i32) tr(main_call5_call0_v0, S_, .i32) tr(main_v76, S50000, .i32) (fun x v => Host.reduceWindow IntOp.addi ![50000] ![1] ![49999] ![0] x v reduceWindows_S50000_S50000_w50000s1p49999_0 h_S_) ]

/-- A zero per graph, and the lower bound zero. -/
abbrev opsT2 : List (HloOp τ sig (Elt F)) :=
  [ StableHlo.nullary main_c_13 (constantI S_ 32 0#32),
    StableHlo.unary main_c_13 main_v77 (broadcastInDim S500 ![] bcast_S_S500),
    StableHlo.nullary main_c_14 (constantI S_ 32 0#32) ]

/-- The running count bounded below by zero. -/
abbrev opsT3 : List (HloOp τ sig (Elt F)) :=
  [ StableHlo.TRef.unary tr(main_c_14, S_, .i32) tr(main_call6_v0, S_, .i32) id,
    StableHlo.TRef.unary tr(main_call6_v0, S_, .i32) tr(main_call6_v1, S50000, .i32) (broadcastInDim S50000 ![] bcast_S_S50000),
    StableHlo.TRef.binary tr(main_call6_v1, S50000, .i32) tr(main_v76, S50000, .i32) tr(main_v78, S50000, .i32) maxsi ]

/-- The count of nodes per slot: a negative slot wrapped by the number of graphs, and a one added into the
    zeros at every node's slot. -/
abbrev opsT4 : List (HloOp τ sig (Elt F)) :=
  [ StableHlo.nullary main_c_15 (constantI S_ 32 0#32),
    StableHlo.unary main_c_15 main_v79 (broadcastInDim S50000 ![] bcast_S_S50000),
    StableHlo.binary main_v78 main_v79 main_v80 (cmpi .slt),
    StableHlo.nullary main_c_16 (constantI S_ 32 500#32),
    StableHlo.unary main_c_16 main_v81 (broadcastInDim S50000 ![] bcast_S_S50000),
    StableHlo.binary main_v78 main_v81 main_v82 addi,
    StableHlo.ternary main_v80 main_v82 main_v78 main_v83 select,
    StableHlo.unary main_v83 main_v84 (broadcastInDim S50000x1 ![0] bcast_S50000_S50000x1_0),
    StableHlo.nullary main_c_17 (constantI S_ 32 1#32),
    StableHlo.unary main_c_17 main_v85 (broadcastInDim S50000 ![] bcast_S_S50000),
    StableHlo.ternary main_v77 main_v84 main_v85 main_v86 (fun x i u => Host.scatter scatter_S500_S50000x1_S50000_n_0_0_1 IntOp.addi x i u) ]

/-- The running sum of those counts over every prefix. -/
abbrev opsT5 : List (HloOp τ sig (Elt F)) :=
  [ StableHlo.TRef.nullary tr(main_call7_call0_c, S_, .i32) (constantI S_ 32 0#32),
    StableHlo.TRef.unary tr(main_call7_call0_c, S_, .i32) tr(main_call7_call0_v0, S_, .i32) (broadcastInDim S_ ![] bcast_S_S_),
    StableHlo.TRef.binary tr(main_v86, S500, .i32) tr(main_call7_call0_v0, S_, .i32) tr(main_v87, S500, .i32) (fun x v => Host.reduceWindow IntOp.addi ![500] ![1] ![499] ![0] x v reduceWindows_S500_S500_w500s1p499_0 h_S_) ]

/-- The divisor one. -/
abbrev opsT6 : List (HloOp τ sig (Elt F)) :=
  [ StableHlo.nullary main_c_18 (constantI S_ 32 1#32) ]

/-- The floored quotient by it: the truncated quotient, less one where the signs differ and the remainder is
    not zero. -/
abbrev opsT7 : List (HloOp τ sig (Elt F)) :=
  [ StableHlo.TRef.unary tr(main_c_18, S_, .i32) tr(main_call8_v0, S500, .i32) (broadcastInDim S500 ![] bcast_S_S500),
    StableHlo.TRef.binary tr(main_v87, S500, .i32) tr(main_call8_v0, S500, .i32) tr(main_call8_v1, S500, .i32) Host.divsi,
    StableHlo.TRef.unary tr(main_v87, S500, .i32) tr(main_call8_v2, S500, .i32) signi,
    StableHlo.TRef.unary tr(main_c_18, S_, .i32) tr(main_call8_v3, S_, .i32) signi,
    StableHlo.TRef.unary tr(main_call8_v3, S_, .i32) tr(main_call8_v4, S500, .i32) (broadcastInDim S500 ![] bcast_S_S500),
    StableHlo.TRef.binary tr(main_call8_v2, S500, .i32) tr(main_call8_v4, S500, .i32) tr(main_call8_v5, S500, .i1) (cmpi .ne),
    StableHlo.TRef.unary tr(main_c_18, S_, .i32) tr(main_call8_v6, S500, .i32) (broadcastInDim S500 ![] bcast_S_S500),
    StableHlo.TRef.binary tr(main_v87, S500, .i32) tr(main_call8_v6, S500, .i32) tr(main_call8_v7, S500, .i32) Host.remsi,
    StableHlo.TRef.nullary tr(main_call8_c, S_, .i32) (constantI S_ 32 0#32),
    StableHlo.TRef.unary tr(main_call8_c, S_, .i32) tr(main_call8_v8, S500, .i32) (broadcastInDim S500 ![] bcast_S_S500),
    StableHlo.TRef.binary tr(main_call8_v7, S500, .i32) tr(main_call8_v8, S500, .i32) tr(main_call8_v9, S500, .i1) (cmpi .ne),
    StableHlo.TRef.binary tr(main_call8_v5, S500, .i1) tr(main_call8_v9, S500, .i1) tr(main_call8_v10, S500, .i1) andi,
    StableHlo.TRef.nullary tr(main_call8_c_0, S_, .i32) (constantI S_ 32 1#32),
    StableHlo.TRef.unary tr(main_call8_c_0, S_, .i32) tr(main_call8_v11, S500, .i32) (broadcastInDim S500 ![] bcast_S_S500),
    StableHlo.TRef.binary tr(main_call8_v1, S500, .i32) tr(main_call8_v11, S500, .i32) tr(main_call8_v12, S500, .i32) subi,
    StableHlo.TRef.ternary tr(main_call8_v10, S500, .i1) tr(main_call8_v12, S500, .i32) tr(main_call8_v1, S500, .i32) tr(main_v88, S500, .i32) select ]

/-- The modulus, the node count. -/
abbrev opsT8 : List (HloOp τ sig (Elt F)) :=
  [ StableHlo.nullary main_c_19 (constantI S_ 32 50000#32) ]

/-- The remainder with the sign of the modulus: a zero modulus replaced by one, the truncated remainder, and
    the modulus added where the remainder is not zero and its sign differs from the modulus'. -/
abbrev opsT9 : List (HloOp τ sig (Elt F)) :=
  [ StableHlo.TRef.unary tr(main_c_19, S_, .i32) tr(main_call9_v0, S_, .i32) id,
    StableHlo.TRef.nullary tr(main_call9_c, S_, .i32) (constantI S_ 32 0#32),
    StableHlo.TRef.binary tr(main_call9_v0, S_, .i32) tr(main_call9_c, S_, .i32) tr(main_call9_v1, S_, .i1) (cmpi .eq),
    StableHlo.TRef.nullary tr(main_call9_c_0, S_, .i32) (constantI S_ 32 1#32),
    StableHlo.TRef.ternary tr(main_call9_v1, S_, .i1) tr(main_call9_c_0, S_, .i32) tr(main_call9_v0, S_, .i32) tr(main_call9_v2, S_, .i32) select,
    StableHlo.TRef.unary tr(main_call9_v2, S_, .i32) tr(main_call9_v3, S500, .i32) (broadcastInDim S500 ![] bcast_S_S500),
    StableHlo.TRef.binary tr(main_v88, S500, .i32) tr(main_call9_v3, S500, .i32) tr(main_call9_v4, S500, .i32) Host.remsi,
    StableHlo.TRef.nullary tr(main_call9_c_1, S_, .i32) (constantI S_ 32 0#32),
    StableHlo.TRef.unary tr(main_call9_c_1, S_, .i32) tr(main_call9_v5, S500, .i32) (broadcastInDim S500 ![] bcast_S_S500),
    StableHlo.TRef.binary tr(main_call9_v4, S500, .i32) tr(main_call9_v5, S500, .i32) tr(main_call9_v6, S500, .i1) (cmpi .ne),
    StableHlo.TRef.nullary tr(main_call9_c_2, S_, .i32) (constantI S_ 32 0#32),
    StableHlo.TRef.unary tr(main_call9_c_2, S_, .i32) tr(main_call9_v7, S500, .i32) (broadcastInDim S500 ![] bcast_S_S500),
    StableHlo.TRef.binary tr(main_call9_v4, S500, .i32) tr(main_call9_v7, S500, .i32) tr(main_call9_v8, S500, .i1) (cmpi .slt),
    StableHlo.TRef.nullary tr(main_call9_c_3, S_, .i32) (constantI S_ 32 0#32),
    StableHlo.TRef.binary tr(main_call9_v2, S_, .i32) tr(main_call9_c_3, S_, .i32) tr(main_call9_v9, S_, .i1) (cmpi .slt),
    StableHlo.TRef.unary tr(main_call9_v9, S_, .i1) tr(main_call9_v10, S500, .i1) (broadcastInDim S500 ![] bcast_S_S500),
    StableHlo.TRef.binary tr(main_call9_v8, S500, .i1) tr(main_call9_v10, S500, .i1) tr(main_call9_v11, S500, .i1) (cmpi .ne),
    StableHlo.TRef.binary tr(main_call9_v11, S500, .i1) tr(main_call9_v6, S500, .i1) tr(main_call9_v12, S500, .i1) andi,
    StableHlo.TRef.unary tr(main_call9_v2, S_, .i32) tr(main_call9_v13, S500, .i32) (broadcastInDim S500 ![] bcast_S_S500),
    StableHlo.TRef.binary tr(main_call9_v4, S500, .i32) tr(main_call9_v13, S500, .i32) tr(main_call9_v14, S500, .i32) addi,
    StableHlo.TRef.ternary tr(main_call9_v12, S500, .i1) tr(main_call9_v14, S500, .i32) tr(main_call9_v4, S500, .i32) tr(main_v89, S500, .i32) select ]

/-- Each graph's first node as a row number: a negative one wrapped by the node count, as a column. -/
abbrev opsT10 : List (HloOp τ sig (Elt F)) :=
  [ StableHlo.nullary main_c_20 (constantI S_ 32 0#32),
    StableHlo.unary main_c_20 main_v90 (broadcastInDim S500 ![] bcast_S_S500),
    StableHlo.binary main_v89 main_v90 main_v91 (cmpi .slt),
    StableHlo.nullary main_c_21 (constantI S_ 32 50000#32),
    StableHlo.unary main_c_21 main_v92 (broadcastInDim S500 ![] bcast_S_S500),
    StableHlo.binary main_v89 main_v92 main_v93 addi,
    StableHlo.ternary main_v91 main_v93 main_v89 main_v94 select,
    StableHlo.unary main_v94 main_v95 (broadcastInDim S500x1 ![0] bcast_S500_S500x1_0) ]

/-- From the end of layer three to the row numbers of the graphs' first nodes. -/
abbrev opsTa : List (HloOp τ sig (Elt F)) :=
  opsT0 ++ (opsT1 ++ (opsT2 ++ (opsT3 ++ (opsT4 ++ (opsT5 ++ (opsT6 ++ (opsT7 ++ (opsT8 ++ (opsT9 ++ opsT10)))))))))

/-- The rows of layer three's output at those row numbers: the result. -/
abbrev opsTb : List (HloOp τ sig (Elt F)) :=
  [ StableHlo.binary main_v70 main_v95 main_v96 (fun x i => Host.gather gather_S50000x64_S500x1_S500x64_1_0_n_n_0_1_164 x i) ]

/-- The whole program, in order. -/
abbrev ops : List (HloOp τ sig (Elt F)) :=
  opsA1 ++ (opsL1 ++ (opsA2 ++ (opsL2 ++ (opsA3a ++ (opsA3b ++ (opsL3 ++ (opsTa ++ opsTb)))))))

end Cert.ReferenceIdeal.Run

end
-- ==== Proof.RefRun.lean ====
/-
  The reference program's run over the list of its operations: the program is the list run in order (the
  called functions' bodies written out at their calls), so from any launch memory every buffer ends at the
  fold of the operations' results, one stretch of the list after another; each stretch writes only its own
  buffers, and the arguments are written by none.
-/
import proofs.«100297_j20117626814683_1_alg».proof.Proof.RefOps
import Idealize.ShloMosaic.Lib.StableHlo.Run
import Idealize.ShloMosaic.Lib.Pipeline.Frame

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The program is that list -/

set_option maxRecDepth 8192 in
/-- The first sixty statements: the called functions' bodies written out and the sequencing reassociated, the
    statements are the five lists' operations in order. -/
theorem main_part0_eq (c : Dev nD) :
    main_part0 (F := F) c = seq (opsA1 ++ (opsL1 ++ (opsA2 ++ (opsL2 ++ opsA3a)))) := by
  simp only [seq_append]
  simp only [main_part0, fn_norm.body, fn_leaky_relu.body, fn_where.body, seq, bind_assoc, pure_bind]
  rfl

set_option maxRecDepth 8192 in
/-- Statements 61 to 120, likewise: the rest of layer three's neighbourhood sum, its dense part, and the search
    for the graphs' first nodes. -/
theorem main_part1_eq (c : Dev nD) : main_part1 (F := F) c = seq (opsA3b ++ (opsL3 ++ opsTa)) := by
  simp only [opsTa, seq_append]
  simp only [main_part1, fn_norm_0.body, fn_cumsum.body, fn_cumsum_1.body, fn_clip.body, fn_cumsum_2.body, fn_cumsum_3.body,
    fn_floor_divide.body, fn_where_4.body, fn_remainder.body, fn_where_5.body, seq, bind_assoc, pure_bind]
  rfl

/-- The last statement. -/
theorem main_part2_eq (c : Dev nD) : main_part2 (F := F) c = seq opsTb := rfl

/-- The program is its three windows in turn, and running lists one after another is running their
    concatenation. -/
theorem main_eq (c : Dev nD) : main (F := F) c = seq ops := by
  show (main_part0 (F := F) c >>= fun _ => main_part1 (F := F) c >>= fun _ => main_part2 (F := F) c) = seq ops
  rw [main_part0_eq, main_part1_eq, main_part2_eq]
  simp only [ops, seq_append, bind_assoc]

/-! ## The run -/

/-- The signature scopes no buffer and no semaphore: the program is of tensor values only. -/
theorem scopedRefs_eq : (Finset.univ.filter fun b : Ref sig .tc => b.isScoped) = ∅ := by decide
theorem scopedSems_eq : (Finset.univ.filter fun sm : SemLoc sig => sm.isScoped .tc) = ∅ := by decide

/-! Every operation touches the device's own buffers only: each list by its builders' facts, the whole by
    membership in a concatenation. -/

theorem opsA1_sub : (opsA1 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub ..⟩
theorem opsL1_sub : (opsL1 : List (HloOp τ sig (Elt F))).Forall fun op => op.bufs ⊆ tcRefs τ sig :=
  ⟨binary_bufs_sub .., unary_bufs_sub .., unary_bufs_sub .., binary_bufs_sub ..,
    binary_bufs_sub .., nullary_bufs_sub .., binary_bufs_sub .., unary_bufs_sub .., unary_bufs_sub ..,
    nullary_bufs_sub .., unary_bufs_sub .., binary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩
theorem opsA2_sub : (opsA2 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub ..⟩
theorem opsL2_sub : (opsL2 : List (HloOp τ sig (Elt F))).Forall fun op => op.bufs ⊆ tcRefs τ sig :=
  ⟨binary_bufs_sub .., unary_bufs_sub .., unary_bufs_sub .., binary_bufs_sub ..,
    binary_bufs_sub .., nullary_bufs_sub .., binary_bufs_sub .., unary_bufs_sub .., unary_bufs_sub ..,
    nullary_bufs_sub .., unary_bufs_sub .., binary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩
theorem opsA3a_sub : (opsA3a : List (HloOp τ sig (Elt F))).Forall fun op => op.bufs ⊆ tcRefs τ sig :=
  ⟨unary_bufs_sub .., reshape_bufs_sub ..⟩
theorem opsA3b_sub : (opsA3b : List (HloOp τ sig (Elt F))).Forall fun op => op.bufs ⊆ tcRefs τ sig :=
  ⟨unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub ..⟩
theorem opsL3_sub : (opsL3 : List (HloOp τ sig (Elt F))).Forall fun op => op.bufs ⊆ tcRefs τ sig :=
  ⟨binary_bufs_sub .., unary_bufs_sub .., unary_bufs_sub .., binary_bufs_sub ..,
    binary_bufs_sub .., nullary_bufs_sub .., binary_bufs_sub .., unary_bufs_sub .., unary_bufs_sub ..,
    nullary_bufs_sub .., unary_bufs_sub .., binary_bufs_sub .., unary_bufs_sub .., binary_bufs_sub ..⟩
theorem opsT0_sub : (opsT0 : List (HloOp τ sig (Elt F))).Forall fun op => op.bufs ⊆ tcRefs τ sig :=
  ⟨nullary_bufs_sub .., unary_bufs_sub .., unary_bufs_sub .., unary_bufs_sub .., binary_bufs_sub .., binary_bufs_sub ..⟩
theorem opsT1_sub : (opsT1 : List (HloOp τ sig (Elt F))).Forall fun op => op.bufs ⊆ tcRefs τ sig :=
  ⟨unary_bufs_sub .., nullary_bufs_sub .., unary_bufs_sub .., binary_bufs_sub ..⟩
theorem opsT2_sub : (opsT2 : List (HloOp τ sig (Elt F))).Forall fun op => op.bufs ⊆ tcRefs τ sig :=
  ⟨nullary_bufs_sub .., unary_bufs_sub .., nullary_bufs_sub ..⟩
theorem opsT3_sub : (opsT3 : List (HloOp τ sig (Elt F))).Forall fun op => op.bufs ⊆ tcRefs τ sig :=
  ⟨unary_bufs_sub .., unary_bufs_sub .., binary_bufs_sub ..⟩
theorem opsT4_sub : (opsT4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub ..⟩
theorem opsT5_sub : (opsT5 : List (HloOp τ sig (Elt F))).Forall fun op => op.bufs ⊆ tcRefs τ sig :=
  ⟨nullary_bufs_sub .., unary_bufs_sub .., binary_bufs_sub ..⟩
theorem opsT6_sub : (opsT6 : List (HloOp τ sig (Elt F))).Forall fun op => op.bufs ⊆ tcRefs τ sig :=
  nullary_bufs_sub ..
theorem opsT7_sub : (opsT7 : List (HloOp τ sig (Elt F))).Forall fun op => op.bufs ⊆ tcRefs τ sig :=
  ⟨unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub ..⟩
theorem opsT8_sub : (opsT8 : List (HloOp τ sig (Elt F))).Forall fun op => op.bufs ⊆ tcRefs τ sig :=
  nullary_bufs_sub ..
theorem opsT9_sub : (opsT9 : List (HloOp τ sig (Elt F))).Forall fun op => op.bufs ⊆ tcRefs τ sig :=
  ⟨unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩
theorem opsT10_sub : (opsT10 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub ..⟩
theorem opsTb_sub : (opsTb : List (HloOp τ sig (Elt F))).Forall fun op => op.bufs ⊆ tcRefs τ sig :=
  binary_bufs_sub ..

theorem opsTa_sub : (opsTa : List (HloOp τ sig (Elt F))).Forall fun op => op.bufs ⊆ tcRefs τ sig :=
  List.forall_iff_forall_mem.mpr fun op h => by
    simp only [opsTa, List.mem_append] at h
    rcases h with h | h | h | h | h | h | h | h | h | h | h
    exacts [List.forall_iff_forall_mem.mp opsT0_sub op h, List.forall_iff_forall_mem.mp opsT1_sub op h,
      List.forall_iff_forall_mem.mp opsT2_sub op h, List.forall_iff_forall_mem.mp opsT3_sub op h,
      List.forall_iff_forall_mem.mp opsT4_sub op h, List.forall_iff_forall_mem.mp opsT5_sub op h,
      List.forall_iff_forall_mem.mp opsT6_sub op h, List.forall_iff_forall_mem.mp opsT7_sub op h,
      List.forall_iff_forall_mem.mp opsT8_sub op h, List.forall_iff_forall_mem.mp opsT9_sub op h,
      List.forall_iff_forall_mem.mp opsT10_sub op h]

theorem ops_sub : (ops : List (HloOp τ sig (Elt F))).Forall fun op => op.bufs ⊆ tcRefs τ sig :=
  List.forall_iff_forall_mem.mpr fun op h => by
    have h' : op ∈ opsA1 ∨ op ∈ opsL1 ∨ op ∈ opsA2 ∨ op ∈ opsL2 ∨ op ∈ opsA3a ∨ op ∈ opsA3b ∨ op ∈ opsL3 ∨ op ∈ opsTa ∨ op ∈ opsTb := by
      rw [← List.mem_append, ← List.mem_append, ← List.mem_append, ← List.mem_append, ← List.mem_append, ← List.mem_append,
        ← List.mem_append, ← List.mem_append]
      exact h
    rcases h' with h | h | h | h | h | h | h | h | h
    exacts [List.forall_iff_forall_mem.mp opsA1_sub op h, List.forall_iff_forall_mem.mp opsL1_sub op h,
      List.forall_iff_forall_mem.mp opsA2_sub op h, List.forall_iff_forall_mem.mp opsL2_sub op h,
      List.forall_iff_forall_mem.mp opsA3a_sub op h, List.forall_iff_forall_mem.mp opsA3b_sub op h,
      List.forall_iff_forall_mem.mp opsL3_sub op h, List.forall_iff_forall_mem.mp opsTa_sub op h,
      List.forall_iff_forall_mem.mp opsTb_sub op h]

/-! ## What each stretch writes, and that it leaves every other buffer as it was -/

/-- One operation's only written buffer is in the stretch's list of written buffers. -/
local macro "listed" : tactic =>
  `(tactic| (simp only [nullary_writes, unary_writes, binary_writes, ternary_writes, reshape_writes,
      Finset.singleton_subset_iff, List.mem_toFinset]; exact List.mem_map_of_mem (by decide)))

abbrev opsA1_W : List (Ref sig .tc) :=
  [main_v0, main_v1, main_v2, main_v3, main_c, main_v4, main_v5, main_c_0, main_v6, main_v7, main_v8, main_v9, main_v10,
    main_cst, main_v11, main_v12, main_v13]
theorem opsA1_writes : (opsA1 : List (HloOp τ sig (Elt F))).Forall fun op => op.writes ⊆ (opsA1_W.map (Proc.devRef (τ := τ) .tc)).toFinset := by
  simp only [List.Forall]
  refine ⟨?_, ?_, ?_, ?_, ?_, ?_, ?_, ?_, ?_, ?_, ?_, ?_, ?_, ?_, ?_, ?_, ?_⟩ <;> listed
theorem opsA1_keep (V : Valuation τ sig (Elt F)) (r : Ref sig .tc) (h : r ∉ opsA1_W) :
    after opsA1 V (Proc.devRef .tc r) = V (Proc.devRef .tc r) := after_of_writes_sub opsA1 V opsA1_writes h

abbrev opsL1_W : List (Ref sig .tc) :=
  [main_v14, main_v15, main_v16, main_v17, main_call0_v0, main_call0_cst, main_call0_v1, main_call0_v2, main_v18, main_cst_1,
    main_v19, main_v20, main_v21, main_v22, main_cst_2, main_call1_cst, main_call1_v0, main_call1_v1, main_call1_v2,
    main_call1_v3, main_call1_v4, main_v23]
theorem opsL1_writes : (opsL1 : List (HloOp τ sig (Elt F))).Forall fun op => op.writes ⊆ (opsL1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> listed
theorem opsL1_keep (V : Valuation τ sig (Elt F)) (r : Ref sig .tc) (h : r ∉ opsL1_W) :
    after opsL1 V (Proc.devRef .tc r) = V (Proc.devRef .tc r) := after_of_writes_sub opsL1 V opsL1_writes h

abbrev opsA2_W : List (Ref sig .tc) :=
  [main_v24, main_v25, main_v26, main_v27, main_c_3, main_v28, main_v29, main_c_4, main_v30, main_v31, main_v32, main_v33,
    main_v34, main_cst_5, main_v35, main_v36, main_v37]
theorem opsA2_writes : (opsA2 : List (HloOp τ sig (Elt F))).Forall fun op => op.writes ⊆ (opsA2_W.map (Proc.devRef (τ := τ) .tc)).toFinset := by
  simp only [List.Forall]
  refine ⟨?_, ?_, ?_, ?_, ?_, ?_, ?_, ?_, ?_, ?_, ?_, ?_, ?_, ?_, ?_, ?_, ?_⟩ <;> listed
theorem opsA2_keep (V : Valuation τ sig (Elt F)) (r : Ref sig .tc) (h : r ∉ opsA2_W) :
    after opsA2 V (Proc.devRef .tc r) = V (Proc.devRef .tc r) := after_of_writes_sub opsA2 V opsA2_writes h

abbrev opsL2_W : List (Ref sig .tc) :=
  [main_v38, main_v39, main_v40, main_v41, main_call2_v0, main_call2_cst, main_call2_v1, main_call2_v2, main_v42, main_cst_6,
    main_v43, main_v44, main_v45, main_v46, main_cst_7, main_call3_cst, main_call3_v0, main_call3_v1, main_call3_v2,
    main_call3_v3, main_call3_v4, main_v47]
theorem opsL2_writes : (opsL2 : List (HloOp τ sig (Elt F))).Forall fun op => op.writes ⊆ (opsL2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;> listed
theorem opsL2_keep (V : Valuation τ sig (Elt F)) (r : Ref sig .tc) (h : r ∉ opsL2_W) :
    after opsL2 V (Proc.devRef .tc r) = V (Proc.devRef .tc r) := after_of_writes_sub opsL2 V opsL2_writes h

abbrev opsA3a_W : List (Ref sig .tc) := [main_v48, main_v49]
theorem opsA3a_writes : (opsA3a : List (HloOp τ sig (Elt F))).Forall fun op => op.writes ⊆ (opsA3a_W.map (Proc.devRef (τ := τ) .tc)).toFinset := by
  simp only [List.Forall]
  refine ⟨?_, ?_⟩ <;> listed
theorem opsA3a_keep (V : Valuation τ sig (Elt F)) (r : Ref sig .tc) (h : r ∉ opsA3a_W) :
    after opsA3a V (Proc.devRef .tc r) = V (Proc.devRef .tc r) := after_of_writes_sub opsA3a V opsA3a_writes h

abbrev opsA3b_W : List (Ref sig .tc) :=
  [main_v50, main_v51, main_c_8, main_v52, main_v53, main_c_9, main_v54, main_v55, main_v56, main_v57, main_v58, main_cst_10,
    main_v59, main_v60, main_v61]
theorem opsA3b_writes : (opsA3b : List (HloOp τ sig (Elt F))).Forall fun op => op.writes ⊆ (opsA3b_W.map (Proc.devRef (τ := τ) .tc)).toFinset := by
  simp only [List.Forall]
  refine ⟨?_, ?_, ?_, ?_, ?_, ?_, ?_, ?_, ?_, ?_, ?_, ?_, ?_, ?_, ?_⟩ <;> listed
theorem opsA3b_keep (V : Valuation τ sig (Elt F)) (r : Ref sig .tc) (h : r ∉ opsA3b_W) :
    after opsA3b V (Proc.devRef .tc r) = V (Proc.devRef .tc r) := after_of_writes_sub opsA3b V opsA3b_writes h

abbrev opsL3_W : List (Ref sig .tc) :=
  [main_v62, main_v63, main_v64, main_v65, main_call4_v0, main_call4_cst, main_call4_v1, main_call4_v2, main_v66, main_cst_11,
    main_v67, main_v68, main_v69, main_v70]
theorem opsL3_writes : (opsL3 : List (HloOp τ sig (Elt F))).Forall fun op => op.writes ⊆ (opsL3_W.map (Proc.devRef (τ := τ) .tc)).toFinset := by
  simp only [List.Forall]
  refine ⟨?_, ?_, ?_, ?_, ?_, ?_, ?_, ?_, ?_, ?_, ?_, ?_, ?_, ?_⟩ <;> listed
theorem opsL3_keep (V : Valuation τ sig (Elt F)) (r : Ref sig .tc) (h : r ∉ opsL3_W) :
    after opsL3 V (Proc.devRef .tc r) = V (Proc.devRef .tc r) := after_of_writes_sub opsL3 V opsL3_writes h

abbrev opsT0_W : List (Ref sig .tc) := [main_c_12, main_v71, main_v72, main_v73, main_v74, main_v75]
theorem opsT0_writes : (opsT0 : List (HloOp τ sig (Elt F))).Forall fun op => op.writes ⊆ (opsT0_W.map (Proc.devRef (τ := τ) .tc)).toFinset := by
  simp only [List.Forall]
  refine ⟨?_, ?_, ?_, ?_, ?_, ?_⟩ <;> listed
theorem opsT0_keep (V : Valuation τ sig (Elt F)) (r : Ref sig .tc) (h : r ∉ opsT0_W) :
    after opsT0 V (Proc.devRef .tc r) = V (Proc.devRef .tc r) := after_of_writes_sub opsT0 V opsT0_writes h

abbrev opsT1_W : List (Ref sig .tc) := [main_call5_v0, main_call5_call0_c, main_call5_call0_v0, main_v76]
theorem opsT1_writes : (opsT1 : List (HloOp τ sig (Elt F))).Forall fun op => op.writes ⊆ (opsT1_W.map (Proc.devRef (τ := τ) .tc)).toFinset := by
  simp only [List.Forall]
  refine ⟨?_, ?_, ?_, ?_⟩ <;> listed
theorem opsT1_keep (V : Valuation τ sig (Elt F)) (r : Ref sig .tc) (h : r ∉ opsT1_W) :
    after opsT1 V (Proc.devRef .tc r) = V (Proc.devRef .tc r) := after_of_writes_sub opsT1 V opsT1_writes h

abbrev opsT2_W : List (Ref sig .tc) := [main_c_13, main_v77, main_c_14]
theorem opsT2_writes : (opsT2 : List (HloOp τ sig (Elt F))).Forall fun op => op.writes ⊆ (opsT2_W.map (Proc.devRef (τ := τ) .tc)).toFinset := by
  simp only [List.Forall]
  refine ⟨?_, ?_, ?_⟩ <;> listed
theorem opsT2_keep (V : Valuation τ sig (Elt F)) (r : Ref sig .tc) (h : r ∉ opsT2_W) :
    after opsT2 V (Proc.devRef .tc r) = V (Proc.devRef .tc r) := after_of_writes_sub opsT2 V opsT2_writes h

abbrev opsT3_W : List (Ref sig .tc) := [main_call6_v0, main_call6_v1, main_v78]
theorem opsT3_writes : (opsT3 : List (HloOp τ sig (Elt F))).Forall fun op => op.writes ⊆ (opsT3_W.map (Proc.devRef (τ := τ) .tc)).toFinset := by
  simp only [List.Forall]
  refine ⟨?_, ?_, ?_⟩ <;> listed
theorem opsT3_keep (V : Valuation τ sig (Elt F)) (r : Ref sig .tc) (h : r ∉ opsT3_W) :
    after opsT3 V (Proc.devRef .tc r) = V (Proc.devRef .tc r) := after_of_writes_sub opsT3 V opsT3_writes h

abbrev opsT4_W : List (Ref sig .tc) :=
  [main_c_15, main_v79, main_v80, main_c_16, main_v81, main_v82, main_v83, main_v84, main_c_17, main_v85, main_v86]
theorem opsT4_writes : (opsT4 : List (HloOp τ sig (Elt F))).Forall fun op => op.writes ⊆ (opsT4_W.map (Proc.devRef (τ := τ) .tc)).toFinset := by
  simp only [List.Forall]
  refine ⟨?_, ?_, ?_, ?_, ?_, ?_, ?_, ?_, ?_, ?_, ?_⟩ <;> listed
theorem opsT4_keep (V : Valuation τ sig (Elt F)) (r : Ref sig .tc) (h : r ∉ opsT4_W) :
    after opsT4 V (Proc.devRef .tc r) = V (Proc.devRef .tc r) := after_of_writes_sub opsT4 V opsT4_writes h

abbrev opsT5_W : List (Ref sig .tc) := [main_call7_call0_c, main_call7_call0_v0, main_v87]
theorem opsT5_writes : (opsT5 : List (HloOp τ sig (Elt F))).Forall fun op => op.writes ⊆ (opsT5_W.map (Proc.devRef (τ := τ) .tc)).toFinset := by
  simp only [List.Forall]
  refine ⟨?_, ?_, ?_⟩ <;> listed
theorem opsT5_keep (V : Valuation τ sig (Elt F)) (r : Ref sig .tc) (h : r ∉ opsT5_W) :
    after opsT5 V (Proc.devRef .tc r) = V (Proc.devRef .tc r) := after_of_writes_sub opsT5 V opsT5_writes h

abbrev opsT6_W : List (Ref sig .tc) := [main_c_18]
theorem opsT6_writes : (opsT6 : List (HloOp τ sig (Elt F))).Forall fun op => op.writes ⊆ (opsT6_W.map (Proc.devRef (τ := τ) .tc)).toFinset := by
  simp only [List.Forall]
  listed
theorem opsT6_keep (V : Valuation τ sig (Elt F)) (r : Ref sig .tc) (h : r ∉ opsT6_W) :
    after opsT6 V (Proc.devRef .tc r) = V (Proc.devRef .tc r) := after_of_writes_sub opsT6 V opsT6_writes h

abbrev opsT7_W : List (Ref sig .tc) :=
  [main_call8_v0, main_call8_v1, main_call8_v2, main_call8_v3, main_call8_v4, main_call8_v5, main_call8_v6, main_call8_v7,
    main_call8_c, main_call8_v8, main_call8_v9, main_call8_v10, main_call8_c_0, main_call8_v11, main_call8_v12, main_v88]
theorem opsT7_writes : (opsT7 : List (HloOp τ sig (Elt F))).Forall fun op => op.writes ⊆ (opsT7_W.map (Proc.devRef (τ := τ) .tc)).toFinset := by
  simp only [List.Forall]
  refine ⟨?_, ?_, ?_, ?_, ?_, ?_, ?_, ?_, ?_, ?_, ?_, ?_, ?_, ?_, ?_, ?_⟩ <;> listed
theorem opsT7_keep (V : Valuation τ sig (Elt F)) (r : Ref sig .tc) (h : r ∉ opsT7_W) :
    after opsT7 V (Proc.devRef .tc r) = V (Proc.devRef .tc r) := after_of_writes_sub opsT7 V opsT7_writes h

abbrev opsT8_W : List (Ref sig .tc) := [main_c_19]
theorem opsT8_writes : (opsT8 : List (HloOp τ sig (Elt F))).Forall fun op => op.writes ⊆ (opsT8_W.map (Proc.devRef (τ := τ) .tc)).toFinset := by
  simp only [List.Forall]
  listed
theorem opsT8_keep (V : Valuation τ sig (Elt F)) (r : Ref sig .tc) (h : r ∉ opsT8_W) :
    after opsT8 V (Proc.devRef .tc r) = V (Proc.devRef .tc r) := after_of_writes_sub opsT8 V opsT8_writes h

abbrev opsT9_W : List (Ref sig .tc) :=
  [main_call9_v0, main_call9_c, main_call9_v1, main_call9_c_0, main_call9_v2, main_call9_v3, main_call9_v4, main_call9_c_1,
    main_call9_v5, main_call9_v6, main_call9_c_2, main_call9_v7, main_call9_v8, main_call9_c_3, main_call9_v9, main_call9_v10,
    main_call9_v11, main_call9_v12, main_call9_v13, main_call9_v14, main_v89]
theorem opsT9_writes : (opsT9 : List (HloOp τ sig (Elt F))).Forall fun op => op.writes ⊆ (opsT9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;> listed
theorem opsT9_keep (V : Valuation τ sig (Elt F)) (r : Ref sig .tc) (h : r ∉ opsT9_W) :
    after opsT9 V (Proc.devRef .tc r) = V (Proc.devRef .tc r) := after_of_writes_sub opsT9 V opsT9_writes h

abbrev opsT10_W : List (Ref sig .tc) := [main_c_20, main_v90, main_v91, main_c_21, main_v92, main_v93, main_v94, main_v95]
theorem opsT10_writes : (opsT10 : List (HloOp τ sig (Elt F))).Forall fun op => op.writes ⊆ (opsT10_W.map (Proc.devRef (τ := τ) .tc)).toFinset := by
  simp only [List.Forall]
  refine ⟨?_, ?_, ?_, ?_, ?_, ?_, ?_, ?_⟩ <;> listed
theorem opsT10_keep (V : Valuation τ sig (Elt F)) (r : Ref sig .tc) (h : r ∉ opsT10_W) :
    after opsT10 V (Proc.devRef .tc r) = V (Proc.devRef .tc r) := after_of_writes_sub opsT10 V opsT10_writes h

abbrev opsTb_W : List (Ref sig .tc) := [main_v96]
theorem opsTb_writes : (opsTb : List (HloOp τ sig (Elt F))).Forall fun op => op.writes ⊆ (opsTb_W.map (Proc.devRef (τ := τ) .tc)).toFinset := by
  simp only [List.Forall]
  listed
theorem opsTb_keep (V : Valuation τ sig (Elt F)) (r : Ref sig .tc) (h : r ∉ opsTb_W) :
    after opsTb V (Proc.devRef .tc r) = V (Proc.devRef .tc r) := after_of_writes_sub opsTb V opsTb_writes h

/-- The fold over a concatenation is the folds in turn: the search for the first nodes, piece by piece. -/
theorem after_opsTa (V : Valuation τ sig (Elt F)) :
    after opsTa V = after opsT10 (after opsT9 (after opsT8 (after opsT7 (after opsT6 (after opsT5 (after opsT4 (after opsT3
      (after opsT2 (after opsT1 (after opsT0 V)))))))))) := by
  simp only [opsTa, after_append]

abbrev opsTa_W : List (Ref sig .tc) :=
  opsT0_W ++ (opsT1_W ++ (opsT2_W ++ (opsT3_W ++ (opsT4_W ++ (opsT5_W ++ (opsT6_W ++ (opsT7_W ++ (opsT8_W ++ (opsT9_W ++ opsT10_W)))))))))

/-- A set of written buffers inside a longer list of them. -/
private theorem writes_mono {W W' : List (Ref sig .tc)} (hW : W ⊆ W') {s : Finset (DevRef τ sig)}
    (h : s ⊆ (W.map (Proc.devRef (τ := τ) .tc)).toFinset) : s ⊆ (W'.map (Proc.devRef (τ := τ) .tc)).toFinset :=
  h.trans fun _ hx => List.mem_toFinset.mpr (List.map_subset _ hW (List.mem_toFinset.mp hx))

theorem opsTa_writes : (opsTa : List (HloOp τ sig (Elt F))).Forall fun op => op.writes ⊆ (opsTa_W.map (Proc.devRef (τ := τ) .tc)).toFinset :=
  List.forall_iff_forall_mem.mpr fun op h => by
    simp only [opsTa, List.mem_append] at h
    rcases h with h | h | h | h | h | h | h | h | h | h | h
    · exact writes_mono (by decide) (List.forall_iff_forall_mem.mp opsT0_writes op h)
    · exact writes_mono (by decide) (List.forall_iff_forall_mem.mp opsT1_writes op h)
    · exact writes_mono (by decide) (List.forall_iff_forall_mem.mp opsT2_writes op h)
    · exact writes_mono (by decide) (List.forall_iff_forall_mem.mp opsT3_writes op h)
    · exact writes_mono (by decide) (List.forall_iff_forall_mem.mp opsT4_writes op h)
    · exact writes_mono (by decide) (List.forall_iff_forall_mem.mp opsT5_writes op h)
    · exact writes_mono (by decide) (List.forall_iff_forall_mem.mp opsT6_writes op h)
    · exact writes_mono (by decide) (List.forall_iff_forall_mem.mp opsT7_writes op h)
    · exact writes_mono (by decide) (List.forall_iff_forall_mem.mp opsT8_writes op h)
    · exact writes_mono (by decide) (List.forall_iff_forall_mem.mp opsT9_writes op h)
    · exact writes_mono (by decide) (List.forall_iff_forall_mem.mp opsT10_writes op h)
theorem opsTa_keep (V : Valuation τ sig (Elt F)) (r : Ref sig .tc) (h : r ∉ opsTa_W) :
    after opsTa V (Proc.devRef .tc r) = V (Proc.devRef .tc r) := after_of_writes_sub opsTa V opsTa_writes h

/-- The fold over the whole program is the folds over its stretches in turn. -/
theorem after_ops (V : Valuation τ sig (Elt F)) :
    after ops V = after opsTb (after opsTa (after opsL3 (after opsA3b (after opsA3a (after opsL2 (after opsA2 (after opsL1
      (after opsA1 V)))))))) := by
  simp only [ops, after_append]

/-- No stretch writes an argument. -/
private theorem arg_not_written : ∀ r ∈ [main_arg0, main_arg1, main_arg2, main_arg3, main_arg4, main_arg5, main_arg6, main_arg7, main_arg8],
    r ∉ opsA1_W ∧ r ∉ opsL1_W ∧ r ∉ opsA2_W ∧ r ∉ opsL2_W ∧ r ∉ opsA3a_W ∧ r ∉ opsA3b_W ∧ r ∉ opsL3_W ∧ r ∉ opsTa_W ∧ r ∉ opsTb_W := by
  decide

/-- An argument is written by no operation: it holds at the end what it held at the launch. -/
theorem ops_keep_arg (V : Valuation τ sig (Elt F)) (r : Ref sig .tc)
    (h : r ∈ [main_arg0, main_arg1, main_arg2, main_arg3, main_arg4, main_arg5, main_arg6, main_arg7, main_arg8]) :
    after ops V (Proc.devRef .tc r) = V (Proc.devRef .tc r) := by
  obtain ⟨h1, h2, h3, h4, h5, h6, h7, h8, h9⟩ := arg_not_written r h
  rw [after_ops, opsTb_keep _ r h9, opsTa_keep _ r h8, opsL3_keep _ r h7, opsA3b_keep _ r h6, opsA3a_keep _ r h5,
    opsL2_keep _ r h4, opsA2_keep _ r h3, opsL1_keep _ r h2, opsA1_keep _ r h1]

set_option maxRecDepth 8192 in
/-- On every device, for any float values, from any memory with zero counters: every weakly fair execution of
    the program terminates, and every buffer ends at the fold of the operations' results over its launch
    contents. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  run_seq scopedRefs_eq scopedSems_eq defs main (fun _ => ops) main_eq (fun _ => ops_sub) m ρ

end Cert.ReferenceIdeal.Run

end
-- ==== Proof.KernelHost.lean ====
/-
  The idealized kernel program's host stretches, read one buffer at a time.

  The edge list `e : [2, 800000]` is split once, before the first region, into its source row and its target row
  (`srcRow e`, `dstRow e`: row 0 and row 1, flattened); the two later aggregations reuse those two buffers. A buffer
  that no operation of a stretch writes holds after the stretch what it held before: the "kept" lemmas below, one per
  stretch and buffer that a later stretch or region reads.
-/
import proofs.«100297_j20117626814683_1_alg».proof.Proof.Gen.KernelIdeal.Launch
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

/-- A buffer none of the listed operations writes keeps its contents through them: the operations' written buffers
    are singletons, each different from the buffer read. -/
macro "kept_through" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable {F : FTy → Type} [FloatOps F]

/-- Row 0 of the edge list, flattened: the edges' sources. -/
def srcRow (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
/-- Row 1 of the edge list, flattened: the edges' targets. -/
def dstRow (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

variable (V : Valuation τ sig (Elt F))

/-- The first stretch leaves the source row in `main_v1` … -/
theorem hostOps0_v1 : after hostOps0 V (Proc.devRef .tc main_v1) = srcRow (V (Proc.devRef .tc main_arg1)) := by
  simp only [hostOps0]
  after_results_simp
  rfl
/-- … and the target row in `main_v3`. -/
theorem hostOps0_v3 : after hostOps0 V (Proc.devRef .tc main_v3) = dstRow (V (Proc.devRef .tc main_arg1)) := by
  simp only [hostOps0]
  after_results_simp
  rfl

/-! ## What each stretch keeps -/

theorem hostOps0_arg2 : after hostOps0 V (Proc.devRef .tc main_arg2) = V (Proc.devRef .tc main_arg2) := by kept_through hostOps0
theorem hostOps0_arg3 : after hostOps0 V (Proc.devRef .tc main_arg3) = V (Proc.devRef .tc main_arg3) := by kept_through hostOps0
theorem hostOps0_arg4 : after hostOps0 V (Proc.devRef .tc main_arg4) = V (Proc.devRef .tc main_arg4) := by kept_through hostOps0
theorem hostOps0_arg5 : after hostOps0 V (Proc.devRef .tc main_arg5) = V (Proc.devRef .tc main_arg5) := by kept_through hostOps0
theorem hostOps0_arg6 : after hostOps0 V (Proc.devRef .tc main_arg6) = V (Proc.devRef .tc main_arg6) := by kept_through hostOps0
theorem hostOps0_arg7 : after hostOps0 V (Proc.devRef .tc main_arg7) = V (Proc.devRef .tc main_arg7) := by kept_through hostOps0
theorem hostOps0_arg8 : after hostOps0 V (Proc.devRef .tc main_arg8) = V (Proc.devRef .tc main_arg8) := by kept_through hostOps0

theorem hostOps1_arg2 : after hostOps1 V (Proc.devRef .tc main_arg2) = V (Proc.devRef .tc main_arg2) := by kept_through hostOps1
theorem hostOps1_arg5 : after hostOps1 V (Proc.devRef .tc main_arg5) = V (Proc.devRef .tc main_arg5) := by kept_through hostOps1
theorem hostOps1_arg6 : after hostOps1 V (Proc.devRef .tc main_arg6) = V (Proc.devRef .tc main_arg6) := by kept_through hostOps1
theorem hostOps1_arg7 : after hostOps1 V (Proc.devRef .tc main_arg7) = V (Proc.devRef .tc main_arg7) := by kept_through hostOps1
theorem hostOps1_arg8 : after hostOps1 V (Proc.devRef .tc main_arg8) = V (Proc.devRef .tc main_arg8) := by kept_through hostOps1
theorem hostOps1_v1 : after hostOps1 V (Proc.devRef .tc main_v1) = V (Proc.devRef .tc main_v1) := by kept_through hostOps1
theorem hostOps1_v3 : after hostOps1 V (Proc.devRef .tc main_v3) = V (Proc.devRef .tc main_v3) := by kept_through hostOps1

theorem hostOps2_arg2 : after hostOps2 V (Proc.devRef .tc main_arg2) = V (Proc.devRef .tc main_arg2) := by kept_through hostOps2
theorem hostOps2_arg7 : after hostOps2 V (Proc.devRef .tc main_arg7) = V (Proc.devRef .tc main_arg7) := by kept_through hostOps2
theorem hostOps2_arg8 : after hostOps2 V (Proc.devRef .tc main_arg8) = V (Proc.devRef .tc main_arg8) := by kept_through hostOps2

/-- The last region's output `main_v36` is read only by the final gather: every tail stretch before it keeps it. -/
theorem tail_keeps_v36 :
    after hostOps3_9 (after hostOps3_8 (after hostOps3_7 (after hostOps3_6 (after hostOps3_5 (after hostOps3_4 (after hostOps3_3
      (after hostOps3_2 (after hostOps3_1 (after hostOps3 V))))))))) (Proc.devRef .tc main_v36) = V (Proc.devRef .tc main_v36) := by
  have h9 : ∀ W : Valuation τ sig (Elt F), after hostOps3_9 W (Proc.devRef .tc main_v36) = W (Proc.devRef .tc main_v36) := fun W => by kept_through hostOps3_9
  have h8 : ∀ W : Valuation τ sig (Elt F), after hostOps3_8 W (Proc.devRef .tc main_v36) = W (Proc.devRef .tc main_v36) := fun W => by kept_through hostOps3_8
  have h7 : ∀ W : Valuation τ sig (Elt F), after hostOps3_7 W (Proc.devRef .tc main_v36) = W (Proc.devRef .tc main_v36) := fun W => by kept_through hostOps3_7
  have h6 : ∀ W : Valuation τ sig (Elt F), after hostOps3_6 W (Proc.devRef .tc main_v36) = W (Proc.devRef .tc main_v36) := fun W => by kept_through hostOps3_6
  have h5 : ∀ W : Valuation τ sig (Elt F), after hostOps3_5 W (Proc.devRef .tc main_v36) = W (Proc.devRef .tc main_v36) := fun W => by kept_through hostOps3_5
  have h4 : ∀ W : Valuation τ sig (Elt F), after hostOps3_4 W (Proc.devRef .tc main_v36) = W (Proc.devRef .tc main_v36) := fun W => by kept_through hostOps3_4
  have h3 : ∀ W : Valuation τ sig (Elt F), after hostOps3_3 W (Proc.devRef .tc main_v36) = W (Proc.devRef .tc main_v36) := fun W => by kept_through hostOps3_3
  have h2 : ∀ W : Valuation τ sig (Elt F), after hostOps3_2 W (Proc.devRef .tc main_v36) = W (Proc.devRef .tc main_v36) := fun W => by kept_through hostOps3_2
  have h1 : ∀ W : Valuation τ sig (Elt F), after hostOps3_1 W (Proc.devRef .tc main_v36) = W (Proc.devRef .tc main_v36) := fun W => by kept_through hostOps3_1
  have h0 : ∀ W : Valuation τ sig (Elt F), after hostOps3 W (Proc.devRef .tc main_v36) = W (Proc.devRef .tc main_v36) := fun W => by kept_through hostOps3
  rw [h9, h8, h7, h6, h5, h4, h3, h2, h1, h0]

end Cert.KernelIdeal.HostValue

end
-- ==== Proof.LayerSpec.lean ====
/-
  One dense layer of the network, as a function of whole arrays over the extended reals, index by index.

  For a node-feature array `a : [N, K]`, a weight `W : [K, D]` and a bias `b : [D]`:
    * `affine a W b i j  = (∑ k, a[i,k] · W[k,j]) + b[j]`            (the linear map),
    * `sumSq a W b i     = ∑ j, (affine i j)²`                        (a row's squared length),
    * `rowNorm a W b i   = max (√(sumSq i)) ε`                        (the clamped Euclidean norm of row `i`),
    * `normed a W b i j  = affine i j / rowNorm i`                    (the row scaled to unit length),
    * `leaky y           = y` where `0 < y`, else `s · y`           (the leaky rectifier, slope `s`).
  `ε` and `s` are the two float literals both programs carry, kept as their binary words. Every entry of a row
  depends only on that row of `a`: this is what lets a row-blocked evaluation agree with the whole-array one.
-/
import Idealize.ShloMosaic.PureOps.Ideal
import Idealize.ShloMosaic.Lib.ValueIdx

noncomputable section

open scoped BigOperators

namespace Cert.Sage

open Idealize.ShloMosaic Idealize.ShloMosaic.ValueIdx

variable {N K D : Nat}

/-- The clamp under the norm: the word of `f32(1e-12)`. -/
abbrev epsE : EReal := Ideal.ofBits .f32 0x2B8CBCCC#32
/-- The rectifier's negative slope: the word of `f32(0.01)`. -/
abbrev slopeE : EReal := Ideal.ofBits .f32 0x3C23D70A#32

/-- The linear map of row `i`, column `j`. -/
def affine (a : (⟨2, ![N, K]⟩ : Shape).Idx → EReal) (W : (⟨2, ![K, D]⟩ : Shape).Idx → EReal)
    (b : (⟨1, ![D]⟩ : Shape).Idx → EReal) (i : Fin N) (j : Fin D) : EReal :=
  (∑ k : Fin K, a (ix2 i k) * W (ix2 k j)) + b (ix1 j)

/-- The squared Euclidean length of row `i` of the linear map. -/
def sumSq (a : (⟨2, ![N, K]⟩ : Shape).Idx → EReal) (W : (⟨2, ![K, D]⟩ : Shape).Idx → EReal)
    (b : (⟨1, ![D]⟩ : Shape).Idx → EReal) (i : Fin N) : EReal :=
  ∑ j : Fin D, affine a W b i j * affine a W b i j

/-- The norm of row `i`, clamped from below by `ε`. -/
def rowNorm (a : (⟨2, ![N, K]⟩ : Shape).Idx → EReal) (W : (⟨2, ![K, D]⟩ : Shape).Idx → EReal)
    (b : (⟨1, ![D]⟩ : Shape).Idx → EReal) (i : Fin N) : EReal :=
  max (Ideal.sqrt (sumSq a W b i)) epsE

/-- Row `i` scaled to unit length, at column `j`. -/
def normed (a : (⟨2, ![N, K]⟩ : Shape).Idx → EReal) (W : (⟨2, ![K, D]⟩ : Shape).Idx → EReal)
    (b : (⟨1, ![D]⟩ : Shape).Idx → EReal) (i : Fin N) (j : Fin D) : EReal :=
  Ideal.div (affine a W b i j) (rowNorm a W b i)

/-- The leaky rectifier. -/
def leaky (y : EReal) : EReal := if 0 < y then y else slopeE * y

/-- A layer without the rectifier, as a whole array. -/
def layerLin (a : (⟨2, ![N, K]⟩ : Shape).Idx → EReal) (W : (⟨2, ![K, D]⟩ : Shape).Idx → EReal)
    (b : (⟨1, ![D]⟩ : Shape).Idx → EReal) : (⟨2, ![N, D]⟩ : Shape).Idx → EReal :=
  fun q => normed a W b (q 0) (q 1)

/-- A layer followed by the rectifier, as a whole array. -/
def layerAct (a : (⟨2, ![N, K]⟩ : Shape).Idx → EReal) (W : (⟨2, ![K, D]⟩ : Shape).Idx → EReal)
    (b : (⟨1, ![D]⟩ : Shape).Idx → EReal) : (⟨2, ![N, D]⟩ : Shape).Idx → EReal :=
  fun q => leaky (normed a W b (q 0) (q 1))

theorem layerLin_ix2 (a : (⟨2, ![N, K]⟩ : Shape).Idx → EReal) (W : (⟨2, ![K, D]⟩ : Shape).Idx → EReal)
    (b : (⟨1, ![D]⟩ : Shape).Idx → EReal) (i : Fin N) (j : Fin D) :
    layerLin a W b (ix2 i j) = normed a W b i j := rfl

theorem layerAct_ix2 (a : (⟨2, ![N, K]⟩ : Shape).Idx → EReal) (W : (⟨2, ![K, D]⟩ : Shape).Idx → EReal)
    (b : (⟨1, ![D]⟩ : Shape).Idx → EReal) (i : Fin N) (j : Fin D) :
    layerAct a W b (ix2 i j) = leaky (normed a W b i j) := rfl

/-- The rectifier written with a non-strict test agrees with it: at `0` both branches give `0`. -/
theorem leaky_of_ge (y : EReal) : (if 0 ≤ y then y else slopeE * y) = leaky y := by
  unfold leaky
  by_cases h : 0 < y
  · rw [if_pos h, if_pos h.le]
  · rw [if_neg h]
    by_cases h0 : 0 ≤ y
    · have : y = 0 := le_antisymm (not_lt.mp h) h0
      rw [if_pos h0, this, mul_zero]
    · rw [if_neg h0]

end Cert.Sage

end
-- ==== Proof.LibColumnLayout.lean ====
/-
  Column layouts read at an index (general, any element type, any extents).

  A reduction along the rows of an [a, b] array that keeps its reduced axis (`sum(…, keepdims=True)`) passes through
  two layout steps a row-wise computation then reads back: a vector of length a viewed as an [a, 1] column, and an
  [a, 1] column repeated along the rows of an [a, b] array.
  * `shapeCast_a_a1_apply`: the cast [a] → [a, 1] read at (r, 0) is the vector at r;
  * `broadcastTo_a1_ab_apply`: the broadcast [a, 1] → [a, b] read at (r, j) is the column at (r, 0);
  * `zeros2`, `zeros1`: the zero offsets of a whole-block access as constant functions.
-/
import Idealize.ShloMosaic.Lib.Pipeline.Value
import Idealize.ShloMosaic.Lib.ValueIdx

noncomputable section

namespace Cert.RegionRows

open Idealize.ShloMosaic Idealize.ShloMosaic.ValueIdx

section Layout
variable {α : Type}

/-- A vector viewed as a column: the shape cast [a] → [a, 1] read at (r, z) is the vector at r
    (both sit at row-major position r). -/
theorem shapeCast_a_a1_apply {a : Nat} (v : (⟨1, ![a]⟩ : Shape).Idx → α)
    (h : (⟨1, ![a]⟩ : Shape).ShapeCasts ⟨2, ![a, 1]⟩) (r : Fin a) (z : Fin 1) :
    shapeCast ⟨2, ![a, 1]⟩ v h (ix2 r z) = v (ix1 r) :=
  shapeCast_apply v h (ix2 r z) (ix1 r) (by
    rw [Shape.rowMajor_val_one, Shape.rowMajor_val_two]
    show r.val = r.val * 1 + z.val
    have := z.isLt; omega)

/-- A column repeated along the rows: the broadcast [a, 1] → [a, b] read at (r, j) is the column at (r, 0). -/
theorem broadcastTo_a1_ab_apply {a b : Nat} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) :=
  broadcastTo_apply v h (ix2 r j) (ix2 r (0 : Fin 1)) (fun ax => by
    match ax with
    | ⟨0, _⟩ =>
      show r.val = if a = 1 then 0 else r.val
      have := r.isLt
      split <;> omega
    | ⟨1, _⟩ => rfl)

/-- The zero offsets of a whole-block access, rank 2 and rank 1, as constant functions. -/
theorem zeros2 : (![0, 0] : Fin 2 → Nat) = fun _ => 0 := funext fun a => by fin_cases a <;> rfl
theorem zeros1 : (![0] : Fin 1 → Nat) = fun _ => 0 := funext fun a => by fin_cases a <;> rfl

end Layout

end Cert.RegionRows

end
-- ==== Proof.RegionRows.lean ====
/-
  One fact about a row block of a dense layer, over the extended reals.

  * Row i of a layer (the linear map, its squared length, the clamped norm, the scaled row) is a function of row i
    of the features alone: two feature arrays, of any two heights, that agree on one row each give the same scaled
    row there. This is why evaluating a layer on a block of rows gives the block of the layer.
-/
import proofs.«100297_j20117626814683_1_alg».proof.Proof.LayerSpec
import proofs.«100297_j20117626814683_1_alg».proof.Proof.LibColumnLayout
import Idealize.ShloMosaic.Lib.Pipeline.Value
import Idealize.ShloMosaic.Lib.ValueIdx

noncomputable section

open scoped BigOperators

namespace Cert.RegionRows

open Idealize.ShloMosaic Idealize.ShloMosaic.ValueIdx

section Rows
open Cert.Sage
variable {N N' K D : Nat}

/-- The linear map at (i, j) reads row i of the features only. -/
theorem affine_row_congr (a : (⟨2, ![N, K]⟩ : Shape).Idx → EReal) (a' : (⟨2, ![N', K]⟩ : Shape).Idx → EReal)
    (W : (⟨2, ![K, D]⟩ : Shape).Idx → EReal) (b : (⟨1, ![D]⟩ : Shape).Idx → EReal) (i : Fin N) (i' : Fin N')
    (h : ∀ k : Fin K, a (ix2 i k) = a' (ix2 i' k)) (j : Fin D) : affine a W b i j = affine a' W b i' j := by
  unfold affine
  exact congrArg (· + b (ix1 j)) (Finset.sum_congr rfl fun k _ => by rw [h k])

/-- So does the scaled row: the linear map, its squared length and the clamped norm of row i all read that row only. -/
theorem normed_row_congr (a : (⟨2, ![N, K]⟩ : Shape).Idx → EReal) (a' : (⟨2, ![N', K]⟩ : Shape).Idx → EReal)
    (W : (⟨2, ![K, D]⟩ : Shape).Idx → EReal) (b : (⟨1, ![D]⟩ : Shape).Idx → EReal) (i : Fin N) (i' : Fin N')
    (h : ∀ k : Fin K, a (ix2 i k) = a' (ix2 i' k)) (j : Fin D) : normed a W b i j = normed a' W b i' j := by
  have haff : ∀ j : Fin D, affine a W b i j = affine a' W b i' j := affine_row_congr a a' W b i i' h
  unfold normed rowNorm sumSq
  rw [haff j, Finset.sum_congr rfl fun j' _ => by rw [haff j']]

/-- The same with the weight and the bias given up to equality: the form in which a row block of the features, the
    whole weight and the whole bias meet the arrays they were cut from. -/
theorem normed_block_congr (a : (⟨2, ![N, K]⟩ : Shape).Idx → EReal) (a' : (⟨2, ![N', K]⟩ : Shape).Idx → EReal)
    (W W' : (⟨2, ![K, D]⟩ : Shape).Idx → EReal) (b b' : (⟨1, ![D]⟩ : Shape).Idx → EReal) (i : Fin N) (i' : Fin N')
    (h : ∀ k : Fin K, a (ix2 i k) = a' (ix2 i' k)) (hW : W = W') (hb : b = b') (j : Fin D) :
    normed a W b i j = normed a' W' b' i' j := by
  subst hW hb
  exact normed_row_congr a a' W b i i' h j

end Rows

end Cert.RegionRows

end
-- ==== Proof.RegionValue0.lean ====
/-
  The first layer's region: what its result array holds after the 25 grid points.

  The body, on one block of 2000 rows of the features x0 : [2000, 128], the whole weight x1 : [128, 256] and the whole
  bias x2 : [256], stores the block
      leaky ((x0·x1 + x2)[r, j] / max (√(∑ j', (x0·x1 + x2)[r, j']²), ε)).
  Entry by entry this is the rectified layer of the block taken alone (`pay0_apply`): the matrix product is the sum over
  the one contracted coordinate, the lane sum is the sum over the columns of the row, the column of norms is read back
  at (r, 0), and the selection on "greater than zero" is the rectifier.
  A row of the layer reads only that row of the features, so the block stored at point t is rows 2000·t … 2000·t + 1999
  of the layer of the WHOLE arrays (`flushed0_eq`); the 25 blocks cover every row (`cover0`), and so the array ends as
  the layer of the arrays the region was entered with (`value0`).
-/
import proofs.«100297_j20117626814683_1_alg».proof.Proof.Gen.KernelIdeal.Frame
import proofs.«100297_j20117626814683_1_alg».proof.Proof.LayerSpec
import proofs.«100297_j20117626814683_1_alg».proof.Proof.RegionRows
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx

/-! ## The body's arithmetic on one row block, entry by entry -/

/-- The linear map on a row block, as the body computes it: the block times the weight (accumulated from zero),
    plus the bias repeated down the rows. -/
def lin0 (x0 : Vec Ideal S2000x128 .f32) (x1 : Vec Ideal S128x256 .f32) (x2 : Vec Ideal S256 .f32) : FVec Ideal S2000x256 .f32 :=
  addf (matmul dot_S2000x128_S128x256_S2000x256_1_0_0_1_n_n none
      (truncf .bf16 (shapeCast S2000x128 x0 shapeCasts_S2000x128_S2000x128) bitsLt_bf16_f32) (truncf .bf16 x1 bitsLt_bf16_f32)
      (constant S2000x256 .f32 0x00000000#32))
    (broadcastTo S2000x256 (shapeCast S1x256 x2 shapeCasts_S256_S1x256) broadcasts_S1x256_S2000x256)

/-- The clamped row norms of a block, as a column: the lane sum of the squares, its root, the maximum with the clamp. -/
def norm0 (y : FVec Ideal S2000x256 .f32) : FVec Ideal S2000x1 .f32 :=
  maximumf (sqrt (shapeCast S2000x1 (multiReduction (F := Ideal) .add [1] S2000 (mulf y y) 0x00000000#32
      reduces_S2000x256_S2000 (.inl rfl) rfl) shapeCasts_S2000_S2000x1))
    (broadcast S2000x1 (Scalar.ofBits .f32 0x2B8CBCCC#32))

/-- A block divided, row by row, by its clamped norms. -/
def unit0 (y : FVec Ideal S2000x256 .f32) : FVec Ideal S2000x256 .f32 :=
  divf y (broadcastTo S2000x256 (norm0 y) broadcasts_S2000x1_S2000x256)

/-- The stored value is the rectifier, written as a selection on "greater than zero", of the scaled linear map. -/
theorem pay0_eq (x0 : Vec Ideal S2000x128 .f32) (x1 : Vec Ideal S128x256 .f32) (x2 : Vec Ideal S256 .f32) :
    k0_pay1 x0 x1 x2
      = select (cmpf .ogt (unit0 (lin0 x0 x1 x2)) (broadcast S2000x256 (Scalar.ofBits .f32 0x00000000#32)))
          (unit0 (lin0 x0 x1 x2))
          (mulf (broadcast S2000x256 (Scalar.ofBits .f32 0x3C23D70A#32)) (unit0 (lin0 x0 x1 x2))) := rfl

/-- Entry (r, j) of the linear map: row r of the block against column j of the weight, plus the bias at j. -/
theorem lin0_apply (x0 : Vec Ideal S2000x128 .f32) (x1 : Vec Ideal S128x256 .f32) (x2 : Vec Ideal S256 .f32)
    (r : Fin 2000) (j : Fin 256) :
    lin0 x0 x1 x2 (ix2 r j) = Cert.Sage.affine (N := 2000) (K := 128) (D := 256) x0 x1 x2 r j := by
  unfold lin0 Cert.Sage.affine
  rw [addf_apply]
  congr 1
  · show FloatOps.matmul _ none _ _ (constant S2000x256 .f32 0x00000000#32) (ix2 r j) = _
    rw [Ideal.matmul_constant_zero_apply,
      ← Equiv.sum_comp (contrEquiv1 dot_S2000x128_S128x256_S2000x256_1_0_0_1_n_n 128 rfl rfl).symm]
    refine Finset.sum_congr rfl fun k _ => ?_
    have ck := contrEquiv1_symm_val dot_S2000x128_S128x256_S2000x256_1_0_0_1_n_n 128 rfl rfl k
    have hl : dot_S2000x128_S128x256_S2000x256_1_0_0_1_n_n.lhsIdx (ix2 r j)
        ((contrEquiv1 dot_S2000x128_S128x256_S2000x256_1_0_0_1_n_n 128 rfl rfl).symm k) = ix2 r k := by
      funext ax; apply Fin.ext
      match ax with
      | ⟨0, _⟩ => simp [DotDims.lhsIdx, dot_S2000x128_S128x256_S2000x256_1_0_0_1_n_n]; rfl
      | ⟨1, _⟩ => simp [DotDims.lhsIdx, dot_S2000x128_S128x256_S2000x256_1_0_0_1_n_n]; exact ck
    have hr : dot_S2000x128_S128x256_S2000x256_1_0_0_1_n_n.rhsIdx (ix2 r j)
        ((contrEquiv1 dot_S2000x128_S128x256_S2000x256_1_0_0_1_n_n 128 rfl rfl).symm k) = ix2 k j := by
      funext ax; apply Fin.ext
      match ax with
      | ⟨0, _⟩ => simp [DotDims.rhsIdx, dot_S2000x128_S128x256_S2000x256_1_0_0_1_n_n]; exact ck
      | ⟨1, _⟩ => simp [DotDims.rhsIdx, dot_S2000x128_S128x256_S2000x256_1_0_0_1_n_n]; rfl
    rw [hl, hr, truncf_apply, truncf_apply, shapeCast_self]
  · refine (broadcastTo_apply _ broadcasts_S1x256_S2000x256 (ix2 r j) (ix2 (0 : Fin 1) j) ?_).trans ?_
    · intro a
      match a with
      | ⟨0, _⟩ => rfl
      | ⟨1, _⟩ => rfl
    · refine (shapeCast_addUnit_apply ![256] x2 shapeCasts_S256_S1x256 (ix2 (0 : Fin 1) j)).trans (congrArg x2 ?_)
      funext a
      match a with
      | ⟨0, _⟩ => rfl

/-- Entry (r, 0) of the norm column: the root of row r's sum of squares, clamped from below. -/
theorem norm0_apply (y : FVec Ideal S2000x256 .f32) (r : Fin 2000) :
    norm0 y (ix2 r (0 : Fin 1)) = max (Ideal.sqrt (∑ j : Fin 256, y (ix2 r j) * y (ix2 r j))) Cert.Sage.epsE := by
  unfold norm0
  rw [maximumf_apply]
  refine congrArg (fun s => max (Ideal.sqrt s) Cert.Sage.epsE) ?_
  refine (Cert.RegionRows.shapeCast_a_a1_apply _ shapeCasts_S2000_S2000x1 r (0 : Fin 1)).trans ?_
  refine (Ideal.multiReduction_add_single (mulf y y) 0x00000000#32 reduces_S2000x256_S2000 (.inl rfl) rfl (ix1 r)).trans ?_
  refine Finset.sum_congr rfl fun k _ => ?_
  have hk : reduces_S2000x256_S2000.lift (ix1 r) k = ix2 r k := by
    funext ax; apply Fin.ext
    match ax with
    | ⟨0, _⟩ => rfl
    | ⟨1, _⟩ => rfl
  rw [hk]
  rfl

/-- Entry (r, j) of the scaled block: the entry over its row's clamped norm. -/
theorem unit0_apply (y : FVec Ideal S2000x256 .f32) (r : Fin 2000) (j : Fin 256) :
    unit0 y (ix2 r j) = Ideal.div (y (ix2 r j)) (max (Ideal.sqrt (∑ j' : Fin 256, y (ix2 r j') * y (ix2 r j'))) Cert.Sage.epsE) := by
  unfold unit0
  rw [divf_apply]
  refine congrArg (Ideal.div (y (ix2 r j))) ?_
  exact (Cert.RegionRows.broadcastTo_a1_ab_apply _ broadcasts_S2000x1_S2000x256 r j).trans (norm0_apply y r)

/-- THE STORED BLOCK, entry (r, j): the rectified, scaled row r of the layer evaluated on the block alone. -/
theorem pay0_apply (x0 : Vec Ideal S2000x128 .f32) (x1 : Vec Ideal S128x256 .f32) (x2 : Vec Ideal S256 .f32)
    (r : Fin 2000) (j : Fin 256) :
    k0_pay1 x0 x1 x2 (ix2 r j)
      = Cert.Sage.leaky (Cert.Sage.normed (N := 2000) (K := 128) (D := 256) x0 x1 x2 r j) := by
  have hu : unit0 (lin0 x0 x1 x2) (ix2 r j) = Cert.Sage.normed (N := 2000) (K := 128) (D := 256) x0 x1 x2 r j := by
    rw [unit0_apply]
    unfold Cert.Sage.normed Cert.Sage.rowNorm Cert.Sage.sumSq
    rw [lin0_apply, Finset.sum_congr rfl fun j' _ => by rw [lin0_apply]]
  rw [pay0_eq, select_apply, cmpf_apply, mulf_apply, broadcast_apply, broadcast_apply, hu]
  show Scalar.select (Ideal.cmp .ogt _ (Ideal.ofBits .f32 0x00000000#32)) _ (Ideal.ofBits .f32 0x3C23D70A#32 * _) = _
  rw [Ideal.ofBits_zero_f32]
  unfold Cert.Sage.leaky Scalar.select Ideal.cmp
  by_cases h : 0 < Cert.Sage.normed (N := 2000) (K := 128) (D := 256) x0 x1 x2 r j
  · simp [h]
  · simp [h]

/-! ## From the row blocks to the array -/

/-- The printed index maps over the 25 grid points: the features and the result take row block t at point t, in their
    only column block; the weight and the bias take their only block at every point. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b)) (c : Dev nD)

/-- Row r of the features' block at point t is row 2000·t + r of the feature array. -/
theorem feature_block0 (t : Fin cfg0.N) (r : Fin 2000) (k : Fin 128) (i : Fin 50000) (hi : i.val = t.val * 2000 + r.val) :
    (iblk0 V c 0 t : Vec Ideal S2000x128 .f32) (ix2 r k) = V c (Pipeline.arrRef spec0 0) (ix2 i k) := by
  obtain ⟨e00, e01, -⟩ := index_facts0 t
  show V c (Pipeline.arrRef spec0 0) (((cfg0.win 0).blk t).view.emb (ix2 r k)) = _
  refine congrArg _ (funext fun a => Fin.ext ?_)
  match a with
  | ⟨0, _⟩ => show win0_0.index t (0 : Fin 2) * 2000 + 1 * r.val = i.val; rw [e00, hi]; omega
  | ⟨1, _⟩ => show win0_0.index t (1 : Fin 2) * 128 + 1 * k.val = k.val; rw [e01]; omega

/-- The weight's block at every point is the whole weight. -/
theorem weight_block0 (t : Fin cfg0.N) : (iblk0 V c 1 t : Vec Ideal S128x256 .f32) = V c (Pipeline.arrRef spec0 1) := by
  obtain ⟨-, -, e10, e11, -⟩ := index_facts0 t
  funext y
  obtain ⟨p, q, rfl⟩ : ∃ (p : Fin 128) (q : Fin 256), y = ix2 p q := ⟨y 0, y 1, eq_ix2 y⟩
  show V c (Pipeline.arrRef spec0 1) (((cfg0.win 1).blk t).view.emb (ix2 p q)) = V c (Pipeline.arrRef spec0 1) (ix2 p q)
  refine congrArg _ (funext fun a => Fin.ext ?_)
  match a with
  | ⟨0, _⟩ => show win0_1.index t (0 : Fin 2) * 128 + 1 * p.val = p.val; rw [e10]; omega
  | ⟨1, _⟩ => show win0_1.index t (1 : Fin 2) * 256 + 1 * q.val = q.val; rw [e11]; omega

/-- The bias's block at every point is the whole bias. -/
theorem bias_block0 (t : Fin cfg0.N) : (iblk0 V c 2 t : Vec Ideal S256 .f32) = V c (Pipeline.arrRef spec0 2) := by
  obtain ⟨-, -, -, -, e2, -⟩ := index_facts0 t
  funext y
  obtain ⟨q, rfl⟩ : ∃ (q : Fin 256), y = ix1 q := ⟨y 0, eq_ix1 y⟩
  show V c (Pipeline.arrRef spec0 2) (((cfg0.win 2).blk t).view.emb (ix1 q)) = V c (Pipeline.arrRef spec0 2) (ix1 q)
  refine congrArg _ (funext fun a => Fin.ext ?_)
  match a with
  | ⟨0, _⟩ => show win0_2.index t (0 : Fin 1) * 256 + 1 * q.val = q.val; rw [e2]; omega

/-- WHAT POINT t WRITES BACK is row block t of the rectified layer of the arrays the region finds: the stored block's
    row r is the layer's row on the features' block, which is row 2000·t + r of the features. -/
theorem flushed0_eq (t : Fin cfg0.N) :
    (dat0 V c).flushed 3 t = ((cfg0.win 3).blk t).view.read (Elt Ideal)
      (Cert.Sage.layerAct (N := 50000) (K := 128) (D := 256) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero Cert.RegionRows.zeros2]
  simp only [View.ld_unit_zero (S := S2000x128) Cert.RegionRows.zeros2, View.ld_unit_zero (S := S128x256) Cert.RegionRows.zeros2, View.ld_unit_zero (S := S256) Cert.RegionRows.zeros1]
  funext y
  obtain ⟨r, j, rfl⟩ : ∃ (r : Fin 2000) (j : Fin 256), y = ix2 r j := ⟨y 0, y 1, eq_ix2 y⟩
  obtain ⟨-, -, -, -, -, e30, e31⟩ := index_facts0 t
  have hN : cfg0.N = 25 := N_0
  have hrow : t.val * 2000 + r.val < 50000 := by have := t.isLt; have := r.isLt; omega
  show k0_pay1 (iblk0 V c 0 t) (iblk0 V c 1 t) (iblk0 V c 2 t) (ix2 r j)
    = Cert.Sage.layerAct (N := 50000) (K := 128) (D := 256) (V c (Pipeline.arrRef spec0 0)) (V c (Pipeline.arrRef spec0 1)) (V c (Pipeline.arrRef spec0 2))
        (((cfg0.win 3).blk t).view.emb (ix2 r j))
  have hemb : ((cfg0.win 3).blk t).view.emb (ix2 r j) = ix2 (⟨t.val * 2000 + r.val, hrow⟩ : Fin 50000) j := by
    funext a; apply Fin.ext
    match a with
    | ⟨0, _⟩ => show win0_3.index t (0 : Fin 2) * 2000 + 1 * r.val = t.val * 2000 + r.val; rw [e30]; omega
    | ⟨1, _⟩ => show win0_3.index t (1 : Fin 2) * 256 + 1 * j.val = j.val; rw [e31]; omega
  rw [hemb, Cert.Sage.layerAct_ix2]
  refine (pay0_apply (iblk0 V c 0 t) (iblk0 V c 1 t) (iblk0 V c 2 t) r j).trans (congrArg Cert.Sage.leaky ?_)
  exact Cert.RegionRows.normed_block_congr (iblk0 V c 0 t) (V c (Pipeline.arrRef spec0 0)) (iblk0 V c 1 t) (V c (Pipeline.arrRef spec0 1))
    (iblk0 V c 2 t) (V c (Pipeline.arrRef spec0 2)) r ⟨t.val * 2000 + r.val, hrow⟩
    (fun k => feature_block0 V c t r k ⟨t.val * 2000 + r.val, hrow⟩ rfl) (weight_block0 V c t) (bias_block0 V c t) j

end

/-- An index of the result array is in point t's block iff each coordinate is in the block's range on its axis. -/
theorem mem_block0 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v14).slice (win0_3.rect t)).set ↔ _
  rw [View.set_slice_whole, Rect.mem_set_unit]
  exact Iff.rfl

/-- Every row is written: row i lies in the block of point i / 2000. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  have ht : (i 0).val / 2000 < cfg0.N := by rw [hN]; omega
  obtain ⟨-, -, -, -, -, e30, e31⟩ := index_facts0 ⟨(i 0).val / 2000, ht⟩
  refine ⟨⟨(i 0).val / 2000, ht⟩, flush0_3 _, ?_⟩
  rw [mem_block0]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, ht⟩ (1 : Fin 2) * 256 ≤ (i 1).val ∧ (i 1).val < win0_3.index ⟨(i 0).val / 2000, ht⟩ (1 : Fin 2) * 256 + 256
    rw [e31]; omega

/-- THE FIRST REGION'S RESULT ARRAY after its 25 points: the rectified layer of the arrays the region was entered with. -/
theorem value0 (V : (c : Dev nD) → (b : Ref sig .tc) → Buf (Elt Ideal) ((c : Thread nD τ).loc b)) (c : Dev nD) :
    (dat0 V c).arrAt 3 cfg0.N
      = Cert.Sage.layerAct (N := 50000) (K := 128) (D := 256) (V c (Pipeline.arrRef spec0 0)) (V c (Pipeline.arrRef spec0 1)) (V c (Pipeline.arrRef spec0 2)) :=
  (dat0 V c).arrAt_eq_of_cover 3 _ (fun t _ => flushed0_eq V c t) cover0

end Cert.KernelIdeal.RegionValue

end
-- ==== Proof.RegionValue1.lean ====
/-
  The second layer's region: what its result array holds after the 25 grid points.

  The body, on one block of 2000 rows of the features x0 : [2000, 256], the whole weight x1 : [256, 256] and the whole
  bias x2 : [256], stores the block
      leaky ((x0·x1 + x2)[r, j] / max (√(∑ j', (x0·x1 + x2)[r, j']²), ε)).
  Entry by entry this is the rectified layer of the block taken alone (`pay1_apply`): the matrix product is the sum over
  the one contracted coordinate, the lane sum is the sum over the columns of the row, the column of norms is read back
  at (r, 0), and the selection on "greater than zero" is the rectifier.
  A row of the layer reads only that row of the features, so the block stored at point t is rows 2000·t … 2000·t + 1999
  of the layer of the WHOLE arrays (`flushed1_eq`); the 25 blocks cover every row (`cover1`), and so the array ends as
  the layer of the arrays the region was entered with (`value1`).
-/
import proofs.«100297_j20117626814683_1_alg».proof.Proof.Gen.KernelIdeal.Frame
import proofs.«100297_j20117626814683_1_alg».proof.Proof.LayerSpec
import proofs.«100297_j20117626814683_1_alg».proof.Proof.RegionRows
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx

/-! ## The body's arithmetic on one row block, entry by entry -/

/-- The linear map on a row block, as the body computes it: the block times the weight (accumulated from zero),
    plus the bias repeated down the rows. -/
def lin1 (x0 : Vec Ideal S2000x256 .f32) (x1 : Vec Ideal S256x256 .f32) (x2 : Vec Ideal S256 .f32) : FVec Ideal S2000x256 .f32 :=
  addf (matmul dot_S2000x256_S256x256_S2000x256_1_0_0_1_n_n none
      (truncf .bf16 (shapeCast S2000x256 x0 shapeCasts_S2000x256_S2000x256) bitsLt_bf16_f32) (truncf .bf16 x1 bitsLt_bf16_f32)
      (constant S2000x256 .f32 0x00000000#32))
    (broadcastTo S2000x256 (shapeCast S1x256 x2 shapeCasts_S256_S1x256) broadcasts_S1x256_S2000x256)

/-- The clamped row norms of a block, as a column: the lane sum of the squares, its root, the maximum with the clamp. -/
def norm1 (y : FVec Ideal S2000x256 .f32) : FVec Ideal S2000x1 .f32 :=
  maximumf (sqrt (shapeCast S2000x1 (multiReduction (F := Ideal) .add [1] S2000 (mulf y y) 0x00000000#32
      reduces_S2000x256_S2000 (.inl rfl) rfl) shapeCasts_S2000_S2000x1))
    (broadcast S2000x1 (Scalar.ofBits .f32 0x2B8CBCCC#32))

/-- A block divided, row by row, by its clamped norms. -/
def unit1 (y : FVec Ideal S2000x256 .f32) : FVec Ideal S2000x256 .f32 :=
  divf y (broadcastTo S2000x256 (norm1 y) broadcasts_S2000x1_S2000x256)

/-- The stored value is the rectifier, written as a selection on "greater than zero", of the scaled linear map. -/
theorem pay1_eq (x0 : Vec Ideal S2000x256 .f32) (x1 : Vec Ideal S256x256 .f32) (x2 : Vec Ideal S256 .f32) :
    k1_pay1 x0 x1 x2
      = select (cmpf .ogt (unit1 (lin1 x0 x1 x2)) (broadcast S2000x256 (Scalar.ofBits .f32 0x00000000#32)))
          (unit1 (lin1 x0 x1 x2))
          (mulf (broadcast S2000x256 (Scalar.ofBits .f32 0x3C23D70A#32)) (unit1 (lin1 x0 x1 x2))) := rfl

/-- Entry (r, j) of the linear map: row r of the block against column j of the weight, plus the bias at j. -/
theorem lin1_apply (x0 : Vec Ideal S2000x256 .f32) (x1 : Vec Ideal S256x256 .f32) (x2 : Vec Ideal S256 .f32)
    (r : Fin 2000) (j : Fin 256) :
    lin1 x0 x1 x2 (ix2 r j) = Cert.Sage.affine (N := 2000) (K := 256) (D := 256) x0 x1 x2 r j := by
  unfold lin1 Cert.Sage.affine
  rw [addf_apply]
  congr 1
  · show FloatOps.matmul _ none _ _ (constant S2000x256 .f32 0x00000000#32) (ix2 r j) = _
    rw [Ideal.matmul_constant_zero_apply,
      ← Equiv.sum_comp (contrEquiv1 dot_S2000x256_S256x256_S2000x256_1_0_0_1_n_n 256 rfl rfl).symm]
    refine Finset.sum_congr rfl fun k _ => ?_
    have ck := contrEquiv1_symm_val dot_S2000x256_S256x256_S2000x256_1_0_0_1_n_n 256 rfl rfl k
    have hl : dot_S2000x256_S256x256_S2000x256_1_0_0_1_n_n.lhsIdx (ix2 r j)
        ((contrEquiv1 dot_S2000x256_S256x256_S2000x256_1_0_0_1_n_n 256 rfl rfl).symm k) = ix2 r k := by
      funext ax; apply Fin.ext
      match ax with
      | ⟨0, _⟩ => simp [DotDims.lhsIdx, dot_S2000x256_S256x256_S2000x256_1_0_0_1_n_n]; rfl
      | ⟨1, _⟩ => simp [DotDims.lhsIdx, dot_S2000x256_S256x256_S2000x256_1_0_0_1_n_n]; exact ck
    have hr : dot_S2000x256_S256x256_S2000x256_1_0_0_1_n_n.rhsIdx (ix2 r j)
        ((contrEquiv1 dot_S2000x256_S256x256_S2000x256_1_0_0_1_n_n 256 rfl rfl).symm k) = ix2 k j := by
      funext ax; apply Fin.ext
      match ax with
      | ⟨0, _⟩ => simp [DotDims.rhsIdx, dot_S2000x256_S256x256_S2000x256_1_0_0_1_n_n]; exact ck
      | ⟨1, _⟩ => simp [DotDims.rhsIdx, dot_S2000x256_S256x256_S2000x256_1_0_0_1_n_n]; rfl
    rw [hl, hr, truncf_apply, truncf_apply, shapeCast_self]
  · refine (broadcastTo_apply _ broadcasts_S1x256_S2000x256 (ix2 r j) (ix2 (0 : Fin 1) j) ?_).trans ?_
    · intro a
      match a with
      | ⟨0, _⟩ => rfl
      | ⟨1, _⟩ => rfl
    · refine (shapeCast_addUnit_apply ![256] x2 shapeCasts_S256_S1x256 (ix2 (0 : Fin 1) j)).trans (congrArg x2 ?_)
      funext a
      match a with
      | ⟨0, _⟩ => rfl

/-- Entry (r, 0) of the norm column: the root of row r's sum of squares, clamped from below. -/
theorem norm1_apply (y : FVec Ideal S2000x256 .f32) (r : Fin 2000) :
    norm1 y (ix2 r (0 : Fin 1)) = max (Ideal.sqrt (∑ j : Fin 256, y (ix2 r j) * y (ix2 r j))) Cert.Sage.epsE := by
  unfold norm1
  rw [maximumf_apply]
  refine congrArg (fun s => max (Ideal.sqrt s) Cert.Sage.epsE) ?_
  refine (Cert.RegionRows.shapeCast_a_a1_apply _ shapeCasts_S2000_S2000x1 r (0 : Fin 1)).trans ?_
  refine (Ideal.multiReduction_add_single (mulf y y) 0x00000000#32 reduces_S2000x256_S2000 (.inl rfl) rfl (ix1 r)).trans ?_
  refine Finset.sum_congr rfl fun k _ => ?_
  have hk : reduces_S2000x256_S2000.lift (ix1 r) k = ix2 r k := by
    funext ax; apply Fin.ext
    match ax with
    | ⟨0, _⟩ => rfl
    | ⟨1, _⟩ => rfl
  rw [hk]
  rfl

/-- Entry (r, j) of the scaled block: the entry over its row's clamped norm. -/
theorem unit1_apply (y : FVec Ideal S2000x256 .f32) (r : Fin 2000) (j : Fin 256) :
    unit1 y (ix2 r j) = Ideal.div (y (ix2 r j)) (max (Ideal.sqrt (∑ j' : Fin 256, y (ix2 r j') * y (ix2 r j'))) Cert.Sage.epsE) := by
  unfold unit1
  rw [divf_apply]
  refine congrArg (Ideal.div (y (ix2 r j))) ?_
  exact (Cert.RegionRows.broadcastTo_a1_ab_apply _ broadcasts_S2000x1_S2000x256 r j).trans (norm1_apply y r)

/-- THE STORED BLOCK, entry (r, j): the rectified, scaled row r of the layer evaluated on the block alone. -/
theorem pay1_apply (x0 : Vec Ideal S2000x256 .f32) (x1 : Vec Ideal S256x256 .f32) (x2 : Vec Ideal S256 .f32)
    (r : Fin 2000) (j : Fin 256) :
    k1_pay1 x0 x1 x2 (ix2 r j)
      = Cert.Sage.leaky (Cert.Sage.normed (N := 2000) (K := 256) (D := 256) x0 x1 x2 r j) := by
  have hu : unit1 (lin1 x0 x1 x2) (ix2 r j) = Cert.Sage.normed (N := 2000) (K := 256) (D := 256) x0 x1 x2 r j := by
    rw [unit1_apply]
    unfold Cert.Sage.normed Cert.Sage.rowNorm Cert.Sage.sumSq
    rw [lin1_apply, Finset.sum_congr rfl fun j' _ => by rw [lin1_apply]]
  rw [pay1_eq, select_apply, cmpf_apply, mulf_apply, broadcast_apply, broadcast_apply, hu]
  show Scalar.select (Ideal.cmp .ogt _ (Ideal.ofBits .f32 0x00000000#32)) _ (Ideal.ofBits .f32 0x3C23D70A#32 * _) = _
  rw [Ideal.ofBits_zero_f32]
  unfold Cert.Sage.leaky Scalar.select Ideal.cmp
  by_cases h : 0 < Cert.Sage.normed (N := 2000) (K := 256) (D := 256) x0 x1 x2 r j
  · simp [h]
  · simp [h]

/-! ## From the row blocks to the array -/

/-- The printed index maps over the 25 grid points: the features and the result take row block t at point t, in their
    only column block; the weight and the bias take their only block at every point. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b)) (c : Dev nD)

/-- Row r of the features' block at point t is row 2000·t + r of the feature array. -/
theorem feature_block1 (t : Fin cfg1.N) (r : Fin 2000) (k : Fin 256) (i : Fin 50000) (hi : i.val = t.val * 2000 + r.val) :
    (iblk1 V c 0 t : Vec Ideal S2000x256 .f32) (ix2 r k) = V c (Pipeline.arrRef spec1 0) (ix2 i k) := by
  obtain ⟨e00, e01, -⟩ := index_facts1 t
  show V c (Pipeline.arrRef spec1 0) (((cfg1.win 0).blk t).view.emb (ix2 r k)) = _
  refine congrArg _ (funext fun a => Fin.ext ?_)
  match a with
  | ⟨0, _⟩ => show win1_0.index t (0 : Fin 2) * 2000 + 1 * r.val = i.val; rw [e00, hi]; omega
  | ⟨1, _⟩ => show win1_0.index t (1 : Fin 2) * 256 + 1 * k.val = k.val; rw [e01]; omega

/-- The weight's block at every point is the whole weight. -/
theorem weight_block1 (t : Fin cfg1.N) : (iblk1 V c 1 t : Vec Ideal S256x256 .f32) = V c (Pipeline.arrRef spec1 1) := by
  obtain ⟨-, -, e10, e11, -⟩ := index_facts1 t
  funext y
  obtain ⟨p, q, rfl⟩ : ∃ (p : Fin 256) (q : Fin 256), y = ix2 p q := ⟨y 0, y 1, eq_ix2 y⟩
  show V c (Pipeline.arrRef spec1 1) (((cfg1.win 1).blk t).view.emb (ix2 p q)) = V c (Pipeline.arrRef spec1 1) (ix2 p q)
  refine congrArg _ (funext fun a => Fin.ext ?_)
  match a with
  | ⟨0, _⟩ => show win1_1.index t (0 : Fin 2) * 256 + 1 * p.val = p.val; rw [e10]; omega
  | ⟨1, _⟩ => show win1_1.index t (1 : Fin 2) * 256 + 1 * q.val = q.val; rw [e11]; omega

/-- The bias's block at every point is the whole bias. -/
theorem bias_block1 (t : Fin cfg1.N) : (iblk1 V c 2 t : Vec Ideal S256 .f32) = V c (Pipeline.arrRef spec1 2) := by
  obtain ⟨-, -, -, -, e2, -⟩ := index_facts1 t
  funext y
  obtain ⟨q, rfl⟩ : ∃ (q : Fin 256), y = ix1 q := ⟨y 0, eq_ix1 y⟩
  show V c (Pipeline.arrRef spec1 2) (((cfg1.win 2).blk t).view.emb (ix1 q)) = V c (Pipeline.arrRef spec1 2) (ix1 q)
  refine congrArg _ (funext fun a => Fin.ext ?_)
  match a with
  | ⟨0, _⟩ => show win1_2.index t (0 : Fin 1) * 256 + 1 * q.val = q.val; rw [e2]; omega

/-- WHAT POINT t WRITES BACK is row block t of the rectified layer of the arrays the region finds: the stored block's
    row r is the layer's row on the features' block, which is row 2000·t + r of the features. -/
theorem flushed1_eq (t : Fin cfg1.N) :
    (dat1 V c).flushed 3 t = ((cfg1.win 3).blk t).view.read (Elt Ideal)
      (Cert.Sage.layerAct (N := 50000) (K := 256) (D := 256) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero Cert.RegionRows.zeros2]
  simp only [View.ld_unit_zero (S := S2000x256) Cert.RegionRows.zeros2, View.ld_unit_zero (S := S256x256) Cert.RegionRows.zeros2, View.ld_unit_zero (S := S256) Cert.RegionRows.zeros1]
  funext y
  obtain ⟨r, j, rfl⟩ : ∃ (r : Fin 2000) (j : Fin 256), y = ix2 r j := ⟨y 0, y 1, eq_ix2 y⟩
  obtain ⟨-, -, -, -, -, e30, e31⟩ := index_facts1 t
  have hN : cfg1.N = 25 := N_1
  have hrow : t.val * 2000 + r.val < 50000 := by have := t.isLt; have := r.isLt; omega
  show k1_pay1 (iblk1 V c 0 t) (iblk1 V c 1 t) (iblk1 V c 2 t) (ix2 r j)
    = Cert.Sage.layerAct (N := 50000) (K := 256) (D := 256) (V c (Pipeline.arrRef spec1 0)) (V c (Pipeline.arrRef spec1 1)) (V c (Pipeline.arrRef spec1 2))
        (((cfg1.win 3).blk t).view.emb (ix2 r j))
  have hemb : ((cfg1.win 3).blk t).view.emb (ix2 r j) = ix2 (⟨t.val * 2000 + r.val, hrow⟩ : Fin 50000) j := by
    funext a; apply Fin.ext
    match a with
    | ⟨0, _⟩ => show win1_3.index t (0 : Fin 2) * 2000 + 1 * r.val = t.val * 2000 + r.val; rw [e30]; omega
    | ⟨1, _⟩ => show win1_3.index t (1 : Fin 2) * 256 + 1 * j.val = j.val; rw [e31]; omega
  rw [hemb, Cert.Sage.layerAct_ix2]
  refine (pay1_apply (iblk1 V c 0 t) (iblk1 V c 1 t) (iblk1 V c 2 t) r j).trans (congrArg Cert.Sage.leaky ?_)
  exact Cert.RegionRows.normed_block_congr (iblk1 V c 0 t) (V c (Pipeline.arrRef spec1 0)) (iblk1 V c 1 t) (V c (Pipeline.arrRef spec1 1))
    (iblk1 V c 2 t) (V c (Pipeline.arrRef spec1 2)) r ⟨t.val * 2000 + r.val, hrow⟩
    (fun k => feature_block1 V c t r k ⟨t.val * 2000 + r.val, hrow⟩ rfl) (weight_block1 V c t) (bias_block1 V c t) j

end

/-- An index of the result array is in point t's block iff each coordinate is in the block's range on its axis. -/
theorem mem_block1 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v25).slice (win1_3.rect t)).set ↔ _
  rw [View.set_slice_whole, Rect.mem_set_unit]
  exact Iff.rfl

/-- Every row is written: row i lies in the block of point i / 2000. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  have ht : (i 0).val / 2000 < cfg1.N := by rw [hN]; omega
  obtain ⟨-, -, -, -, -, e30, e31⟩ := index_facts1 ⟨(i 0).val / 2000, ht⟩
  refine ⟨⟨(i 0).val / 2000, ht⟩, flush1_3 _, ?_⟩
  rw [mem_block1]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, ht⟩ (1 : Fin 2) * 256 ≤ (i 1).val ∧ (i 1).val < win1_3.index ⟨(i 0).val / 2000, ht⟩ (1 : Fin 2) * 256 + 256
    rw [e31]; omega

/-- THE SECOND REGION'S RESULT ARRAY after its 25 points: the rectified layer of the arrays the region was entered with. -/
theorem value1 (V : (c : Dev nD) → (b : Ref sig .tc) → Buf (Elt Ideal) ((c : Thread nD τ).loc b)) (c : Dev nD) :
    (dat1 V c).arrAt 3 cfg1.N
      = Cert.Sage.layerAct (N := 50000) (K := 256) (D := 256) (V c (Pipeline.arrRef spec1 0)) (V c (Pipeline.arrRef spec1 1)) (V c (Pipeline.arrRef spec1 2)) :=
  (dat1 V c).arrAt_eq_of_cover 3 _ (fun t _ => flushed1_eq V c t) cover1

end Cert.KernelIdeal.RegionValue

end
-- ==== Proof.RegionValue2.lean ====
/-
  The third layer's region: what its result array holds after the 25 grid points.

  The body, on one block of 2000 rows of the features x0 : [2000, 256], the whole weight x1 : [256, 64] and the whole
  bias x2 : [64], stores the block
      (x0·x1 + x2)[r, j] / max (√(∑ j', (x0·x1 + x2)[r, j']²), ε)
  — the last layer has no rectifier. Entry by entry this is the scaled row of the layer of the block taken alone
  (`pay2_apply`): the matrix product is the sum over the one contracted coordinate, the lane sum is the sum over the
  columns of the row, and the column of norms is read back at (r, 0).
  A row of the layer reads only that row of the features, so the block stored at point t is rows 2000·t … 2000·t + 1999
  of the layer of the WHOLE arrays (`flushed2_eq`); the 25 blocks cover every row (`cover2`), and so the array ends as
  the layer of the arrays the region was entered with (`value2`).
-/
import proofs.«100297_j20117626814683_1_alg».proof.Proof.Gen.KernelIdeal.Frame
import proofs.«100297_j20117626814683_1_alg».proof.Proof.LayerSpec
import proofs.«100297_j20117626814683_1_alg».proof.Proof.RegionRows
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx

/-! ## The body's arithmetic on one row block, entry by entry -/

/-- The linear map on a row block, as the body computes it: the block times the weight (accumulated from zero),
    plus the bias repeated down the rows. -/
def lin2 (x0 : Vec Ideal S2000x256 .f32) (x1 : Vec Ideal S256x64 .f32) (x2 : Vec Ideal S64 .f32) : FVec Ideal S2000x64 .f32 :=
  addf (matmul dot_S2000x256_S256x64_S2000x64_1_0_0_1_n_n none
      (truncf .bf16 (shapeCast S2000x256 x0 shapeCasts_S2000x256_S2000x256) bitsLt_bf16_f32) (truncf .bf16 x1 bitsLt_bf16_f32)
      (constant S2000x64 .f32 0x00000000#32))
    (broadcastTo S2000x64 (shapeCast S1x64 x2 shapeCasts_S64_S1x64) broadcasts_S1x64_S2000x64)

/-- The clamped row norms of a block, as a column: the lane sum of the squares, its root, the maximum with the clamp. -/
def norm2 (y : FVec Ideal S2000x64 .f32) : FVec Ideal S2000x1 .f32 :=
  maximumf (sqrt (shapeCast S2000x1 (multiReduction (F := Ideal) .add [1] S2000 (mulf y y) 0x00000000#32
      reduces_S2000x64_S2000 (.inl rfl) rfl) shapeCasts_S2000_S2000x1))
    (broadcast S2000x1 (Scalar.ofBits .f32 0x2B8CBCCC#32))

/-- A block divided, row by row, by its clamped norms. -/
def unit2 (y : FVec Ideal S2000x64 .f32) : FVec Ideal S2000x64 .f32 :=
  divf y (broadcastTo S2000x64 (norm2 y) broadcasts_S2000x1_S2000x64)

/-- The stored value is the scaled linear map: this layer has no rectifier. -/
theorem pay2_eq (x0 : Vec Ideal S2000x256 .f32) (x1 : Vec Ideal S256x64 .f32) (x2 : Vec Ideal S64 .f32) :
    k2_pay1 x0 x1 x2 = unit2 (lin2 x0 x1 x2) := rfl

/-- Entry (r, j) of the linear map: row r of the block against column j of the weight, plus the bias at j. -/
theorem lin2_apply (x0 : Vec Ideal S2000x256 .f32) (x1 : Vec Ideal S256x64 .f32) (x2 : Vec Ideal S64 .f32)
    (r : Fin 2000) (j : Fin 64) :
    lin2 x0 x1 x2 (ix2 r j) = Cert.Sage.affine (N := 2000) (K := 256) (D := 64) x0 x1 x2 r j := by
  unfold lin2 Cert.Sage.affine
  rw [addf_apply]
  congr 1
  · show FloatOps.matmul _ none _ _ (constant S2000x64 .f32 0x00000000#32) (ix2 r j) = _
    rw [Ideal.matmul_constant_zero_apply,
      ← Equiv.sum_comp (contrEquiv1 dot_S2000x256_S256x64_S2000x64_1_0_0_1_n_n 256 rfl rfl).symm]
    refine Finset.sum_congr rfl fun k _ => ?_
    have ck := contrEquiv1_symm_val dot_S2000x256_S256x64_S2000x64_1_0_0_1_n_n 256 rfl rfl k
    have hl : dot_S2000x256_S256x64_S2000x64_1_0_0_1_n_n.lhsIdx (ix2 r j)
        ((contrEquiv1 dot_S2000x256_S256x64_S2000x64_1_0_0_1_n_n 256 rfl rfl).symm k) = ix2 r k := by
      funext ax; apply Fin.ext
      match ax with
      | ⟨0, _⟩ => simp [DotDims.lhsIdx, dot_S2000x256_S256x64_S2000x64_1_0_0_1_n_n]; rfl
      | ⟨1, _⟩ => simp [DotDims.lhsIdx, dot_S2000x256_S256x64_S2000x64_1_0_0_1_n_n]; exact ck
    have hr : dot_S2000x256_S256x64_S2000x64_1_0_0_1_n_n.rhsIdx (ix2 r j)
        ((contrEquiv1 dot_S2000x256_S256x64_S2000x64_1_0_0_1_n_n 256 rfl rfl).symm k) = ix2 k j := by
      funext ax; apply Fin.ext
      match ax with
      | ⟨0, _⟩ => simp [DotDims.rhsIdx, dot_S2000x256_S256x64_S2000x64_1_0_0_1_n_n]; exact ck
      | ⟨1, _⟩ => simp [DotDims.rhsIdx, dot_S2000x256_S256x64_S2000x64_1_0_0_1_n_n]; rfl
    rw [hl, hr, truncf_apply, truncf_apply, shapeCast_self]
  · refine (broadcastTo_apply _ broadcasts_S1x64_S2000x64 (ix2 r j) (ix2 (0 : Fin 1) j) ?_).trans ?_
    · intro a
      match a with
      | ⟨0, _⟩ => rfl
      | ⟨1, _⟩ => rfl
    · refine (shapeCast_addUnit_apply ![64] x2 shapeCasts_S64_S1x64 (ix2 (0 : Fin 1) j)).trans (congrArg x2 ?_)
      funext a
      match a with
      | ⟨0, _⟩ => rfl

/-- Entry (r, 0) of the norm column: the root of row r's sum of squares, clamped from below. -/
theorem norm2_apply (y : FVec Ideal S2000x64 .f32) (r : Fin 2000) :
    norm2 y (ix2 r (0 : Fin 1)) = max (Ideal.sqrt (∑ j : Fin 64, y (ix2 r j) * y (ix2 r j))) Cert.Sage.epsE := by
  unfold norm2
  rw [maximumf_apply]
  refine congrArg (fun s => max (Ideal.sqrt s) Cert.Sage.epsE) ?_
  refine (Cert.RegionRows.shapeCast_a_a1_apply _ shapeCasts_S2000_S2000x1 r (0 : Fin 1)).trans ?_
  refine (Ideal.multiReduction_add_single (mulf y y) 0x00000000#32 reduces_S2000x64_S2000 (.inl rfl) rfl (ix1 r)).trans ?_
  refine Finset.sum_congr rfl fun k _ => ?_
  have hk : reduces_S2000x64_S2000.lift (ix1 r) k = ix2 r k := by
    funext ax; apply Fin.ext
    match ax with
    | ⟨0, _⟩ => rfl
    | ⟨1, _⟩ => rfl
  rw [hk]
  rfl

/-- Entry (r, j) of the scaled block: the entry over its row's clamped norm. -/
theorem unit2_apply (y : FVec Ideal S2000x64 .f32) (r : Fin 2000) (j : Fin 64) :
    unit2 y (ix2 r j) = Ideal.div (y (ix2 r j)) (max (Ideal.sqrt (∑ j' : Fin 64, y (ix2 r j') * y (ix2 r j'))) Cert.Sage.epsE) := by
  unfold unit2
  rw [divf_apply]
  refine congrArg (Ideal.div (y (ix2 r j))) ?_
  exact (Cert.RegionRows.broadcastTo_a1_ab_apply _ broadcasts_S2000x1_S2000x64 r j).trans (norm2_apply y r)

/-- THE STORED BLOCK, entry (r, j): the scaled row r of the layer evaluated on the block alone. -/
theorem pay2_apply (x0 : Vec Ideal S2000x256 .f32) (x1 : Vec Ideal S256x64 .f32) (x2 : Vec Ideal S64 .f32)
    (r : Fin 2000) (j : Fin 64) :
    k2_pay1 x0 x1 x2 (ix2 r j) = Cert.Sage.normed (N := 2000) (K := 256) (D := 64) x0 x1 x2 r j := by
  rw [pay2_eq, unit2_apply]
  unfold Cert.Sage.normed Cert.Sage.rowNorm Cert.Sage.sumSq
  rw [lin2_apply, Finset.sum_congr rfl fun j' _ => by rw [lin2_apply]]

/-! ## From the row blocks to the array -/

/-- The printed index maps over the 25 grid points: the features and the result take row block t at point t, in their
    only column block; the weight and the bias take their only block at every point. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b)) (c : Dev nD)

/-- Row r of the features' block at point t is row 2000·t + r of the feature array. -/
theorem feature_block2 (t : Fin cfg2.N) (r : Fin 2000) (k : Fin 256) (i : Fin 50000) (hi : i.val = t.val * 2000 + r.val) :
    (iblk2 V c 0 t : Vec Ideal S2000x256 .f32) (ix2 r k) = V c (Pipeline.arrRef spec2 0) (ix2 i k) := by
  obtain ⟨e00, e01, -⟩ := index_facts2 t
  show V c (Pipeline.arrRef spec2 0) (((cfg2.win 0).blk t).view.emb (ix2 r k)) = _
  refine congrArg _ (funext fun a => Fin.ext ?_)
  match a with
  | ⟨0, _⟩ => show win2_0.index t (0 : Fin 2) * 2000 + 1 * r.val = i.val; rw [e00, hi]; omega
  | ⟨1, _⟩ => show win2_0.index t (1 : Fin 2) * 256 + 1 * k.val = k.val; rw [e01]; omega

/-- The weight's block at every point is the whole weight. -/
theorem weight_block2 (t : Fin cfg2.N) : (iblk2 V c 1 t : Vec Ideal S256x64 .f32) = V c (Pipeline.arrRef spec2 1) := by
  obtain ⟨-, -, e10, e11, -⟩ := index_facts2 t
  funext y
  obtain ⟨p, q, rfl⟩ : ∃ (p : Fin 256) (q : Fin 64), y = ix2 p q := ⟨y 0, y 1, eq_ix2 y⟩
  show V c (Pipeline.arrRef spec2 1) (((cfg2.win 1).blk t).view.emb (ix2 p q)) = V c (Pipeline.arrRef spec2 1) (ix2 p q)
  refine congrArg _ (funext fun a => Fin.ext ?_)
  match a with
  | ⟨0, _⟩ => show win2_1.index t (0 : Fin 2) * 256 + 1 * p.val = p.val; rw [e10]; omega
  | ⟨1, _⟩ => show win2_1.index t (1 : Fin 2) * 64 + 1 * q.val = q.val; rw [e11]; omega

/-- The bias's block at every point is the whole bias. -/
theorem bias_block2 (t : Fin cfg2.N) : (iblk2 V c 2 t : Vec Ideal S64 .f32) = V c (Pipeline.arrRef spec2 2) := by
  obtain ⟨-, -, -, -, e2, -⟩ := index_facts2 t
  funext y
  obtain ⟨q, rfl⟩ : ∃ (q : Fin 64), y = ix1 q := ⟨y 0, eq_ix1 y⟩
  show V c (Pipeline.arrRef spec2 2) (((cfg2.win 2).blk t).view.emb (ix1 q)) = V c (Pipeline.arrRef spec2 2) (ix1 q)
  refine congrArg _ (funext fun a => Fin.ext ?_)
  match a with
  | ⟨0, _⟩ => show win2_2.index t (0 : Fin 1) * 64 + 1 * q.val = q.val; rw [e2]; omega

/-- WHAT POINT t WRITES BACK is row block t of the layer of the arrays the region finds: the stored block's
    row r is the layer's row on the features' block, which is row 2000·t + r of the features. -/
theorem flushed2_eq (t : Fin cfg2.N) :
    (dat2 V c).flushed 3 t = ((cfg2.win 3).blk t).view.read (Elt Ideal)
      (Cert.Sage.layerLin (N := 50000) (K := 256) (D := 64) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero Cert.RegionRows.zeros2]
  simp only [View.ld_unit_zero (S := S2000x256) Cert.RegionRows.zeros2, View.ld_unit_zero (S := S256x64) Cert.RegionRows.zeros2, View.ld_unit_zero (S := S64) Cert.RegionRows.zeros1]
  funext y
  obtain ⟨r, j, rfl⟩ : ∃ (r : Fin 2000) (j : Fin 64), y = ix2 r j := ⟨y 0, y 1, eq_ix2 y⟩
  obtain ⟨-, -, -, -, -, e30, e31⟩ := index_facts2 t
  have hN : cfg2.N = 25 := N_2
  have hrow : t.val * 2000 + r.val < 50000 := by have := t.isLt; have := r.isLt; omega
  show k2_pay1 (iblk2 V c 0 t) (iblk2 V c 1 t) (iblk2 V c 2 t) (ix2 r j)
    = Cert.Sage.layerLin (N := 50000) (K := 256) (D := 64) (V c (Pipeline.arrRef spec2 0)) (V c (Pipeline.arrRef spec2 1)) (V c (Pipeline.arrRef spec2 2))
        (((cfg2.win 3).blk t).view.emb (ix2 r j))
  have hemb : ((cfg2.win 3).blk t).view.emb (ix2 r j) = ix2 (⟨t.val * 2000 + r.val, hrow⟩ : Fin 50000) j := by
    funext a; apply Fin.ext
    match a with
    | ⟨0, _⟩ => show win2_3.index t (0 : Fin 2) * 2000 + 1 * r.val = t.val * 2000 + r.val; rw [e30]; omega
    | ⟨1, _⟩ => show win2_3.index t (1 : Fin 2) * 64 + 1 * j.val = j.val; rw [e31]; omega
  rw [hemb, Cert.Sage.layerLin_ix2]
  refine (pay2_apply (iblk2 V c 0 t) (iblk2 V c 1 t) (iblk2 V c 2 t) r j).trans ?_
  exact Cert.RegionRows.normed_block_congr (iblk2 V c 0 t) (V c (Pipeline.arrRef spec2 0)) (iblk2 V c 1 t) (V c (Pipeline.arrRef spec2 1))
    (iblk2 V c 2 t) (V c (Pipeline.arrRef spec2 2)) r ⟨t.val * 2000 + r.val, hrow⟩
    (fun k => feature_block2 V c t r k ⟨t.val * 2000 + r.val, hrow⟩ rfl) (weight_block2 V c t) (bias_block2 V c t) j

end

/-- An index of the result array is in point t's block iff each coordinate is in the block's range on its axis. -/
theorem mem_block2 (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v36).slice (win2_3.rect t)).set ↔ _
  rw [View.set_slice_whole, Rect.mem_set_unit]
  exact Iff.rfl

/-- Every row is written: row i lies in the block of point i / 2000. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  have ht : (i 0).val / 2000 < cfg2.N := by rw [hN]; omega
  obtain ⟨-, -, -, -, -, e30, e31⟩ := index_facts2 ⟨(i 0).val / 2000, ht⟩
  refine ⟨⟨(i 0).val / 2000, ht⟩, flush2_3 _, ?_⟩
  rw [mem_block2]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win2_3.index ⟨(i 0).val / 2000, ht⟩ (1 : Fin 2) * 64 ≤ (i 1).val ∧ (i 1).val < win2_3.index ⟨(i 0).val / 2000, ht⟩ (1 : Fin 2) * 64 + 64
    rw [e31]; omega

/-- THE THIRD REGION'S RESULT ARRAY after its 25 points: the layer, without rectifier, of the arrays the region was entered with. -/
theorem value2 (V : (c : Dev nD) → (b : Ref sig .tc) → Buf (Elt Ideal) ((c : Thread nD τ).loc b)) (c : Dev nD) :
    (dat2 V c).arrAt 3 cfg2.N
      = Cert.Sage.layerLin (N := 50000) (K := 256) (D := 64) (V c (Pipeline.arrRef spec2 0)) (V c (Pipeline.arrRef spec2 1)) (V c (Pipeline.arrRef spec2 2)) :=
  (dat2 V c).arrAt_eq_of_cover 3 _ (fun t _ => flushed2_eq V c t) cover2

end Cert.KernelIdeal.RegionValue

end
-- ==== Proof.KernelValue.lean ====
/-
  The idealized kernel program's buffers at the boundaries between its host stretches and its three regions.

  Each region writes one array: the layer function of the array the preceding aggregation left and of that layer's
  weight and bias, which no host operation and no region writes, so that at every boundary they are still the
  launch memory's. The two edge rows are split off once by the first stretch and kept by everything up to the last
  aggregation. So at each region's exit the output array is `layerAct` (for the last region `layerLin`) of the
  aggregated array and the launch weight and bias.
-/
import proofs.«100297_j20117626814683_1_alg».proof.Proof.Gen.KernelIdeal.Frame
import proofs.«100297_j20117626814683_1_alg».proof.Proof.KernelHost
import proofs.«100297_j20117626814683_1_alg».proof.Proof.RegionValue0
import proofs.«100297_j20117626814683_1_alg».proof.Proof.RegionValue1
import proofs.«100297_j20117626814683_1_alg».proof.Proof.RegionValue2
import proofs.«100297_j20117626814683_1_alg».proof.Proof.LayerSpec

noncomputable section

namespace Cert.KernelIdeal.ChainValue

open Cert.KernelIdeal Cert.KernelIdeal.Gen Cert.KernelIdeal.HostValue Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry (after the first aggregation) -/

theorem W1_arg3 : W1 m ρ c (Proc.devRef .tc main_arg3) = m ((c : Thread nD τ).loc main_arg3) := hostOps0_arg3 (W0 m ρ c)
theorem W1_arg4 : W1 m ρ c (Proc.devRef .tc main_arg4) = m ((c : Thread nD τ).loc main_arg4) := hostOps0_arg4 (W0 m ρ c)

/-! ## At the first region's exit -/

/-- The first region's output array: the rectified layer of the first aggregation. -/
theorem W2_v14 : W2 m ρ c (Proc.devRef .tc main_v14)
    = Cert.Sage.layerAct (N := 50000) (K := 128) (D := 256) (W1 m ρ c (Proc.devRef .tc main_v13))
        (m ((c : Thread nD τ).loc main_arg3)) (m ((c : Thread nD τ).loc main_arg4)) := by
  have h := (W2_arr m ρ c 3).trans (RegionValue.value0 (V1 m ρ) c)
  rw [← W1_arg3 m ρ c, ← W1_arg4 m ρ c]
  exact h

theorem W2_v1 : W2 m ρ c (Proc.devRef .tc main_v1) = srcRow (m ((c : Thread nD τ).loc main_arg1)) :=
  (W2_of_ne m ρ c main_v1 (by decide)).trans (hostOps0_v1 (W0 m ρ c))
theorem W2_v3 : W2 m ρ c (Proc.devRef .tc main_v3) = dstRow (m ((c : Thread nD τ).loc main_arg1)) :=
  (W2_of_ne m ρ c main_v3 (by decide)).trans (hostOps0_v3 (W0 m ρ c))
theorem W2_arg2 : W2 m ρ c (Proc.devRef .tc main_arg2) = m ((c : Thread nD τ).loc main_arg2) :=
  (W2_of_ne m ρ c main_arg2 (by decide)).trans (hostOps0_arg2 (W0 m ρ c))
theorem W2_arg5 : W2 m ρ c (Proc.devRef .tc main_arg5) = m ((c : Thread nD τ).loc main_arg5) :=
  (W2_of_ne m ρ c main_arg5 (by decide)).trans (hostOps0_arg5 (W0 m ρ c))
theorem W2_arg6 : W2 m ρ c (Proc.devRef .tc main_arg6) = m ((c : Thread nD τ).loc main_arg6) :=
  (W2_of_ne m ρ c main_arg6 (by decide)).trans (hostOps0_arg6 (W0 m ρ c))
theorem W2_arg7 : W2 m ρ c (Proc.devRef .tc main_arg7) = m ((c : Thread nD τ).loc main_arg7) :=
  (W2_of_ne m ρ c main_arg7 (by decide)).trans (hostOps0_arg7 (W0 m ρ c))
theorem W2_arg8 : W2 m ρ c (Proc.devRef .tc main_arg8) = m ((c : Thread nD τ).loc main_arg8) :=
  (W2_of_ne m ρ c main_arg8 (by decide)).trans (hostOps0_arg8 (W0 m ρ c))

/-! ## At the second region's entry (after the second aggregation) -/

theorem W3_arg2 : W3 m ρ c (Proc.devRef .tc main_arg2) = m ((c : Thread nD τ).loc main_arg2) :=
  (hostOps1_arg2 (W2 m ρ c)).trans (W2_arg2 m ρ c)
theorem W3_arg5 : W3 m ρ c (Proc.devRef .tc main_arg5) = m ((c : Thread nD τ).loc main_arg5) :=
  (hostOps1_arg5 (W2 m ρ c)).trans (W2_arg5 m ρ c)
theorem W3_arg6 : W3 m ρ c (Proc.devRef .tc main_arg6) = m ((c : Thread nD τ).loc main_arg6) :=
  (hostOps1_arg6 (W2 m ρ c)).trans (W2_arg6 m ρ c)
theorem W3_arg7 : W3 m ρ c (Proc.devRef .tc main_arg7) = m ((c : Thread nD τ).loc main_arg7) :=
  (hostOps1_arg7 (W2 m ρ c)).trans (W2_arg7 m ρ c)
theorem W3_arg8 : W3 m ρ c (Proc.devRef .tc main_arg8) = m ((c : Thread nD τ).loc main_arg8) :=
  (hostOps1_arg8 (W2 m ρ c)).trans (W2_arg8 m ρ c)
theorem W3_v1 : W3 m ρ c (Proc.devRef .tc main_v1) = srcRow (m ((c : Thread nD τ).loc main_arg1)) :=
  (hostOps1_v1 (W2 m ρ c)).trans (W2_v1 m ρ c)
theorem W3_v3 : W3 m ρ c (Proc.devRef .tc main_v3) = dstRow (m ((c : Thread nD τ).loc main_arg1)) :=
  (hostOps1_v3 (W2 m ρ c)).trans (W2_v3 m ρ c)

/-! ## At the second region's exit -/

/-- The second region's output array: the rectified layer of the second aggregation. -/
theorem W4_v25 : W4 m ρ c (Proc.devRef .tc main_v25)
    = Cert.Sage.layerAct (N := 50000) (K := 256) (D := 256) (W3 m ρ c (Proc.devRef .tc main_v24))
        (m ((c : Thread nD τ).loc main_arg5)) (m ((c : Thread nD τ).loc main_arg6)) := by
  have h := (W4_arr m ρ c 3).trans (RegionValue.value1 (V3 m ρ) c)
  rw [← W3_arg5 m ρ c, ← W3_arg6 m ρ c]
  exact h

theorem W4_v1 : W4 m ρ c (Proc.devRef .tc main_v1) = srcRow (m ((c : Thread nD τ).loc main_arg1)) :=
  (W4_of_ne m ρ c main_v1 (by decide)).trans (W3_v1 m ρ c)
theorem W4_v3 : W4 m ρ c (Proc.devRef .tc main_v3) = dstRow (m ((c : Thread nD τ).loc main_arg1)) :=
  (W4_of_ne m ρ c main_v3 (by decide)).trans (W3_v3 m ρ c)
theorem W4_arg2 : W4 m ρ c (Proc.devRef .tc main_arg2) = m ((c : Thread nD τ).loc main_arg2) :=
  (W4_of_ne m ρ c main_arg2 (by decide)).trans (W3_arg2 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)

/-! ## At the third region's entry (after the third aggregation) -/

theorem W5_arg2 : W5 m ρ c (Proc.devRef .tc main_arg2) = m ((c : Thread nD τ).loc main_arg2) :=
  (hostOps2_arg2 (W4 m ρ c)).trans (W4_arg2 m ρ c)
theorem W5_arg7 : W5 m ρ c (Proc.devRef .tc main_arg7) = m ((c : Thread nD τ).loc main_arg7) :=
  (hostOps2_arg7 (W4 m ρ c)).trans (W4_arg7 m ρ c)
theorem W5_arg8 : W5 m ρ c (Proc.devRef .tc main_arg8) = m ((c : Thread nD τ).loc main_arg8) :=
  (hostOps2_arg8 (W4 m ρ c)).trans (W4_arg8 m ρ c)

/-! ## At the third region's exit -/

/-- The third region's output array: the layer, not rectified, of the third aggregation. -/
theorem W6_v36 : W6 m ρ c (Proc.devRef .tc main_v36)
    = Cert.Sage.layerLin (N := 50000) (K := 256) (D := 64) (W5 m ρ c (Proc.devRef .tc main_v35))
        (m ((c : Thread nD τ).loc main_arg7)) (m ((c : Thread nD τ).loc main_arg8)) := by
  have h := (W6_arr m ρ c 3).trans (RegionValue.value2 (V5 m ρ) c)
  rw [← W5_arg7 m ρ c, ← W5_arg8 m ρ c]
  exact h

theorem W6_arg2 : W6 m ρ c (Proc.devRef .tc main_arg2) = m ((c : Thread nD τ).loc main_arg2) :=
  (W6_of_ne m ρ c main_arg2 (by decide)).trans (W5_arg2 m ρ c)

end Cert.KernelIdeal.ChainValue

end
-- ==== Proof.RefLayer.lean ====
/-
  One dense layer of the reference program, written as functions of whole arrays, agrees with the layer of the
  specification at every index.

  The reference computes a layer as: the matrix product of the aggregated features with the weight; the bias, laid out
  as one row and copied down the rows, added; the sum of squares along each row, laid out as one column, its square
  root clamped from below by ε and copied across the columns; the quotient; and (first two layers) the leaky rectifier,
  written as a select on the test "0 ≤ y" between y and s · y.

  Read at index (i, j):
    * the matrix product is  ∑ k, a[i,k] · W[k,j]           (the contraction's index set is the one coordinate k);
    * the bias term is       b[j]                            (a row copied down the rows depends on the column only);
    * the row's sum is       0 + ∑ j', out[i,j']²            (the initial value is the zero word);
    * the divisor is         max (√ that sum) ε              (a column copied across depends on the row only);
    * the rectifier's test   0 ≤ y  and the specification's  0 < y  differ only at y = 0, where both branches are 0.
  So entry (i, j) is the specification's  leaky (affine i j / rowNorm i)  (without the rectifier in the last layer).
-/
import proofs.«100297_j20117626814683_1_alg».proof.ReferenceIdeal
import proofs.«100297_j20117626814683_1_alg».proof.Proof.LayerSpec
import Idealize.ShloMosaic.Lib.ValueIdx
import Idealize.ShloMosaic.Lib.IdealHost
import Idealize.ShloMosaic.Lib.KernelVsHost
import Idealize.ShloMosaic.Lib.StackMember
import Idealize.ShloMosaic.Lib.Pipeline.Value
import Idealize.ShloMosaic.PureOps.Ideal.Laws

noncomputable section

open scoped BigOperators

namespace Cert.ReferenceIdeal.RefLayer

open Cert.ReferenceIdeal Idealize.ShloMosaic Idealize.ShloMosaic.ValueIdx

/-! ## Layout operations read at an index -/

section Layout
variable {α : Type}

/-- A vector laid out as a one-row matrix, read in that row at column `t`, is the vector at `t`. -/
theorem bcast_row_apply {n : Nat} (h : (⟨1, ![n]⟩ : Shape).BroadcastsInDim ⟨2, ![1, n]⟩ ![1])
    (x : (⟨1, ![n]⟩ : Shape).Idx → α) (t : Fin n) :
    broadcastInDim ⟨2, ![1, n]⟩ ![1] h x (ix2 (0 : Fin 1) t) = x (ix1 t) := by
  refine broadcastInDim_apply ![1] h x (ix2 (0 : Fin 1) t) (ix1 t) ?_
  intro a
  fin_cases a
  show t.val = if n = 1 then 0 else t.val
  split_ifs with hn
  · have := t.isLt; omega
  · rfl

/-- A vector laid out as a one-column matrix, read in that column at row `r`, is the vector at `r`. -/
theorem bcast_col_apply {m : Nat} (h : (⟨1, ![m]⟩ : Shape).BroadcastsInDim ⟨2, ![m, 1]⟩ ![0])
    (x : (⟨1, ![m]⟩ : Shape).Idx → α) (r : Fin m) :
    broadcastInDim ⟨2, ![m, 1]⟩ ![0] h x (ix2 r (0 : Fin 1)) = x (ix1 r) := by
  refine broadcastInDim_apply ![0] h x (ix2 r (0 : Fin 1)) (ix1 r) ?_
  intro a
  fin_cases a
  show r.val = if m = 1 then 0 else r.val
  split_ifs with hm
  · have := r.isLt; omega
  · rfl

/-- A one-column matrix copied across `n` columns, read at (r, t), is the column at (r, 0). -/
theorem bcast_oneCol_apply {m n : Nat} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  fin_cases a
  · show r.val = if m = 1 then 0 else r.val
    split_ifs with hm
    · have := r.isLt; omega
    · rfl
  · show (0 : ℕ) = if (1 : ℕ) = 1 then 0 else _
    simp

end Layout

/-- The host's sum along each row of a matrix, started from the zero word, read at row `r`: the sum of the row. -/
theorem rowSum_zero_apply {m n : Nat} (x : FVec Ideal ⟨2, ![m, n]⟩ .f32)
    (h' : (⟨2, ![m, n]⟩ : Shape).ReducesTo [1] ⟨1, ![m]⟩) (hu : 0 < (⟨0, ![]⟩ : Shape).numel) (r : Fin m) :
    Host.reduceAdd x (constant (F := Ideal) ⟨0, ![]⟩ .f32 0x00000000#32) h' hu (ix1 r) = ∑ k : Fin n, x (ix2 r k) := by
  have h : (⟨2, ![m, n]⟩ : Shape).Reduces [1] ⟨1, ![m]⟩ := ⟨h'.1, Nat.one_pos, h'.2⟩
  refine (hostReduceAdd_apply x _ h' hu (ix1 r)).trans ?_
  rw [constant_apply, Ideal.ofBits_zero_f32, Ideal.hostReduceAdd_single h' h, zero_add]
  refine Finset.sum_congr rfl fun k _ => congrArg x ?_
  funext a
  match a with
  | ⟨0, _⟩ => exact Fin.ext rfl
  | ⟨1, _⟩ => exact Fin.ext rfl

/-- The plain matrix product on the host, read at (i, j): the sum over the contracted coordinate. -/
theorem dot_apply {m k n : Nat} (D : DotDims ⟨2, ![m, k]⟩ ⟨2, ![k, n]⟩ ⟨2, ![m, n]⟩) (hD : D = DotDims.plain m k n)
    (a : FVec Ideal ⟨2, ![m, k]⟩ .f32) (W : FVec Ideal ⟨2, ![k, n]⟩ .f32) (i : Fin m) (j : Fin n) :
    Host.dotGeneral D none a W (ix2 i j) = ∑ c : Fin k, a (ix2 i c) * W (ix2 c j) := by
  subst hD
  exact StackMember.dotGeneral_plain_apply none a W i j

/-! ## The reference's operations as whole-array functions -/

variable [Facts]
open Facts₀ Facts

/-- The bias, laid out as one row and copied down the 50000 rows, added to a 256-column array. -/
def biased256 (o : FVec Ideal S50000x256 .f32) (b : FVec Ideal S256 .f32) : FVec Ideal S50000x256 .f32 :=
  addf o (broadcastInDim S50000x256 ![0, 1] bcast_S1x256_S50000x256_0_1 (broadcastInDim S1x256 ![1] bcast_S256_S1x256_1 b))

/-- Each row of a 256-column array divided by its Euclidean length, the length clamped from below by ε. -/
def unit256 (o : FVec Ideal S50000x256 .f32) : FVec Ideal S50000x256 .f32 :=
  Host.divf o (broadcastInDim S50000x256 ![0, 1] bcast_S50000x1_S50000x256_0_1
    (maximumf
      (Host.sqrt (broadcastInDim S50000x1 ![0] bcast_S50000_S50000x1_0
        (Host.reduceAdd (mulf o o) (constant (F := Ideal) S_ .f32 0x00000000#32) reducesTo_S50000x256_S50000_d1 h_S_)))
      (broadcastInDim S50000x1 ![] bcast_S_S50000x1 (constant (F := Ideal) S_ .f32 0x2B8CBCCC#32))))

/-- The leaky rectifier of a 256-column array: `y` where `0 ≤ y`, else `s · y`. -/
def leaky256 (y : FVec Ideal S50000x256 .f32) : FVec Ideal S50000x256 .f32 :=
  select (cmpf .oge y (broadcastInDim S50000x256 ![] bcast_S_S50000x256 (constant (F := Ideal) S_ .f32 0x00000000#32))) y
    (mulf (broadcastInDim S50000x256 ![] bcast_S_S50000x256 (id (constant (F := Ideal) S_ .f32 0x3C23D70A#32))) y)

/-- The reference's first layer: 128 features in, 256 out, rectified. -/
def ref1 (a : FVec Ideal S50000x128 .f32) (W : FVec Ideal S128x256 .f32) (b : FVec Ideal S256 .f32) :
    FVec Ideal S50000x256 .f32 :=
  leaky256 (unit256 (biased256 (Host.dotGeneral dot_S50000x128_S128x256_S50000x256_1_0_0_1_n_n none a W) b))

/-- The reference's second layer: 256 features in, 256 out, rectified. -/
def ref2 (a : FVec Ideal S50000x256 .f32) (W : FVec Ideal S256x256 .f32) (b : FVec Ideal S256 .f32) :
    FVec Ideal S50000x256 .f32 :=
  leaky256 (unit256 (biased256 (Host.dotGeneral dot_S50000x256_S256x256_S50000x256_1_0_0_1_n_n none a W) b))

/-- The bias, laid out as one row and copied down the 50000 rows, added to a 64-column array. -/
def biased64 (o : FVec Ideal S50000x64 .f32) (b : FVec Ideal S64 .f32) : FVec Ideal S50000x64 .f32 :=
  addf o (broadcastInDim S50000x64 ![0, 1] bcast_S1x64_S50000x64_0_1 (broadcastInDim S1x64 ![1] bcast_S64_S1x64_1 b))

/-- Each row of a 64-column array divided by its Euclidean length, the length clamped from below by ε. -/
def unit64 (o : FVec Ideal S50000x64 .f32) : FVec Ideal S50000x64 .f32 :=
  Host.divf o (broadcastInDim S50000x64 ![0, 1] bcast_S50000x1_S50000x64_0_1
    (maximumf
      (Host.sqrt (broadcastInDim S50000x1 ![0] bcast_S50000_S50000x1_0
        (Host.reduceAdd (mulf o o) (constant (F := Ideal) S_ .f32 0x00000000#32) reducesTo_S50000x64_S50000_d1 h_S_)))
      (broadcastInDim S50000x1 ![] bcast_S_S50000x1 (constant (F := Ideal) S_ .f32 0x2B8CBCCC#32))))

/-- The reference's third layer: 256 features in, 64 out, no rectifier. -/
def ref3 (a : FVec Ideal S50000x256 .f32) (W : FVec Ideal S256x64 .f32) (b : FVec Ideal S64 .f32) :
    FVec Ideal S50000x64 .f32 :=
  unit64 (biased64 (Host.dotGeneral dot_S50000x256_S256x64_S50000x64_1_0_0_1_n_n none a W) b)

/-! ## The operations at an index -/

/-- The host's square root at an index is the square root of the entry. -/
theorem hostSqrt_apply {s : Shape} {φ : FTy} (x : FVec Ideal s φ) (q : s.Idx) : Host.sqrt x q = Ideal.sqrt (x q) := rfl

/-- The biased array at (i, j): the entry plus the bias of column `j`. -/
theorem biased256_apply (o : FVec Ideal S50000x256 .f32) (b : FVec Ideal S256 .f32) (i : Fin 50000) (j : Fin 256) :
    biased256 o b (ix2 i j) = o (ix2 i j) + b (ix1 j) := by
  unfold biased256
  rw [addf_apply, broadcastInDim_oneRow_apply, bcast_row_apply]

/-- The row-normalized array at (i, j): the entry over the clamped length of row `i`. -/
theorem unit256_apply (o : FVec Ideal S50000x256 .f32) (i : Fin 50000) (j : Fin 256) :
    unit256 o (ix2 i j)
      = Ideal.div (o (ix2 i j)) (max (Ideal.sqrt (∑ k : Fin 256, o (ix2 i k) * o (ix2 i k))) Cert.Sage.epsE) := by
  unfold unit256
  rw [hostDivf_apply, bcast_oneCol_apply, maximumf_apply, hostSqrt_apply, bcast_col_apply, rowSum_zero_apply,
    broadcastInDim_scalar_apply, constant_apply]
  rfl

/-- The rectified array at an index: the specification's rectifier of the entry. -/
theorem leaky256_apply (y : FVec Ideal S50000x256 .f32) (q : S50000x256.Idx) :
    leaky256 y q = Cert.Sage.leaky (y q) := by
  unfold leaky256
  rw [select_apply, cmpf_apply, mulf_apply, broadcastInDim_scalar_apply, broadcastInDim_scalar_apply, constant_apply,
    Ideal.ofBits_zero_f32, Ideal.cmpf_def, ← Cert.Sage.leaky_of_ge]
  show Scalar.select (BitVec.ofBool (decide (0 ≤ y q))) (y q) (Cert.Sage.slopeE * y q) = _
  by_cases h : 0 ≤ y q
  · rw [if_pos h, decide_eq_true h]; exact select_one _ _
  · rw [if_neg h, decide_eq_false h]; exact select_zero _ _

/-- The biased 64-column array at (i, j): the entry plus the bias of column `j`. -/
theorem biased64_apply (o : FVec Ideal S50000x64 .f32) (b : FVec Ideal S64 .f32) (i : Fin 50000) (j : Fin 64) :
    biased64 o b (ix2 i j) = o (ix2 i j) + b (ix1 j) := by
  unfold biased64
  rw [addf_apply, broadcastInDim_oneRow_apply, bcast_row_apply]

/-- The row-normalized 64-column array at (i, j): the entry over the clamped length of row `i`. -/
theorem unit64_apply (o : FVec Ideal S50000x64 .f32) (i : Fin 50000) (j : Fin 64) :
    unit64 o (ix2 i j)
      = Ideal.div (o (ix2 i j)) (max (Ideal.sqrt (∑ k : Fin 64, o (ix2 i k) * o (ix2 i k))) Cert.Sage.epsE) := by
  unfold unit64
  rw [hostDivf_apply, bcast_oneCol_apply, maximumf_apply, hostSqrt_apply, bcast_col_apply, rowSum_zero_apply,
    broadcastInDim_scalar_apply, constant_apply]
  rfl

/-! ## The three layers -/

/-- The product with the weight plus the bias, read at (i, j), is the specification's linear map (256 columns). -/
theorem affine256 {k : Nat} (D : DotDims ⟨2, ![50000, k]⟩ ⟨2, ![k, 256]⟩ ⟨2, ![50000, 256]⟩)
    (hD : D = DotDims.plain 50000 k 256) (a : FVec Ideal ⟨2, ![50000, k]⟩ .f32) (W : FVec Ideal ⟨2, ![k, 256]⟩ .f32)
    (b : FVec Ideal S256 .f32) (i : Fin 50000) (j : Fin 256) :
    biased256 (Host.dotGeneral D none a W) b (ix2 i j) = Cert.Sage.affine (N := 50000) (K := k) (D := 256) a W b i j := by
  rw [biased256_apply, dot_apply D hD]
  rfl

/-- A rectified 256-column layer of the reference is the specification's rectified layer. -/
theorem layer256 {k : Nat} (D : DotDims ⟨2, ![50000, k]⟩ ⟨2, ![k, 256]⟩ ⟨2, ![50000, 256]⟩)
    (hD : D = DotDims.plain 50000 k 256) (a : FVec Ideal ⟨2, ![50000, k]⟩ .f32) (W : FVec Ideal ⟨2, ![k, 256]⟩ .f32)
    (b : FVec Ideal S256 .f32) :
    leaky256 (unit256 (biased256 (Host.dotGeneral D none a W) b))
      = Cert.Sage.layerAct (N := 50000) (K := k) (D := 256) a W b := by
  funext q
  obtain ⟨i, j, rfl⟩ : ∃ (i : Fin 50000) (j : Fin 256), q = ix2 i j := ⟨q 0, q 1, eq_ix2 q⟩
  rw [Cert.Sage.layerAct_ix2, leaky256_apply, unit256_apply]
  unfold Cert.Sage.normed Cert.Sage.rowNorm Cert.Sage.sumSq
  rw [affine256 D hD]
  refine congrArg (fun z => Cert.Sage.leaky (Ideal.div (Cert.Sage.affine a W b i j) (max (Ideal.sqrt z) Cert.Sage.epsE))) ?_
  exact Finset.sum_congr rfl fun c _ => by rw [affine256 D hD]

/-- The reference's first layer is the specification's rectified layer at 128 features in, 256 out. -/
theorem ref1_eq (a : FVec Ideal S50000x128 .f32) (W : FVec Ideal S128x256 .f32) (b : FVec Ideal S256 .f32) :
    ref1 a W b = Cert.Sage.layerAct (N := 50000) (K := 128) (D := 256) a W b :=
  layer256 _ rfl a W b

/-- The reference's second layer is the specification's rectified layer at 256 features in, 256 out. -/
theorem ref2_eq (a : FVec Ideal S50000x256 .f32) (W : FVec Ideal S256x256 .f32) (b : FVec Ideal S256 .f32) :
    ref2 a W b = Cert.Sage.layerAct (N := 50000) (K := 256) (D := 256) a W b :=
  layer256 _ rfl a W b

/-- The reference's third layer is the specification's layer without the rectifier at 256 features in, 64 out. -/
theorem ref3_eq (a : FVec Ideal S50000x256 .f32) (W : FVec Ideal S256x64 .f32) (b : FVec Ideal S64 .f32) :
    ref3 a W b = Cert.Sage.layerLin (N := 50000) (K := 256) (D := 64) a W b := by
  have hD : dot_S50000x256_S256x64_S50000x64_1_0_0_1_n_n = DotDims.plain 50000 256 64 := rfl
  have haff : ∀ (i : Fin 50000) (j : Fin 64),
      biased64 (Host.dotGeneral dot_S50000x256_S256x64_S50000x64_1_0_0_1_n_n none a W) b (ix2 i j)
        = Cert.Sage.affine (N := 50000) (K := 256) (D := 64) a W b i j := fun i j => by
    rw [biased64_apply, dot_apply _ hD]
    rfl
  funext q
  obtain ⟨i, j, rfl⟩ : ∃ (i : Fin 50000) (j : Fin 64), q = ix2 i j := ⟨q 0, q 1, eq_ix2 q⟩
  rw [Cert.Sage.layerLin_ix2]
  unfold ref3
  rw [unit64_apply]
  unfold Cert.Sage.normed Cert.Sage.rowNorm Cert.Sage.sumSq
  rw [haff]
  refine congrArg (fun z => Ideal.div (Cert.Sage.affine a W b i j) (max (Ideal.sqrt z) Cert.Sage.epsE)) ?_
  exact Finset.sum_congr rfl fun c _ => by rw [haff]

end Cert.ReferenceIdeal.RefLayer

end
-- ==== Proof.RefLayerRun.lean ====
/-
  What the reference's run leaves in a layer's output buffer is the layer function of what it found in the layer's
  three input buffers.

  Each dense layer of the reference is a straight line of operations, every one writing a buffer of its own from
  buffers written before it. Folding the operations' results over any contents `V` of the buffers, the layer's last
  buffer holds the composition of the operations' functions applied to the contents of the aggregated features, the
  weight and the bias, which no operation of the line writes: the product, the bias added along the rows, the division
  of every row by its clamped length, and (layers one and two) the rectifier. A buffer of a called function is read at
  the type of the value it holds; that transport is the identity, the two types being the same.
-/
import proofs.«100297_j20117626814683_1_alg».proof.Proof.RefOps
import proofs.«100297_j20117626814683_1_alg».proof.Proof.RefLayer

noncomputable section

namespace Cert.ReferenceIdeal.RefLayerRun

open Cert.ReferenceIdeal Cert.ReferenceIdeal.Gen Cert.ReferenceIdeal.RefLayer Idealize.ShloMosaic Idealize.ShloMosaic.TcCoe Idealize.SL.Sem Idealize.ShloMosaic.StableHlo

set_option maxHeartbeats 2000000 in
/-- After layer one's dense operations, its output buffer holds the first layer function of the aggregated features,
    the weight and the bias. -/
theorem opsL1_v23 (V : Valuation τ sig (Elt Ideal)) :
    StableHlo.after (Run.opsL1 (F := Ideal)) V (Proc.devRef .tc main_v23)
      = ref1 (V (Proc.devRef .tc main_v13)) (V (Proc.devRef .tc main_arg3)) (V (Proc.devRef .tc main_arg4)) := by
  simp only [Run.opsL1]
  after_results_simp
  simp only [TRef.toBuf, TRef.ofBuf, cast_eq]
  rfl

set_option maxHeartbeats 2000000 in
/-- After layer two's dense operations, its output buffer holds the second layer function of the aggregated features,
    the weight and the bias. -/
theorem opsL2_v47 (V : Valuation τ sig (Elt Ideal)) :
    StableHlo.after (Run.opsL2 (F := Ideal)) V (Proc.devRef .tc main_v47)
      = ref2 (V (Proc.devRef .tc main_v37)) (V (Proc.devRef .tc main_arg5)) (V (Proc.devRef .tc main_arg6)) := by
  simp only [Run.opsL2]
  after_results_simp
  simp only [TRef.toBuf, TRef.ofBuf, cast_eq]
  rfl

set_option maxHeartbeats 2000000 in
/-- After layer three's dense operations, its output buffer holds the third layer function of the aggregated features,
    the weight and the bias. -/
theorem opsL3_v70 (V : Valuation τ sig (Elt Ideal)) :
    StableHlo.after (Run.opsL3 (F := Ideal)) V (Proc.devRef .tc main_v70)
      = ref3 (V (Proc.devRef .tc main_v61)) (V (Proc.devRef .tc main_arg7)) (V (Proc.devRef .tc main_arg8)) := by
  simp only [Run.opsL3]
  after_results_simp
  simp only [TRef.toBuf, TRef.ofBuf, cast_eq]
  rfl

end Cert.ReferenceIdeal.RefLayerRun

end
-- ==== Proof.RefValue.lean ====
/-
  The idealized reference's buffers at the boundaries between its stretches.

  The reference is one line of host operations; cut where the kernel program has its regions, it is an aggregation,
  a dense layer, an aggregation, a dense layer, an aggregation, a dense layer, and the selection of each graph's
  first node. No operation writes an argument, so at every boundary the weights, biases, edge list and graph ids are
  still the launch memory's; each dense stretch leaves the layer function of the aggregated array before it.
-/
import proofs.«100297_j20117626814683_1_alg».proof.Proof.RefRun
import proofs.«100297_j20117626814683_1_alg».proof.Proof.RefLayer
import proofs.«100297_j20117626814683_1_alg».proof.Proof.RefLayerRun
import proofs.«100297_j20117626814683_1_alg».proof.Proof.LayerSpec

noncomputable section

namespace Cert.ReferenceIdeal.ChainValue

open Cert.ReferenceIdeal Cert.ReferenceIdeal.Gen Cert.ReferenceIdeal.Run Cert.ReferenceIdeal.RefLayer
open Idealize.ShloMosaic Idealize.ShloMosaic.TcCoe Idealize.SL.Sem Idealize.ShloMosaic.StableHlo

variable (m : (ℓ : Loc nD τ sig) → Buf (Elt Ideal) ℓ) (c : Dev nD)

/-- At launch. -/
abbrev U0 : Valuation τ sig (Elt Ideal) := launchContents m c
/-- After the first aggregation. -/
abbrev U1 : Valuation τ sig (Elt Ideal) := after opsA1 (U0 m c)
/-- After the first dense layer. -/
abbrev U2 : Valuation τ sig (Elt Ideal) := after opsL1 (U1 m c)
/-- After the second aggregation. -/
abbrev U3 : Valuation τ sig (Elt Ideal) := after opsA2 (U2 m c)
/-- After the second dense layer. -/
abbrev U4 : Valuation τ sig (Elt Ideal) := after opsL2 (U3 m c)
/-- After the third aggregation. -/
abbrev U5 : Valuation τ sig (Elt Ideal) := after opsA3b (after opsA3a (U4 m c))
/-- After the third dense layer. -/
abbrev U6 : Valuation τ sig (Elt Ideal) := after opsL3 (U5 m c)
/-- After the running count of graph-id changes. -/
abbrev U7 : Valuation τ sig (Elt Ideal) := after opsT1 (after opsT0 (U6 m c))
/-- After the count of nodes per graph slot. -/
abbrev U8 : Valuation τ sig (Elt Ideal) := after opsT4 (after opsT3 (after opsT2 (U7 m c)))
/-- After its running count. -/
abbrev U9 : Valuation τ sig (Elt Ideal) := after opsT5 (U8 m c)
/-- After the floor-division. -/
abbrev U10 : Valuation τ sig (Elt Ideal) := after opsT7 (after opsT6 (U9 m c))
/-- After the remainder. -/
abbrev U11 : Valuation τ sig (Elt Ideal) := after opsT9 (after opsT8 (U10 m c))
/-- At the return. -/
abbrev U12 : Valuation τ sig (Elt Ideal) := after opsTb (after opsT10 (U11 m c))

/-- The whole line's fold is the last boundary's contents. -/
theorem after_ops_eq : after (ops (F := Ideal)) (launchContents m c) = U12 m c := by
  rw [after_ops, after_opsTa]

/-! ## The arguments at the boundaries where they are read -/

theorem U0_arg (r : Ref sig .tc) : U0 m c (Proc.devRef .tc r) = m ((c.tc : Thread nD τ).loc r) := rfl

theorem U1_arg3 : U1 m c (Proc.devRef .tc main_arg3) = m ((c.tc : Thread nD τ).loc main_arg3) := opsA1_keep _ _ (by decide)
theorem U1_arg4 : U1 m c (Proc.devRef .tc main_arg4) = m ((c.tc : Thread nD τ).loc main_arg4) := opsA1_keep _ _ (by decide)
theorem U2_arg1 : U2 m c (Proc.devRef .tc main_arg1) = m ((c.tc : Thread nD τ).loc main_arg1) :=
  (opsL1_keep _ _ (by decide)).trans (opsA1_keep _ _ (by decide))
theorem U3_arg5 : U3 m c (Proc.devRef .tc main_arg5) = m ((c.tc : Thread nD τ).loc main_arg5) :=
  (opsA2_keep _ _ (by decide)).trans ((opsL1_keep _ _ (by decide)).trans (opsA1_keep _ _ (by decide)))
theorem U3_arg6 : U3 m c (Proc.devRef .tc main_arg6) = m ((c.tc : Thread nD τ).loc main_arg6) :=
  (opsA2_keep _ _ (by decide)).trans ((opsL1_keep _ _ (by decide)).trans (opsA1_keep _ _ (by decide)))
theorem U4_arg1 : U4 m c (Proc.devRef .tc main_arg1) = m ((c.tc : Thread nD τ).loc main_arg1) :=
  (opsL2_keep _ _ (by decide)).trans ((opsA2_keep _ _ (by decide)).trans (U2_arg1 m c))
theorem U5_arg7 : U5 m c (Proc.devRef .tc main_arg7) = m ((c.tc : Thread nD τ).loc main_arg7) :=
  (opsA3b_keep _ _ (by decide)).trans ((opsA3a_keep _ _ (by decide)).trans ((opsL2_keep _ _ (by decide)).trans ((opsA2_keep _ _ (by decide)).trans
    ((opsL1_keep _ _ (by decide)).trans (opsA1_keep _ _ (by decide))))))
theorem U5_arg8 : U5 m c (Proc.devRef .tc main_arg8) = m ((c.tc : Thread nD τ).loc main_arg8) :=
  (opsA3b_keep _ _ (by decide)).trans ((opsA3a_keep _ _ (by decide)).trans ((opsL2_keep _ _ (by decide)).trans ((opsA2_keep _ _ (by decide)).trans
    ((opsL1_keep _ _ (by decide)).trans (opsA1_keep _ _ (by decide))))))
theorem U6_arg2 : U6 m c (Proc.devRef .tc main_arg2) = m ((c.tc : Thread nD τ).loc main_arg2) :=
  (opsL3_keep _ _ (by decide)).trans ((opsA3b_keep _ _ (by decide)).trans ((opsA3a_keep _ _ (by decide)).trans ((opsL2_keep _ _ (by decide)).trans
    ((opsA2_keep _ _ (by decide)).trans ((opsL1_keep _ _ (by decide)).trans (opsA1_keep _ _ (by decide)))))))

/-! ## The dense layers -/

/-- The first dense stretch leaves the rectified layer of the first aggregation. -/
theorem U2_v23 : U2 m c (Proc.devRef .tc main_v23)
    = Cert.Sage.layerAct (N := 50000) (K := 128) (D := 256) (U1 m c (Proc.devRef .tc main_v13))
        (m ((c.tc : Thread nD τ).loc main_arg3)) (m ((c.tc : Thread nD τ).loc main_arg4)) := by
  have h := (RefLayerRun.opsL1_v23 (U1 m c)).trans (ref1_eq _ _ _)
  rw [U1_arg3 m c, U1_arg4 m c] at h
  exact h

/-- The second dense stretch leaves the rectified layer of the second aggregation. -/
theorem U4_v47 : U4 m c (Proc.devRef .tc main_v47)
    = Cert.Sage.layerAct (N := 50000) (K := 256) (D := 256) (U3 m c (Proc.devRef .tc main_v37))
        (m ((c.tc : Thread nD τ).loc main_arg5)) (m ((c.tc : Thread nD τ).loc main_arg6)) := by
  have h := (RefLayerRun.opsL2_v47 (U3 m c)).trans (ref2_eq _ _ _)
  rw [U3_arg5 m c, U3_arg6 m c] at h
  exact h

/-- The third dense stretch leaves the layer, not rectified, of the third aggregation. -/
theorem U6_v70 : U6 m c (Proc.devRef .tc main_v70)
    = Cert.Sage.layerLin (N := 50000) (K := 256) (D := 64) (U5 m c (Proc.devRef .tc main_v61))
        (m ((c.tc : Thread nD τ).loc main_arg7)) (m ((c.tc : Thread nD τ).loc main_arg8)) := by
  have h := (RefLayerRun.opsL3_v70 (U5 m c)).trans (ref3_eq _ _ _)
  rw [U5_arg7 m c, U5_arg8 m c] at h
  exact h

/-- The last layer's output is read only by the final gather: every step of the selection before it keeps it. -/
theorem U11_v70 : U11 m c (Proc.devRef .tc main_v70) = U6 m c (Proc.devRef .tc main_v70) :=
  (opsT9_keep _ _ (by decide)).trans ((opsT8_keep _ _ (by decide)).trans ((opsT7_keep _ _ (by decide)).trans ((opsT6_keep _ _ (by decide)).trans
    ((opsT5_keep _ _ (by decide)).trans ((opsT4_keep _ _ (by decide)).trans ((opsT3_keep _ _ (by decide)).trans ((opsT2_keep _ _ (by decide)).trans
      ((opsT1_keep _ _ (by decide)).trans (opsT0_keep _ _ (by decide))))))))))

end Cert.ReferenceIdeal.ChainValue

end
-- ==== Proof.Pairing.lean ====
/-
  The two programs' host stretches, compared stretch by stretch.

  Around the dense layers both programs run the same host operations: the aggregation (split the edge list into its
  source and target rows, wrap negative sources, gather the node rows by source, scatter-add them by target) and, at
  the end, the selection of each graph's first node (mark where the graph id changes, running count, clip, count per
  graph, running count again, an integer floor-division by one and remainder by the node count, wrap, gather). The
  kernel program splits the edge list once and reuses the two rows; the reference splits it again before every
  aggregation. Each lemma below says: from buffer contents that agree on what a stretch READS, the two programs'
  stretches leave the same contents in the buffer the next step reads. Both sides are the same composition of the
  same operations, so once each fold is read at its result buffer the two terms coincide.
-/
import proofs.«100297_j20117626814683_1_alg».proof.Proof.Gen.KernelIdeal.Launch
import proofs.«100297_j20117626814683_1_alg».proof.Proof.KernelHost
import proofs.«100297_j20117626814683_1_alg».proof.Proof.RefOps
import Idealize.ShloMosaic.Lib.StableHlo.Run
import Idealize.ShloMosaic.PureOps.Ideal

noncomputable section

namespace Cert.Pairing

open Idealize.ShloMosaic Idealize.ShloMosaic.TcCoe Idealize.SL.Sem Idealize.ShloMosaic.StableHlo
open Cert.KernelIdeal.HostValue (srcRow dstRow)

/-- Buffer contents of the idealized kernel program … -/
abbrev KVal := Valuation Cert.KernelIdeal.τ Cert.KernelIdeal.sig (Elt Ideal)
/-- … and of the idealized reference. -/
abbrev RVal := Valuation Cert.ReferenceIdeal.τ Cert.ReferenceIdeal.sig (Elt Ideal)

/-- Read each remaining operation's result at a literal buffer: at its own result buffer its function's value, at any
    other buffer what was there (for the places a rewriting pass under a dependent pair does not reach). -/
macro "results_by_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable (VK : KVal) (VR : RVal)

/-! ## The three aggregations -/

/-- The first aggregation: from the same node features and edge list, the same aggregated array. -/
theorem agg1 (h0 : VK (Proc.devRef .tc Cert.KernelIdeal.main_arg0) = VR (Proc.devRef .tc Cert.ReferenceIdeal.main_arg0)) (h1 : VK (Proc.devRef .tc Cert.KernelIdeal.main_arg1) = VR (Proc.devRef .tc Cert.ReferenceIdeal.main_arg1)) :
    after Cert.KernelIdeal.Gen.hostOps0 VK (Proc.devRef .tc Cert.KernelIdeal.main_v13) = after Cert.ReferenceIdeal.Run.opsA1 VR (Proc.devRef .tc Cert.ReferenceIdeal.main_v13) := by
  simp only [Cert.KernelIdeal.Gen.hostOps0, Cert.ReferenceIdeal.Run.opsA1]
  after_results_simp
  results_by_rw
  rw [h0, h1]
  try rfl

/-- The second aggregation: the kernel program reads the two edge rows it split off earlier, the reference splits the
    edge list again. -/
theorem agg2 (hx : VK (Proc.devRef .tc Cert.KernelIdeal.main_v14) = VR (Proc.devRef .tc Cert.ReferenceIdeal.main_v23))
    (hs : VK (Proc.devRef .tc Cert.KernelIdeal.main_v1) = srcRow (VR (Proc.devRef .tc Cert.ReferenceIdeal.main_arg1))) (hd : VK (Proc.devRef .tc Cert.KernelIdeal.main_v3) = dstRow (VR (Proc.devRef .tc Cert.ReferenceIdeal.main_arg1))) :
    after Cert.KernelIdeal.Gen.hostOps1 VK (Proc.devRef .tc Cert.KernelIdeal.main_v24) = after Cert.ReferenceIdeal.Run.opsA2 VR (Proc.devRef .tc Cert.ReferenceIdeal.main_v37) := by
  simp only [Cert.KernelIdeal.Gen.hostOps1, Cert.ReferenceIdeal.Run.opsA2]
  after_results_simp
  results_by_rw
  rw [hx, hs, hd]
  try rfl

/-- The third aggregation, likewise (the reference's copy is cut in two by a statement window's end). -/
theorem agg3 (hx : VK (Proc.devRef .tc Cert.KernelIdeal.main_v25) = VR (Proc.devRef .tc Cert.ReferenceIdeal.main_v47))
    (hs : VK (Proc.devRef .tc Cert.KernelIdeal.main_v1) = srcRow (VR (Proc.devRef .tc Cert.ReferenceIdeal.main_arg1))) (hd : VK (Proc.devRef .tc Cert.KernelIdeal.main_v3) = dstRow (VR (Proc.devRef .tc Cert.ReferenceIdeal.main_arg1))) :
    after Cert.KernelIdeal.Gen.hostOps2 VK (Proc.devRef .tc Cert.KernelIdeal.main_v35) = after Cert.ReferenceIdeal.Run.opsA3b (after Cert.ReferenceIdeal.Run.opsA3a VR) (Proc.devRef .tc Cert.ReferenceIdeal.main_v61) := by
  simp only [Cert.KernelIdeal.Gen.hostOps2, Cert.ReferenceIdeal.Run.opsA3a, Cert.ReferenceIdeal.Run.opsA3b]
  after_results_simp
  results_by_rw
  rw [hx, hs, hd]
  try rfl

/-! ## The selection of each graph's first node, in six steps -/

/-- The running count of "the graph id changes here", from the same graph ids. -/
theorem first1 (h : VK (Proc.devRef .tc Cert.KernelIdeal.main_arg2) = VR (Proc.devRef .tc Cert.ReferenceIdeal.main_arg2)) :
    after Cert.KernelIdeal.Gen.hostOps3_1 (after Cert.KernelIdeal.Gen.hostOps3 VK) (Proc.devRef .tc Cert.KernelIdeal.main_v42)
      = after Cert.ReferenceIdeal.Run.opsT1 (after Cert.ReferenceIdeal.Run.opsT0 VR) (Proc.devRef .tc Cert.ReferenceIdeal.main_v76) := by
  simp only [Cert.KernelIdeal.Gen.hostOps3, Cert.KernelIdeal.Gen.hostOps3_1, Cert.ReferenceIdeal.Run.opsT0, Cert.ReferenceIdeal.Run.opsT1]
  after_results_simp
  results_by_rw
  rw [h]
  try rfl

/-- The count of nodes per graph slot: clip the running count, wrap it, scatter-add ones. -/
theorem first2 (h : VK (Proc.devRef .tc Cert.KernelIdeal.main_v42) = VR (Proc.devRef .tc Cert.ReferenceIdeal.main_v76)) :
    after Cert.KernelIdeal.Gen.hostOps3_4 (after Cert.KernelIdeal.Gen.hostOps3_3 (after Cert.KernelIdeal.Gen.hostOps3_2 VK)) (Proc.devRef .tc Cert.KernelIdeal.main_v52)
      = after Cert.ReferenceIdeal.Run.opsT4 (after Cert.ReferenceIdeal.Run.opsT3 (after Cert.ReferenceIdeal.Run.opsT2 VR)) (Proc.devRef .tc Cert.ReferenceIdeal.main_v86) := by
  simp only [Cert.KernelIdeal.Gen.hostOps3_2, Cert.KernelIdeal.Gen.hostOps3_3, Cert.KernelIdeal.Gen.hostOps3_4, Cert.ReferenceIdeal.Run.opsT2, Cert.ReferenceIdeal.Run.opsT3, Cert.ReferenceIdeal.Run.opsT4]
  after_results_simp
  results_by_rw
  rw [h]
  try rfl

/-- Its running count. -/
theorem first3 (h : VK (Proc.devRef .tc Cert.KernelIdeal.main_v52) = VR (Proc.devRef .tc Cert.ReferenceIdeal.main_v86)) :
    after Cert.KernelIdeal.Gen.hostOps3_5 VK (Proc.devRef .tc Cert.KernelIdeal.main_v53) = after Cert.ReferenceIdeal.Run.opsT5 VR (Proc.devRef .tc Cert.ReferenceIdeal.main_v87) := by
  simp only [Cert.KernelIdeal.Gen.hostOps3_5, Cert.ReferenceIdeal.Run.opsT5]
  after_results_simp
  results_by_rw
  rw [h]
  try rfl

/-- The floor-division by one. -/
theorem first4 (h : VK (Proc.devRef .tc Cert.KernelIdeal.main_v53) = VR (Proc.devRef .tc Cert.ReferenceIdeal.main_v87)) :
    after Cert.KernelIdeal.Gen.hostOps3_7 (after Cert.KernelIdeal.Gen.hostOps3_6 VK) (Proc.devRef .tc Cert.KernelIdeal.main_v54)
      = after Cert.ReferenceIdeal.Run.opsT7 (after Cert.ReferenceIdeal.Run.opsT6 VR) (Proc.devRef .tc Cert.ReferenceIdeal.main_v88) := by
  simp only [Cert.KernelIdeal.Gen.hostOps3_6, Cert.KernelIdeal.Gen.hostOps3_7, Cert.ReferenceIdeal.Run.opsT6, Cert.ReferenceIdeal.Run.opsT7]
  after_results_simp
  results_by_rw
  rw [h]
  try rfl

/-- The remainder by the node count. -/
theorem first5 (h : VK (Proc.devRef .tc Cert.KernelIdeal.main_v54) = VR (Proc.devRef .tc Cert.ReferenceIdeal.main_v88)) :
    after Cert.KernelIdeal.Gen.hostOps3_9 (after Cert.KernelIdeal.Gen.hostOps3_8 VK) (Proc.devRef .tc Cert.KernelIdeal.main_v55)
      = after Cert.ReferenceIdeal.Run.opsT9 (after Cert.ReferenceIdeal.Run.opsT8 VR) (Proc.devRef .tc Cert.ReferenceIdeal.main_v89) := by
  simp only [Cert.KernelIdeal.Gen.hostOps3_8, Cert.KernelIdeal.Gen.hostOps3_9, Cert.ReferenceIdeal.Run.opsT8, Cert.ReferenceIdeal.Run.opsT9]
  after_results_simp
  results_by_rw
  rw [h]
  try rfl

/-- The wrap of the node indices and the gather of those rows of the last layer's output. -/
theorem first6 (h1 : VK (Proc.devRef .tc Cert.KernelIdeal.main_v55) = VR (Proc.devRef .tc Cert.ReferenceIdeal.main_v89)) (h2 : VK (Proc.devRef .tc Cert.KernelIdeal.main_v36) = VR (Proc.devRef .tc Cert.ReferenceIdeal.main_v70)) :
    after Cert.KernelIdeal.Gen.hostOps3_10 VK (Proc.devRef .tc Cert.KernelIdeal.main_v62)
      = after Cert.ReferenceIdeal.Run.opsTb (after Cert.ReferenceIdeal.Run.opsT10 VR) (Proc.devRef .tc Cert.ReferenceIdeal.main_v96) := by
  simp only [Cert.KernelIdeal.Gen.hostOps3_10, Cert.ReferenceIdeal.Run.opsT10, Cert.ReferenceIdeal.Run.opsTb]
  after_results_simp
  results_by_rw
  rw [h1, h2]
  try rfl

end Cert.Pairing

end
-- ==== Proof.Assembly.lean ====
/-
  The two idealized programs end with the same result.

  Boundary by boundary: the first aggregations agree because the arguments do; a dense layer is, in the kernel
  program, a region whose output array is the layer function of its input array, and, in the reference, a stretch of
  host operations that leaves the same layer function — so the layers' outputs agree when their inputs do; the next
  aggregation reads that output and the edge rows; and the selection of each graph's first node reads the graph ids
  and, at its last step, the last layer's output. The layer function is the only place where the two programs compute
  differently (row blocks against whole arrays; a strict against a non-strict test in the rectifier, equal at zero).
-/
import proofs.«100297_j20117626814683_1_alg».proof.Proof.KernelValue
import proofs.«100297_j20117626814683_1_alg».proof.Proof.RefValue
import proofs.«100297_j20117626814683_1_alg».proof.Proof.Pairing

noncomputable section

namespace Cert.Assembly

open Idealize.ShloMosaic Idealize.ShloMosaic.TcCoe Idealize.SL.Sem Idealize.ShloMosaic.StableHlo
open Cert.KernelIdeal.Gen Cert.KernelIdeal.ChainValue Cert.ReferenceIdeal.ChainValue

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- From launch memories that agree on the nine arguments, the kernel program's last boundary holds in its result
    buffer what the reference's does in its own. -/
theorem result_eq
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    W17 m ρ c (Proc.devRef .tc Cert.KernelIdeal.main_v62) = U12 m' c (Proc.devRef .tc Cert.ReferenceIdeal.main_v96) := by
  -- the first aggregation
  have E1 : W1 m ρ c (Proc.devRef .tc Cert.KernelIdeal.main_v13) = U1 m' c (Proc.devRef .tc Cert.ReferenceIdeal.main_v13) :=
    Cert.Pairing.agg1 (W0 m ρ c) (U0 m' c) a0.symm a1.symm
  -- the first layer
  have E2 : W2 m ρ c (Proc.devRef .tc Cert.KernelIdeal.main_v14) = U2 m' c (Proc.devRef .tc Cert.ReferenceIdeal.main_v23) := by
    rw [W2_v14, U2_v23, E1, a3, a4]
  -- the second aggregation
  have E3 : W3 m ρ c (Proc.devRef .tc Cert.KernelIdeal.main_v24) = U3 m' c (Proc.devRef .tc Cert.ReferenceIdeal.main_v37) :=
    Cert.Pairing.agg2 (W2 m ρ c) (U2 m' c) E2 (by rw [W2_v1, U2_arg1, a1]) (by rw [W2_v3, U2_arg1, a1])
  -- the second layer
  have E4 : W4 m ρ c (Proc.devRef .tc Cert.KernelIdeal.main_v25) = U4 m' c (Proc.devRef .tc Cert.ReferenceIdeal.main_v47) := by
    rw [W4_v25, U4_v47, E3, a5, a6]
  -- the third aggregation
  have E5 : W5 m ρ c (Proc.devRef .tc Cert.KernelIdeal.main_v35) = U5 m' c (Proc.devRef .tc Cert.ReferenceIdeal.main_v61) :=
    Cert.Pairing.agg3 (W4 m ρ c) (U4 m' c) E4 (by rw [W4_v1, U4_arg1, a1]) (by rw [W4_v3, U4_arg1, a1])
  -- the third layer
  have E6 : W6 m ρ c (Proc.devRef .tc Cert.KernelIdeal.main_v36) = U6 m' c (Proc.devRef .tc Cert.ReferenceIdeal.main_v70) := by
    rw [W6_v36, U6_v70, E5, a7, a8]
  -- the selection of each graph's first node
  have F1 : W8 m ρ c (Proc.devRef .tc Cert.KernelIdeal.main_v42) = U7 m' c (Proc.devRef .tc Cert.ReferenceIdeal.main_v76) :=
    Cert.Pairing.first1 (W6 m ρ c) (U6 m' c) (by rw [W6_arg2, U6_arg2, a2])
  have F2 : W11 m ρ c (Proc.devRef .tc Cert.KernelIdeal.main_v52) = U8 m' c (Proc.devRef .tc Cert.ReferenceIdeal.main_v86) := Cert.Pairing.first2 (W8 m ρ c) (U7 m' c) F1
  have F3 : W12 m ρ c (Proc.devRef .tc Cert.KernelIdeal.main_v53) = U9 m' c (Proc.devRef .tc Cert.ReferenceIdeal.main_v87) := Cert.Pairing.first3 (W11 m ρ c) (U8 m' c) F2
  have F4 : W14 m ρ c (Proc.devRef .tc Cert.KernelIdeal.main_v54) = U10 m' c (Proc.devRef .tc Cert.ReferenceIdeal.main_v88) := Cert.Pairing.first4 (W12 m ρ c) (U9 m' c) F3
  have F5 : W16 m ρ c (Proc.devRef .tc Cert.KernelIdeal.main_v55) = U11 m' c (Proc.devRef .tc Cert.ReferenceIdeal.main_v89) := Cert.Pairing.first5 (W14 m ρ c) (U10 m' c) F4
  have G : W16 m ρ c (Proc.devRef .tc Cert.KernelIdeal.main_v36) = U11 m' c (Proc.devRef .tc Cert.ReferenceIdeal.main_v70) :=
    (Cert.KernelIdeal.HostValue.tail_keeps_v36 (W6 m ρ c)).trans (E6.trans (U11_v70 m' c).symm)
  exact Cert.Pairing.first6 (W16 m ρ c) (U11 m' c) F5 G

end Cert.Assembly

end
-- ==== Proof.lean ====
/-
  The certificate of a three-layer graph network: a Pallas kernel per dense layer, against its plain reference.

  Each layer aggregates node features along the edges (gather the source rows, add them into the target rows), applies
  a linear map with bias, scales every row to unit Euclidean length (the norm clamped below by a small constant), and —
  in the first two layers — a leaky rectifier; at the end the first node of every graph is selected. The kernel program
  computes the dense part of a layer on row blocks of 2000 nodes, with the matrix product's operands narrowed to bf16;
  the reference computes it on the whole array. At the ideal instance (floats are extended reals, every operation
  exact, a change of format the identity) both compute, for every node row, the same function of that row of the
  aggregated features: the entries of a row depend on no other row, so the blocking does not matter, and a matrix
  product is the same sum however it is grouped. The two rectifiers test `0 < y` and `0 ≤ y`; at `y = 0` both branches
  give `0`. No law used needs the inputs finite, so the precondition is not opened.

  * the frames of the two kernel programs are the generated ones; the reference's is its run with the result dropped;
  * nothing was rewritten by the ideal pass, so the idealization claim is `True`;
  * the value claim: the kernel program's run with its result named (`RunValue.run_result`), the reference's run
    (`Run.run_all`), and the equality of the two results (`Assembly.result_eq`).
-/
import proofs.«100297_j20117626814683_1_alg».proof.Defs
import proofs.«100297_j20117626814683_1_alg».proof.Proof.Gen.Kernel
import proofs.«100297_j20117626814683_1_alg».proof.Proof.Gen.Kernel.Frame
import proofs.«100297_j20117626814683_1_alg».proof.Proof.Gen.KernelIdeal
import proofs.«100297_j20117626814683_1_alg».proof.Proof.Gen.KernelIdeal.Frame
import proofs.«100297_j20117626814683_1_alg».proof.Proof.Gen.ReferenceIdeal
import proofs.«100297_j20117626814683_1_alg».proof.Proof.Gen.Pre_finite_inputs
import proofs.«100297_j20117626814683_1_alg».proof.Proof.KernelRun
import proofs.«100297_j20117626814683_1_alg».proof.Proof.RefRun
import proofs.«100297_j20117626814683_1_alg».proof.Proof.Assembly
import Idealize.ShloMosaic.Adequacy
import Idealize.ShloMosaic.Init

noncomputable section

namespace Cert.Proof

open Idealize.ShloMosaic Idealize.SL.Sem Idealize.ShloMosaic.StableHlo

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations none of which writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.Run.ops_keep_arg _ Cert.ReferenceIdeal.main_arg0 (by decide)),
     (h c Cert.ReferenceIdeal.main_arg1).trans (Cert.ReferenceIdeal.Run.ops_keep_arg _ Cert.ReferenceIdeal.main_arg1 (by decide)),
     (h c Cert.ReferenceIdeal.main_arg2).trans (Cert.ReferenceIdeal.Run.ops_keep_arg _ Cert.ReferenceIdeal.main_arg2 (by decide)),
     (h c Cert.ReferenceIdeal.main_arg3).trans (Cert.ReferenceIdeal.Run.ops_keep_arg _ Cert.ReferenceIdeal.main_arg3 (by decide)),
     (h c Cert.ReferenceIdeal.main_arg4).trans (Cert.ReferenceIdeal.Run.ops_keep_arg _ Cert.ReferenceIdeal.main_arg4 (by decide)),
     (h c Cert.ReferenceIdeal.main_arg5).trans (Cert.ReferenceIdeal.Run.ops_keep_arg _ Cert.ReferenceIdeal.main_arg5 (by decide)),
     (h c Cert.ReferenceIdeal.main_arg6).trans (Cert.ReferenceIdeal.Run.ops_keep_arg _ Cert.ReferenceIdeal.main_arg6 (by decide)),
     (h c Cert.ReferenceIdeal.main_arg7).trans (Cert.ReferenceIdeal.Run.ops_keep_arg _ Cert.ReferenceIdeal.main_arg7 (by decide)),
     (h c Cert.ReferenceIdeal.main_arg8).trans (Cert.ReferenceIdeal.Run.ops_keep_arg _ Cert.ReferenceIdeal.main_arg8 (by decide))⟩)
    (Cert.ReferenceIdeal.Run.run_all (F := Ideal) m ρ)

/-- The ideal pass rewrote nothing. -/
theorem preserves : Cert.preserves_Kernel_KernelIdeal := trivial

/-- Both idealized programs run, from memories that agree on the arguments, to equal results. -/
theorem algebraic : Cert.algebraic_KernelIdeal_ReferenceIdeal := by
  intro m ρ m' ρ' _ hagree
  refine ⟨fun c => Cert.KernelIdeal.Gen.W17 m ρ c (Proc.devRef .tc Cert.KernelIdeal.main_v62),
    Cert.KernelIdeal.RunValue.run_result m ρ, ?_⟩
  refine (θ_run Cert.ReferenceIdeal.defs _ _).mono (fun _ h c => ?_) (Cert.ReferenceIdeal.Run.run_all (F := Ideal) m' ρ')
  obtain ⟨a0, a1, a2, a3, a4, a5, a6, a7, a8⟩ := hagree c
  refine ⟨?_, (h c Cert.ReferenceIdeal.main_arg0).trans (Cert.ReferenceIdeal.Run.ops_keep_arg _ Cert.ReferenceIdeal.main_arg0 (by decide)),
    (h c Cert.ReferenceIdeal.main_arg1).trans (Cert.ReferenceIdeal.Run.ops_keep_arg _ Cert.ReferenceIdeal.main_arg1 (by decide)),
    (h c Cert.ReferenceIdeal.main_arg2).trans (Cert.ReferenceIdeal.Run.ops_keep_arg _ Cert.ReferenceIdeal.main_arg2 (by decide)),
    (h c Cert.ReferenceIdeal.main_arg3).trans (Cert.ReferenceIdeal.Run.ops_keep_arg _ Cert.ReferenceIdeal.main_arg3 (by decide)),
    (h c Cert.ReferenceIdeal.main_arg4).trans (Cert.ReferenceIdeal.Run.ops_keep_arg _ Cert.ReferenceIdeal.main_arg4 (by decide)),
    (h c Cert.ReferenceIdeal.main_arg5).trans (Cert.ReferenceIdeal.Run.ops_keep_arg _ Cert.ReferenceIdeal.main_arg5 (by decide)),
    (h c Cert.ReferenceIdeal.main_arg6).trans (Cert.ReferenceIdeal.Run.ops_keep_arg _ Cert.ReferenceIdeal.main_arg6 (by decide)),
    (h c Cert.ReferenceIdeal.main_arg7).trans (Cert.ReferenceIdeal.Run.ops_keep_arg _ Cert.ReferenceIdeal.main_arg7 (by decide)),
    (h c Cert.ReferenceIdeal.main_arg8).trans (Cert.ReferenceIdeal.Run.ops_keep_arg _ Cert.ReferenceIdeal.main_arg8 (by decide))⟩
  refine (h c Cert.ReferenceIdeal.main_v96).trans ?_
  rw [Cert.ReferenceIdeal.ChainValue.after_ops_eq]
  exact (Cert.Assembly.result_eq m ρ m' c a0 a1 a2 a3 a4 a5 a6 a7 a8).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
